-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x256 : Shape := ⟨2, ![40000, 256]⟩
abbrev S2x640000 : Shape := ⟨2, ![2, 640000]⟩
abbrev S256x128 : Shape := ⟨2, ![256, 128]⟩
abbrev S128 : Shape := ⟨1, ![128]⟩
abbrev S_ : Shape := ⟨0, ![]⟩

class Facts : Prop where
  bcast_S_S40000x256 : S_.BroadcastsInDim S40000x256 (![] : Fin 0 → Fin S40000x256.rank)
  reducesTo_S40000x256_S_d0_1 : S40000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S40000x256 .f32) (main_arg1 : IVec S2x640000 32) (main_arg2 : FVec F S256x128 .f32) (main_arg3 : FVec F S128 .f32) : IVec S_ 1 :=
  let main_v0 : FVec F S40000x256 .f32 := Host.absf main_arg0
  let main_cst : FVec F S_ .f32 := constant S_ .f32 0x7F800000#32
  let main_v1 : FVec F S40000x256 .f32 := broadcastInDim S40000x256 ![] bcast_S_S40000x256 main_cst
  let main_v2 : IVec S40000x256 1 := cmpf .olt main_v0 main_v1
  let main_c : IVec S_ 1 := constantI S_ 1 1#1
  let main_v3 : IVec S_ 1 := (fun x v => Host.reduce IntOp.andi x v reducesTo_S40000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S40000x256 : Shape := ⟨2, ![40000, 256]⟩
abbrev S2x640000 : Shape := ⟨2, ![2, 640000]⟩
abbrev S256x128 : Shape := ⟨2, ![256, 128]⟩
abbrev S128 : Shape := ⟨1, ![128]⟩
abbrev S40000 : Shape := ⟨1, ![40000]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S40000x128 : Shape := ⟨2, ![40000, 128]⟩
abbrev S2000x256 : Shape := ⟨2, ![2000, 256]⟩
abbrev S2000x128 : Shape := ⟨2, ![2000, 128]⟩
abbrev S680000x128 : Shape := ⟨2, ![680000, 128]⟩
abbrev S1x128 : Shape := ⟨2, ![1, 128]⟩
abbrev S40960x128 : Shape := ⟨2, ![40960, 128]⟩
abbrev S4000x128 : Shape := ⟨2, ![4000, 128]⟩
abbrev S4000x1 : Shape := ⟨2, ![4000, 1]⟩
abbrev S1280x128 : Shape := ⟨2, ![1280, 128]⟩
abbrev S1x1280 : Shape := ⟨2, ![1, 1280]⟩
abbrev S4000x1280 : Shape := ⟨2, ![4000, 1280]⟩

abbrev nBuf : Space → Nat
  | .hbm => 62
  | .vmem => 13
  | .smem => 0
  | _ => 0

abbrev bufTy : (tb : Table) → Fin (tcTables nBuf tb) → BufTy
  | .hbm, ⟨0, _⟩ => ⟨S40000x256, .f32⟩
  | .hbm, ⟨1, _⟩ => ⟨S2x640000, .i32⟩
  | .hbm, ⟨2, _⟩ => ⟨S256x128, .f32⟩
  | .hbm, ⟨3, _⟩ => ⟨S128, .f32⟩
  | .hbm, ⟨4, _⟩ => ⟨S40000, .i32⟩
  | .hbm, ⟨5, _⟩ => ⟨S1x640000, .i32⟩
  | .hbm, ⟨6, _⟩ => ⟨S640000, .i32⟩
  | .hbm, ⟨7, _⟩ => ⟨S680000, .i32⟩
  | .hbm, ⟨8, _⟩ => ⟨S1x640000, .i32⟩
  | .hbm, ⟨9, _⟩ => ⟨S640000, .i32⟩
  | .hbm, ⟨10, _⟩ => ⟨S680000, .i32⟩
  | .hbm, ⟨11, _⟩ => ⟨S_, .f32⟩
  | .hbm, ⟨12, _⟩ => ⟨S680000, .f32⟩
  | .hbm, ⟨13, _⟩ => ⟨S_, .f32⟩
  | .hbm, ⟨14, _⟩ => ⟨S40000, .f32⟩
  | .hbm, ⟨15, _⟩ => ⟨S680000x1, .i32⟩
  | .hbm, ⟨16, _⟩ => ⟨S40000, .f32⟩
  | .hbm, ⟨17, _⟩ => ⟨S_, .f32⟩
  | .hbm, ⟨18, _⟩ => ⟨S40000, .f32⟩
  | .hbm, ⟨19, _⟩ => ⟨S40000, .i1⟩
  | .hbm, ⟨20, _⟩ => ⟨S40000, .f32⟩
  | .hbm, ⟨21, _⟩ => ⟨S_, .f32⟩
  | .hbm, ⟨22, _⟩ => ⟨S_, .f32⟩
  | .hbm, ⟨23, _⟩ => ⟨S40000, .f32⟩
  | .hbm, ⟨24, _⟩ => ⟨S40000, .f32⟩
  | .hbm, ⟨25, _⟩ => ⟨S_, .i32⟩
  | .hbm, ⟨26, _⟩ => ⟨S680000, .i32⟩
  | .hbm, ⟨27, _⟩ => ⟨S680000, .i1⟩
  | .hbm, ⟨28, _⟩ => ⟨S_, .i32⟩
  | .hbm, ⟨29, _⟩ => ⟨S680000, .i32⟩
  | .hbm, ⟨30, _⟩ => ⟨S680000, .i32⟩
  | .hbm, ⟨31, _⟩ => ⟨S680000, .i32⟩
  | .hbm, ⟨32, _⟩ => ⟨S680000x1, .i32⟩
  | .hbm, ⟨33, _⟩ => ⟨S680000, .f32⟩
  | .hbm, ⟨34, _⟩ => ⟨S_, .i32⟩
  | .hbm, ⟨35, _⟩ => ⟨S680000, .i32⟩
  | .hbm, ⟨36, _⟩ => ⟨S680000, .i1⟩
  | .hbm, ⟨37, _⟩ => ⟨S_, .i32⟩
  | .hbm, ⟨38, _⟩ => ⟨S680000, .i32⟩
  | .hbm, ⟨39, _⟩ => ⟨S680000, .i32⟩
  | .hbm, ⟨40, _⟩ => ⟨S680000, .i32⟩
  | .hbm, ⟨41, _⟩ => ⟨S680000x1, .i32⟩
  | .hbm, ⟨42, _⟩ => ⟨S680000, .f32⟩
  | .hbm, ⟨43, _⟩ => ⟨S680000, .f32⟩
  | .hbm, ⟨44, _⟩ => ⟨S40000x128, .f32⟩
  | .hbm, ⟨45, _⟩ => ⟨S680000x1, .f32⟩
  | .hbm, ⟨46, _⟩ => ⟨S_, .i32⟩
  | .hbm, ⟨47, _⟩ => ⟨S680000, .i32⟩
  | .hbm, ⟨48, _⟩ => ⟨S680000, .i1⟩
  | .hbm, ⟨49, _⟩ => ⟨S_, .i32⟩
  | .hbm, ⟨50, _⟩ => ⟨S680000, .i32⟩
  | .hbm, ⟨51, _⟩ => ⟨S680000, .i32⟩
  | .hbm, ⟨52, _⟩ => ⟨S680000, .i32⟩
  | .hbm, ⟨53, _⟩ => ⟨S680000x1, .i32⟩
  | .hbm, ⟨54, _⟩ => ⟨S680000x128, .f32⟩
  | .hbm, ⟨55, _⟩ => ⟨S680000x128, .f32⟩
  | .hbm, ⟨56, _⟩ => ⟨S680000x128, .f32⟩
  | .hbm, ⟨57, _⟩ => ⟨S680000x128, .bf16⟩
  | .hbm, ⟨58, _⟩ => ⟨S680000x1, .i32⟩
  | .hbm, ⟨59, _⟩ => ⟨S1x128, .f32⟩
  | .hbm, ⟨60, _⟩ => ⟨S40960x128, .f32⟩
  | .hbm, ⟨61, _⟩ => ⟨S40000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S4000x128, .bf16⟩
  | .local _ .vmem, ⟨6, _⟩ => ⟨S4000x128, .bf16⟩
  | .local _ .vmem, ⟨7, _⟩ => ⟨S4000x1, .i32⟩
  | .local _ .vmem, ⟨8, _⟩ => ⟨S4000x1, .i32⟩
  | .local _ .vmem, ⟨9, _⟩ => ⟨S1x128, .f32⟩
  | .local _ .vmem, ⟨10, _⟩ => ⟨S1280x128, .f32⟩
  | .local _ .vmem, ⟨11, _⟩ => ⟨S1280x128, .f32⟩
  | .local _ .vmem, ⟨12, _⟩ => ⟨S1280x128, .f32⟩
  | _, _ => ⟨S40000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![32, 170], ![false, false]⟩

def k1_cond2 (i : grid1.Coords) : BitVec 1 :=
  let arg1 : BitVec 32 := BitVec.ofNat 32 (i 1).val
  let c169_i32 : BitVec 32 := 169#32
  let v23 : BitVec 1 := Scalar.cmpi .eq arg1 c169_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1280x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S680000x1_S680000x128_0_1 : S680000x1.BroadcastsInDim S680000x128 (![0, 1] : Fin 2 → Fin S680000x128.rank)
  shapeCasts_S128_S1x128 : S128.ShapeCasts S1x128
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  iota_S1x1280_d1_w32 : S1x1280.Iotas .tc 32 [1]
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x1280 : S4000x1.Broadcasts S4000x1280
  broadcasts_S1x1280_S4000x1280 : S1x1280.Broadcasts S4000x1280
  natLt_1_32 : 1 < 32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1280x128 : S1x128.Broadcasts S1280x128
  slices_S40960x128_S40000x128_0_0 : S40960x128.Slices ![0, 0] S40000x128
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  dot_S2000x256_S256x128_S2000x128_1_0_0_1_n_n_wf : DotDims.WF S2000x256 S256x128 S2000x128 [1] [0] [0] [1] [] []
  gather_S40000x128_S680000x1_S680000x128_1_0_n_n_0_1_1128_wf : GatherDims.WF S40000x128 S680000x1 S680000x128 [1] [0] [] [0] [] 1 ![1, 128]
  dot_S4000x1280_S4000x128_S1280x128_0_0_1_1_n_n_wf : DotDims.WF S4000x1280 S4000x128 S1280x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S40000x256.size a
  hwx0_0 : ∀ i : grid0.Coords, EltTy.bits .f32 = 32 ∨ (Rect.block (s := S40000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S40000x128.size a
  hwx0_2 : ∀ i : grid0.Coords, EltTy.bits .f32 = 32 ∨ (Rect.block (s := S40000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S680000x128.size a
  hwx1_0 : ∀ i : grid1.Coords, EltTy.bits .bf16 = 32 ∨ (Rect.block (s := S680000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S680000x1.size a
  hwx1_1 : ∀ i : grid1.Coords, EltTy.bits .i32 = 32 ∨ (Rect.block (s := S680000x1) S4000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1280x128.size a ≤ S40960x128.size a
  hwx1_3 : ∀ i : grid1.Coords, EltTy.bits .f32 = 32 ∨ (Rect.block (s := S40960x128) S1280x128.size (cc1_transform_3 i) (hinb1_3 i)).WholeWords (EltTy.packing .f32)

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def dot_S4000x1280_S4000x128_S1280x128_0_0_1_1_n_n : DotDims S4000x1280 S4000x128 S1280x128 where
  lhsContracting := [0]
  rhsContracting := [0]
  lhsNonContracting := [1]
  rhsNonContracting := [1]
  lhsBatch := []
  rhsBatch := []
  wf := dot_S4000x1280_S4000x128_S1280x128_0_0_1_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1280x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S40000x256 : Shape := ⟨2, ![40000, 256]⟩
abbrev S2x640000 : Shape := ⟨2, ![2, 640000]⟩
abbrev S256x128 : Shape := ⟨2, ![256, 128]⟩
abbrev S128 : Shape := ⟨1, ![128]⟩
abbrev S40000 : Shape := ⟨1, ![40000]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S40000x128 : Shape := ⟨2, ![40000, 128]⟩
abbrev S680000x128 : Shape := ⟨2, ![680000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S40000x256, .f32⟩
  | .hbm, ⟨1, _⟩ => ⟨S2x640000, .i32⟩
  | .hbm, ⟨2, _⟩ => ⟨S256x128, .f32⟩
  | .hbm, ⟨3, _⟩ => ⟨S128, .f32⟩
  | .hbm, ⟨4, _⟩ => ⟨S40000, .i32⟩
  | .hbm, ⟨5, _⟩ => ⟨S1x640000, .i32⟩
  | .hbm, ⟨6, _⟩ => ⟨S640000, .i32⟩
  | .hbm, ⟨7, _⟩ => ⟨S680000, .i32⟩
  | .hbm, ⟨8, _⟩ => ⟨S1x640000, .i32⟩
  | .hbm, ⟨9, _⟩ => ⟨S640000, .i32⟩
  | .hbm, ⟨10, _⟩ => ⟨S680000, .i32⟩
  | .hbm, ⟨11, _⟩ => ⟨S_, .f32⟩
  | .hbm, ⟨12, _⟩ => ⟨S680000, .f32⟩
  | .hbm, ⟨13, _⟩ => ⟨S_, .f32⟩
  | .hbm, ⟨14, _⟩ => ⟨S40000, .f32⟩
  | .hbm, ⟨15, _⟩ => ⟨S680000x1, .i32⟩
  | .hbm, ⟨16, _⟩ => ⟨S40000, .f32⟩
  | .hbm, ⟨17, _⟩ => ⟨S_, .f32⟩
  | .hbm, ⟨18, _⟩ => ⟨S40000, .f32⟩
  | .hbm, ⟨19, _⟩ => ⟨S40000, .i1⟩
  | .hbm, ⟨20, _⟩ => ⟨S40000, .f32⟩
  | .hbm, ⟨21, _⟩ => ⟨S_, .f32⟩
  | .hbm, ⟨22, _⟩ => ⟨S_, .f32⟩
  | .hbm, ⟨23, _⟩ => ⟨S40000, .f32⟩
  | .hbm, ⟨24, _⟩ => ⟨S40000, .f32⟩
  | .hbm, ⟨25, _⟩ => ⟨S_, .i32⟩
  | .hbm, ⟨26, _⟩ => ⟨S680000, .i32⟩
  | .hbm, ⟨27, _⟩ => ⟨S680000, .i1⟩
  | .hbm, ⟨28, _⟩ => ⟨S_, .i32⟩
  | .hbm, ⟨29, _⟩ => ⟨S680000, .i32⟩
  | .hbm, ⟨30, _⟩ => ⟨S680000, .i32⟩
  | .hbm, ⟨31, _⟩ => ⟨S680000, .i32⟩
  | .hbm, ⟨32, _⟩ => ⟨S680000x1, .i32⟩
  | .hbm, ⟨33, _⟩ => ⟨S680000, .f32⟩
  | .hbm, ⟨34, _⟩ => ⟨S_, .i32⟩
  | .hbm, ⟨35, _⟩ => ⟨S680000, .i32⟩
  | .hbm, ⟨36, _⟩ => ⟨S680000, .i1⟩
  | .hbm, ⟨37, _⟩ => ⟨S_, .i32⟩
  | .hbm, ⟨38, _⟩ => ⟨S680000, .i32⟩
  | .hbm, ⟨39, _⟩ => ⟨S680000, .i32⟩
  | .hbm, ⟨40, _⟩ => ⟨S680000, .i32⟩
  | .hbm, ⟨41, _⟩ => ⟨S680000x1, .i32⟩
  | .hbm, ⟨42, _⟩ => ⟨S680000, .f32⟩
  | .hbm, ⟨43, _⟩ => ⟨S680000, .f32⟩
  | .hbm, ⟨44, _⟩ => ⟨S40000x128, .f32⟩
  | .hbm, ⟨45, _⟩ => ⟨S680000x1, .f32⟩
  | .hbm, ⟨46, _⟩ => ⟨S_, .i32⟩
  | .hbm, ⟨47, _⟩ => ⟨S680000, .i32⟩
  | .hbm, ⟨48, _⟩ => ⟨S680000, .i1⟩
  | .hbm, ⟨49, _⟩ => ⟨S_, .i32⟩
  | .hbm, ⟨50, _⟩ => ⟨S680000, .i32⟩
  | .hbm, ⟨51, _⟩ => ⟨S680000, .i32⟩
  | .hbm, ⟨52, _⟩ => ⟨S680000, .i32⟩
  | .hbm, ⟨53, _⟩ => ⟨S680000x1, .i32⟩
  | .hbm, ⟨54, _⟩ => ⟨S680000x128, .f32⟩
  | .hbm, ⟨55, _⟩ => ⟨S680000x128, .f32⟩
  | .hbm, ⟨56, _⟩ => ⟨S680000x128, .f32⟩
  | .hbm, ⟨57, _⟩ => ⟨S_, .f32⟩
  | .hbm, ⟨58, _⟩ => ⟨S40000x128, .f32⟩
  | .hbm, ⟨59, _⟩ => ⟨S680000x1, .i32⟩
  | .hbm, ⟨60, _⟩ => ⟨S40000x128, .f32⟩
  | .hbm, ⟨61, _⟩ => ⟨S1x128, .f32⟩
  | .hbm, ⟨62, _⟩ => ⟨S40000x128, .f32⟩
  | .hbm, ⟨63, _⟩ => ⟨S40000x128, .f32⟩
  | .hbm, ⟨64, _⟩ => ⟨S_, .f32⟩
  | .hbm, ⟨65, _⟩ => ⟨S40000x128, .f32⟩
  | .hbm, ⟨66, _⟩ => ⟨S40000x128, .f32⟩
  | _, _ => ⟨S40000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  bcast_S680000x1_S680000x128_0_1 : S680000x1.BroadcastsInDim S680000x128 (![0, 1] : Fin 2 → Fin S680000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  dot_S40000x256_S256x128_S40000x128_1_0_0_1_n_n_wf : DotDims.WF S40000x256 S256x128 S40000x128 [1] [0] [0] [1] [] []
  gather_S40000x128_S680000x1_S680000x128_1_0_n_n_0_1_1128_wf : GatherDims.WF S40000x128 S680000x1 S680000x128 [1] [0] [] [0] [] 1 ![1, 128]
  scatter_S40000x128_S680000x1_S680000x128_1_0_0_1_wf : ScatterDims.WF S40000x128 S680000x1 S680000x128 [1] [0] [0] 1

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def scatter_S40000x128_S680000x1_S680000x128_1_0_0_1 : ScatterDims S40000x128 S680000x1 S680000x128 where
  updateWindowDims := [1]
  insertedWindowDims := [0]
  scatterDimsToOperandDims := [0]
  indexVectorDim := 1
  wf := scatter_S40000x128_S680000x1_S680000x128_1_0_0_1_wf

class Facts : Prop extends Facts₀ where

variable [Facts]
-- ==== Proof.FrameKernel.Region0.lean ====
/- The matrix-product region of the layer (the first of its two accelerator regions), stated at a
   parameter V: the contents of the core's buffers when the region is entered.
   Its grid has 20 points. At point t the body is handed a 2000 x 256 block of rows of the feature matrix
   (window 0), the whole 256 x 128 weight matrix (window 1, brought in once, at the first point) and a
   2000 x 128 output block (window 2). It reads both inputs, reads the output block once without using what it
   read, and overwrites the whole output block with the product of the two inputs rounded to sixteen bits,
   accumulated from zero. So what the body leaves in the output block is one function of the two input blocks,
   and the inputs are left as found. This file names that function, proves the body's triple against it, packs
   the region's proof data and discharges the body obligation at every point. -/
import proofs.«110874_j70987219469122_1_alg».proof.Proof.Gen.Kernel.Launch
import proofs.«110874_j70987219469122_1_alg».proof.Proof.Gen.Kernel.Skeleton
import proofs.«110874_j70987219469122_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- The block of window w at point t, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current buffer holds its block at every point, for any proof data over V's array
    whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the weight matrix at every point, though it is brought in at the first
    point only: where it is not brought in, its block index has not moved and the body left it as found. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev rX : Rect S2000x256 := Rect.unit (s := S2000x256) ![0, 0] S2000x256.size inb_S2000x256_S2000x256_0_0
abbrev rW : Rect S256x128 := Rect.unit (s := S256x128) ![0, 0] S256x128.size inb_S256x128_S256x128_0_0
abbrev rO : Rect S2000x128 := Rect.unit (s := S2000x128) ![0, 0] S2000x128.size inb_S2000x128_S2000x128_0_0

/-! ## What the body leaves in the output block -/

/-- The output block after the body, from the two input blocks: its single store, whose payload is the rounded
    product of what the two loads read. -/
def out0_2 (x0 : Vec F S2000x256 .f32) (x1 : Vec F S256x128 .f32) : Vec F S2000x128 .f32 :=
  View.canon [⟨rO, k0_pay1 (View.ld x0 rX) (View.ld x1 rW)⟩]

/-- That one store is the whole block, so it covers it. -/
theorem cover0_2 (p0 : Vec F S2000x128 .f32) (y : S2000x128.Idx) :
    ∃ pc ∈ ([⟨rO, p0⟩] : List (View.Piece (Elt F) S2000x128 .f32)), y ∈ pc.1.set :=
  View.cover_of_tiled [⟨rO, p0⟩] S2000x128.size (by rfl) y

/-! ## The body's triple -/

set_option maxHeartbeats 1000000 in
/-- The body on whole buffers, the inputs at read contents x0 and x1 and the output at anything, runs to a state
    holding the inputs as they were and the output at out0_2 of them. -/
theorem sound_kernel0 (c : Dev nD) (E : Set ℕ) (i : grid0.Coords)
    (arg1 : Memref sig .tc .vmem S2000x256 .f32) (harg1 : arg1.IsWhole)
    (arg2 : Memref sig .tc .vmem S256x128 .f32) (harg2 : arg2.IsWhole)
    (arg3 : Memref sig .tc .vmem S2000x128 .f32) (harg3 : arg3.IsWhole)
    (x0 : Vec F S2000x256 .f32) (x1 : Vec F S256x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core c: the arrays as the region finds them; after the body at point t each
    input's buffer at its block and the output's at out0_2 of the two input blocks; the invariant that of a body
    which keeps nothing between points; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the contents at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block at every point, brought in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant
    and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Frame

end
-- ==== Proof.FrameKernel.Chain.lean ====
import proofs.«110874_j70987219469122_1_alg».proof.Proof.Gen.Kernel.Regions
import proofs.«110874_j70987219469122_1_alg».proof.Proof.FrameKernel.Region0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary of @main

Three host stretches (the degrees, their inverse square roots, the edge norms) lead to the first region; it
changes only the array of the products x·W; one host stretch (the gathered, scaled messages, the destination
column, the bias row) leads to the second region, which changes only the padded aggregate; the last stretch
slices the padding off. -/

/-- The contents the first region is entered with. -/
abbrev W3 : Dev nD → Valuation τ sig (Elt F) := fun c => V3 m c
abbrev E3 : (c : Dev nD) → (b : Ref sig .tc) → Buf (Elt F) ((c : Thread nD τ).loc b) := fun c b => W3 m c b
/-- At its exit: its arrays at what the write-backs leave, everything else as entered. -/
def W4 (c : Dev nD) : Valuation τ sig (Elt F) :=
  Pipeline.withArrays spec0 c (W3 m c) fun w => (dat0 (E3 m) c).arrAt w cfg0.N
theorem W4_arr (c : Dev nD) (w : Fin cfg0.W) :
    W4 m c (Proc.devRef .tc (Pipeline.arrRef spec0 w)) = (dat0 (E3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev E4 : (c : Dev nD) → (b : Ref sig .tc) → Buf (Elt F) ((c : Thread nD τ).loc b) := fun c b => W4 m c b
theorem hF0 (c : Dev nD) (w : Fin cfg0.W) : (dat0 (E3 m) c).arrAt w cfg0.N = E4 m c (Pipeline.arrRef spec0 w) :=
  (W4_arr m c w).symm
theorem hrest0 (c : Dev nD) : ∀ b, b ∉ Finset.univ.image (Pipeline.arrRef spec0) → E4 m c b = E3 m c b :=
  fun b hb => W4_of_ne m c b fun w e => hb (Finset.mem_image.mpr ⟨w, Finset.mem_univ _, e⟩)

/-- The contents the second region is entered with. -/
abbrev W5 : Dev nD → Valuation τ sig (Elt F) := fun c => StableHlo.after hostOps1 (W4 m c)
abbrev E5 : (c : Dev nD) → (b : Ref sig .tc) → Buf (Elt F) ((c : Thread nD τ).loc b) := fun c b => W5 m c b

end Cert.Kernel.Frame

end
-- ==== Proof.FrameKernel.Region1Runs.lean ====
/- Second pallas region (the scatter kernel): what its three case runs share. The blocks of the four
   windows read off the buffer contents found when the region is entered; the two branch conditions of the body
   in closed form over the 32 x 170 grid; where the output window is idle; the staging and scratch memrefs; and the
   region invariant with the scratch accumulator as an owned memref. -/
import proofs.«110874_j70987219469122_1_alg».proof.Proof.Gen.Kernel.Launch
import proofs.«110874_j70987219469122_1_alg».proof.Proof.Gen.Kernel.Skeleton
import proofs.«110874_j70987219469122_1_alg».proof.Proof.Gen.Kernel.Points
import Idealize.ShloMosaic.Lib.Pipeline.FrameBody
import Idealize.ShloMosaic.Lib.Ring
import Idealize.ShloMosaic.Lib.Tactic

-- deciding membership in rectangles of these extents recurses once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional of the body: the second grid coordinate is 0. -/
abbrev cond1_0 (i : grid1.Coords) : Prop := (Scalar.cmpi .ne (Scalar.extui (Scalar.cmpi .eq (BitVec.ofNat 32 (i 1).val) 0#32)) 0#32) = 1#1
/-- It holds exactly at the points whose position is a multiple of 170. -/
theorem hcond1_0 : ∀ t : Fin cfg1.N, cond1_0 (grid1.coords t) ↔ t.val % 170 = 0 :=
  (by decide +kernel : ∀ t : Fin grid1.N, cond1_0 (grid1.coords t) ↔ t.val % 170 = 0)

/-- The second conditional of the body: the second grid coordinate is 169. -/
abbrev cond1_1 (i : grid1.Coords) : Prop := k1_cond2 i = 1#1
/-- It holds exactly at the points whose position is 169 modulo 170. -/
theorem hcond1_1 : ∀ t : Fin cfg1.N, cond1_1 (grid1.coords t) ↔ t.val % 170 = 169 :=
  (by decide +kernel : ∀ t : Fin grid1.N, cond1_1 (grid1.coords t) ↔ t.val % 170 = 169)

/-! ## Where the windows are idle -/

/-- The three inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the second conditional fails the output window is idle: nothing is stored into it. -/
theorem idleAt1_3 (i : grid1.Coords) (h : ¬cond1_1 i) : cfg1.idle 3 i = true := by
  show (!(k1_cond2 i == 1#1)) = true
  rw [Bool.not_eq_true', beq_eq_false_iff_ne]; exact h
/-- Where it holds the output window is live. -/
theorem liveAt1_3 (i : grid1.Coords) (h : cond1_1 i) : cfg1.idle 3 i = false := by
  show (!(k1_cond2 i == 1#1)) = false
  rw [Bool.not_eq_false', beq_iff_eq]; exact h
/-- Where the second conditional fails the output block is not written back. -/
theorem noFlush1_3 (t : Fin cfg1.N) (h : ¬cond1_1 (grid1.coords t)) : (cfg1.win 3).flush t = false := by
  cases hf : (cfg1.win 3).flush t with
  | false => rfl
  | true => exact absurd ((hcond1_1 t).mpr ((flush1_3 t).mp hf)) h

/-! ## The memrefs the body is called with -/

/-- One staging buffer of the output window, through which its contents are stated (the choice does not matter). -/
abbrev VO1_3 : View sig .tc .vmem S1280x128 .f32 := (Memref.whole cc1_stg3_0 : Memref sig .tc .vmem S1280x128 .f32).view
/-- Each window's current staging memref at point `t`, and its wholeness. -/
abbrev ms1_0 (t : Fin cfg1.N) : Memref sig .tc .vmem S4000x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4000x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1280x128 .f32 := win1_3.stage (cfg1.slots t 3)
abbrev hs1_3 (t : Fin cfg1.N) : (ms1_3 t).IsWhole := hstage1_3 ((cfg1.slots t 3).cast nbuf1_3)
/-- The scratch accumulator: a whole scoped buffer of the kernel's own, passed beside the windows. -/
abbrev scM1_0 : Memref sig .tc .vmem S1280x128 .f32 := Memref.whole cc1_scratch0
/-- The same as a view: what it holds is stated through it. -/
abbrev VS1_0 : View sig .tc .vmem S1280x128 .f32 := scM1_0.view

/-- The scoped buffers of the core that this region neither stages through nor uses as scratch (the first
    region's staging buffers), each at some contents. They ride along unchanged. -/
def restScoped1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- Regrouping a chain of six separated conjuncts (and one more beside it) so that the last of the six stands alone. -/
theorem sep_regroup6 (A B C D E S G : sProp 𝕄) :
    iprop((A ∗ B ∗ C ∗ D ∗ E ∗ S) ∗ G) = iprop(((A ∗ B ∗ C ∗ D ∗ E) ∗ S) ∗ G) := by
  have h₁ : iprop((A ∗ B ∗ C ∗ D ∗ E ∗ S) ∗ G) ⊢ iprop(((A ∗ B ∗ C ∗ D ∗ E) ∗ S) ∗ G) := by
    iintro ⟨⟨Ha, Hb, Hc, Hd, He, HS⟩, Hg⟩
    isplitr [Hg]; swap; · iexact Hg
    isplitr [HS]; swap; · iexact HS
    isplitl [Ha]; · iexact Ha
    isplitl [Hb]; · iexact Hb
    isplitl [Hc]; · iexact Hc
    isplitl [Hd]; · iexact Hd
    iexact He
  have h₂ : iprop(((A ∗ B ∗ C ∗ D ∗ E) ∗ S) ∗ G) ⊢ iprop((A ∗ B ∗ C ∗ D ∗ E ∗ S) ∗ G) := by
    iintro ⟨⟨⟨Ha, Hb, Hc, Hd, He⟩, HS⟩, Hg⟩
    isplitr [Hg]; swap; · iexact Hg
    isplitl [Ha]; · iexact Ha
    isplitl [Hb]; · iexact Hb
    isplitl [Hc]; · iexact Hc
    isplitl [Hd]; · iexact Hd
    isplitl [He]; · iexact He
    iexact HS
  exact BI.equiv_iff.mp ⟨h₁, h₂⟩

/-- The region invariant of the class with the scratch accumulator as a memref owned at some contents. -/
theorem PhiA1_eq (c : Dev nD) :
    (Pipeline.ΦA spec1 c : sProp 𝕄)
      = iprop(iprop(restScoped1 (F := F) c ∗ (∃ d, owns (c : Thread nD τ) scM1_0 fullShare d)) ∗ (∃ r, prngReg c r)) := by
  unfold Pipeline.ΦA; rw [scopedRest1_eq]; simp only [scM1_0, owns_whole]; unfold restScoped1
  exact sep_regroup6 _ _ _ _ _ _ _

end Cert.Kernel.Frame

end
-- ==== Proof.FrameKernel.Region1RunA.lean ====
/- Second pallas region, first case: the second grid coordinate is 0. The scratch accumulator is found at any
   contents, overwritten with zeros and then with zeros plus this point's contribution; the output block is left
   as found. The body's triple, with the pieces the scratch ends with as the witness. -/
import proofs.«110874_j70987219469122_1_alg».proof.Proof.FrameKernel.Region1Runs

-- deciding membership in rectangles of these extents recurses once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point whose second coordinate is 0: from the three inputs at their blocks, the output buffer at
    contents it hands back untouched and the scratch at anything, it runs to the inputs and output as they were and
    the scratch with the found pieces written. -/
noncomputable def kernelRun1_A (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : cond1_0 i) (hc1 : ¬cond1_1 i)
    (x0 : Vec F S4000x128 .bf16) (x1 : Vec F S4000x1 .i32) (x2 : Vec F S1x128 .f32) :
    Σ' (L3 : List (View.Piece (Elt F) S1280x128 .f32)), { LS0 : List (View.Piece (Elt F) S1280x128 .f32) //
      ∀ (xi3 : Vec F S1280x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨[], ?_, fun xi3 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frame

end
-- ==== Proof.FrameKernel.Region1RunB.lean ====
/- Second pallas region, second case: the second grid coordinate is neither 0 nor 169. The scratch accumulator
   is found at what the point before left and this point's contribution is added; the output block is left as
   found. -/
import proofs.«110874_j70987219469122_1_alg».proof.Proof.FrameKernel.Region1RunA

-- deciding membership in rectangles of these extents recurses once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point whose second coordinate is neither 0 nor 169: from the three inputs at their blocks, the
    output buffer at contents it hands back untouched and the scratch at `xs0`, it runs to the inputs and output as
    they were and the scratch with the found pieces written. -/
noncomputable def kernelRun1_B (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : ¬cond1_1 i)
    (x0 : Vec F S4000x128 .bf16) (x1 : Vec F S4000x1 .i32) (x2 : Vec F S1x128 .f32) (xs0 : Vec F S1280x128 .f32) :
    Σ' (L3 : List (View.Piece (Elt F) S1280x128 .f32)), { LS0 : List (View.Piece (Elt F) S1280x128 .f32) //
      ∀ (xi3 : Vec F S1280x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨[], ?_, fun xi3 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frame

end
-- ==== Proof.FrameKernel.Region1RunC.lean ====
/- Second pallas region, third case: the second grid coordinate is 169. The scratch accumulator is found at what
   the point before left, this point's contribution is added, and the output block is stored whole with the
   rectified sum of the accumulator and the bias row. -/
import proofs.«110874_j70987219469122_1_alg».proof.Proof.FrameKernel.Region1RunB

-- deciding membership in rectangles of these extents recurses once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point whose second coordinate is 169: from the three inputs at their blocks, the output buffer
    at anything and the scratch at `xs0`, it runs to the inputs as they were and the output and the scratch with the
    found pieces written. -/
noncomputable def kernelRun1_C (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : cond1_1 i)
    (x0 : Vec F S4000x128 .bf16) (x1 : Vec F S4000x1 .i32) (x2 : Vec F S1x128 .f32) (xs0 : Vec F S1280x128 .f32) :
    Σ' (L3 : List (View.Piece (Elt F) S1280x128 .f32)), { LS0 : List (View.Piece (Elt F) S1280x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Frame

end
-- ==== Proof.FrameKernel.Region1.lean ====
/- Second pallas region (the scatter kernel): the rest of its frame data. What each case leaves in the output
   buffer and in the scratch accumulator; the accumulation point by point; the region invariant carrying the
   scratch; the pipeline's proof data; and the body obligation at every point of the 32 x 170 grid. -/
import proofs.«110874_j70987219469122_1_alg».proof.Proof.FrameKernel.Region1RunC

-- deciding membership in rectangles of these extents recurses once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Where the second coordinate is 0 nothing is stored into the output block: no pieces. A placeholder that nothing consults,
    since at these points the block is neither written back nor read at the next point. -/
def out1_A_3 (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : cond1_0 i) (hc1 : ¬cond1_1 i)
    (x0 : Vec F S4000x128 .bf16) (x1 : Vec F S4000x1 .i32) (x2 : Vec F S1x128 .f32) : Vec F S1280x128 .f32 :=
  VO1_3.read (Elt F) (VO1_3.writes (Elt F) VO1_3.junk (kernelRun1_A c i arg2 harg2 arg3 harg3 arg4 harg4 arg5 harg5 arg6 harg6 hc0 hc1 x0 x1 x2).1)

/-- Where the second coordinate is 0 the pieces stored into the scratch accumulator cover it (whole stores). -/
theorem scover1_A_0 (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : cond1_0 i) (hc1 : ¬cond1_1 i)
    (x0 : Vec F S4000x128 .bf16) (x1 : Vec F S4000x1 .i32) (x2 : Vec F S1x128 .f32) (y : S1280x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1280x128.size (by sl_kernel_rfl) y

/-- What that case leaves in the scratch accumulator: its pieces read back. -/
def sout1_A_0 (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : cond1_0 i) (hc1 : ¬cond1_1 i)
    (x0 : Vec F S4000x128 .bf16) (x1 : Vec F S4000x1 .i32) (x2 : Vec F S1x128 .f32) : Vec F S1280x128 .f32 :=
  VS1_0.read (Elt F) (VS1_0.writes (Elt F) VS1_0.junk (kernelRun1_A c i arg2 harg2 arg3 harg3 arg4 harg4 arg5 harg5 arg6 harg6 hc0 hc1 x0 x1 x2).2.1)

/-- Where the second coordinate is neither 0 nor 169 nothing is stored into the output block: no pieces. A placeholder that nothing consults,
    since at these points the block is neither written back nor read at the next point. -/
def out1_B_3 (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : ¬cond1_1 i)
    (x0 : Vec F S4000x128 .bf16) (x1 : Vec F S4000x1 .i32) (x2 : Vec F S1x128 .f32) (xs0 : Vec F S1280x128 .f32) : Vec F S1280x128 .f32 :=
  VO1_3.read (Elt F) (VO1_3.writes (Elt F) VO1_3.junk (kernelRun1_B c i arg2 harg2 arg3 harg3 arg4 harg4 arg5 harg5 arg6 harg6 hc0 hc1 x0 x1 x2 xs0).1)

/-- Where the second coordinate is neither 0 nor 169 the pieces stored into the scratch accumulator cover it (whole stores). -/
theorem scover1_B_0 (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : ¬cond1_1 i)
    (x0 : Vec F S4000x128 .bf16) (x1 : Vec F S4000x1 .i32) (x2 : Vec F S1x128 .f32) (xs0 : Vec F S1280x128 .f32) (y : S1280x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1280x128.size (by sl_kernel_rfl) y

/-- What that case leaves in the scratch accumulator: its pieces read back. -/
def sout1_B_0 (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : ¬cond1_1 i)
    (x0 : Vec F S4000x128 .bf16) (x1 : Vec F S4000x1 .i32) (x2 : Vec F S1x128 .f32) (xs0 : Vec F S1280x128 .f32) : Vec F S1280x128 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Where the second coordinate is 169 the pieces stored into the output block tile it (one whole store), so they cover it. -/
theorem cover1_C_3 (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : cond1_1 i)
    (x0 : Vec F S4000x128 .bf16) (x1 : Vec F S4000x1 .i32) (x2 : Vec F S1x128 .f32) (xs0 : Vec F S1280x128 .f32) (y : S1280x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1280x128.size (by sl_kernel_rfl) y

/-- What that case leaves in the output's staging buffer: its pieces read back. -/
def out1_C_3 (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : cond1_1 i)
    (x0 : Vec F S4000x128 .bf16) (x1 : Vec F S4000x1 .i32) (x2 : Vec F S1x128 .f32) (xs0 : Vec F S1280x128 .f32) : Vec F S1280x128 .f32 :=
  VO1_3.read (Elt F) (VO1_3.writes (Elt F) VO1_3.junk (kernelRun1_C c i arg2 harg2 arg3 harg3 arg4 harg4 arg5 harg5 arg6 harg6 hc0 hc1 x0 x1 x2 xs0).1)

/-- Where the second coordinate is 169 the pieces stored into the scratch accumulator cover it (whole stores). -/
theorem scover1_C_0 (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : cond1_1 i)
    (x0 : Vec F S4000x128 .bf16) (x1 : Vec F S4000x1 .i32) (x2 : Vec F S1x128 .f32) (xs0 : Vec F S1280x128 .f32) (y : S1280x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1280x128.size (by sl_kernel_rfl) y

/-- What that case leaves in the scratch accumulator: its pieces read back. -/
def sout1_C_0 (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : cond1_1 i)
    (x0 : Vec F S4000x128 .bf16) (x1 : Vec F S4000x1 .i32) (x2 : Vec F S1x128 .f32) (xs0 : Vec F S1280x128 .f32) : Vec F S1280x128 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output buffer and the scratch hold after each point -/

/-- THE ACCUMULATION. What the output's staging buffer and the scratch accumulator hold after the body at position
    `n` (a pair: output, scratch): the case the closed forms select at `n`, run at the point's memrefs and input
    blocks, the scratch found at what this leaves at `n - 1`. Both conditions at once is met by no point. -/
def outsAt1 (c : Dev nD) : (n : ℕ) → n < cfg1.N → Vec F S1280x128 .f32 × Vec F S1280x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 170 = 0 then
      if h1 : (n + 1) % 170 = 169 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 170 = 169 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point whose second coordinate is 0. -/
theorem outsAt1_A (c : Dev nD) (t : Fin cfg1.N) (h0 : t.val % 170 = 0) (h1 : ¬t.val % 170 = 169) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point whose second coordinate is neither 0 nor 169: over what the point before left. -/
theorem outsAt1_B (c : Dev nD) (t : Fin cfg1.N) (h0 : ¬t.val % 170 = 0) (h1 : ¬t.val % 170 = 169) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point whose second coordinate is 169: over what the point before left. -/
theorem outsAt1_C (c : Dev nD) (t : Fin cfg1.N) (h0 : ¬t.val % 170 = 0) (h1 : t.val % 170 = 169) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer of this region at anything); afterwards the same with the scratch accumulator at what the point
    before left in it, and the generator register at some state. -/
def PhiS1 (c : Dev nD) : (n : ℕ) → n ≤ cfg1.N → sProp 𝕄
  | 0, _ => Pipeline.ΦA spec1 c
  | n + 1, hn => iprop(iprop(restScoped1 (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(restScoped1 (F := F) c ∗ owns (c : Thread nD τ) scM1_0 fullShare ((outsAt1 V c n hn).2)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(restScoped1 (F := F) c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of this region on core `c`: the arrays as the region finds them; after the body at point `t`
    each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in;
    the invariant hands the body the scratch at what the point before left (at anything at the first point) and
    takes it back at this point's contents; the output buffer is handed back untouched where idle and at the stored
    block where live; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 5440 := lt_of_lt_of_eq t.isLt (show cfg1.N = 5440 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 170 = 0
  · by_cases h1 : t.val % 170 = 169
    · exfalso; omega
    · rw [Dat.leavesExact_idle (dat1 V c) 3 t (idleAt1_3 _ (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HR, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HR, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 170 = 169
    · rw [show (dat1 V c).leavesExact 3 t = owns (c : Thread nD τ) (ms1_3 t) fullShare ((dat1 V c).after 3 t) from by
        unfold Dat.leavesExact; rw [liveAt1_3 _ ((hcond1_1 t).mpr h1)], after1_3]
      rw [outsAt1_C V c t h0 h1]
      unfold out1_C_3 sout1_C_0; (try dsimp only)
      · rw [PhiS1_castSucc V c t, PhiS1_pos V c _ _ hz]
        iintro ⟨⟨⟨HR, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3 _ (fun h => h1 ((hcond1_1 t).mp h))) (noFlush1_3 t (fun h => h1 ((hcond1_1 t).mp h)))]
      rw [outsAt1_B V c t h0 h1]
      unfold sout1_B_0; (try dsimp only)
      · rw [PhiS1_castSucc V c t, PhiS1_pos V c _ _ hz]
        iintro ⟨⟨⟨HR, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 5440 := N_1; omega)

end Cert.Kernel.Frame

end
-- ==== Proof.FrameKernel.Run.lean ====
import proofs.«110874_j70987219469122_1_alg».proof.Proof.Gen.Kernel.Regions
import proofs.«110874_j70987219469122_1_alg».proof.Proof.FrameKernel.Chain
import proofs.«110874_j70987219469122_1_alg».proof.Proof.FrameKernel.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At its exit. -/
def W6 (c : Dev nD) : Valuation τ sig (Elt F) :=
  Pipeline.withArrays spec1 c (W5 m c) fun w => (dat1 (E5 m) c).arrAt w cfg1.N
theorem W6_arr (c : Dev nD) (w : Fin cfg1.W) :
    W6 m c (Proc.devRef .tc (Pipeline.arrRef spec1 w)) = (dat1 (E5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev E6 : (c : Dev nD) → (b : Ref sig .tc) → Buf (Elt F) ((c : Thread nD τ).loc b) := fun c b => W6 m c b
theorem hF1 (c : Dev nD) (w : Fin cfg1.W) : (dat1 (E5 m) c).arrAt w cfg1.N = E6 m c (Pipeline.arrRef spec1 w) :=
  (W6_arr m c w).symm
theorem hrest1 (c : Dev nD) : ∀ b, b ∉ Finset.univ.image (Pipeline.arrRef spec1) → E6 m c b = E5 m c b :=
  fun b hb => W6_of_ne m c b fun w e => hb (Finset.mem_image.mpr ⟨w, Finset.mem_univ _, e⟩)

/-- After the closing slice: what @main returns with. -/
abbrev W7 : Dev nD → Valuation τ sig (Elt F) := fun c => StableHlo.after hostOps2 (W6 m c)

/-! ## Every pipeline's proof data, and what rides beside the buffers -/

def pdats : (p : Fin 2) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E5 m) c
abbrev noVar : Variants := Variants.none
abbrev noPairs : GSem nD τ sig → Finset Unit := fun _ => ∅
abbrev noLvl : GSem nD τ sig → Unit → ℕ := fun _ _ => 0
/-- Beside the buffers: the generator register at some state, and nothing owed. -/
abbrev Rst (c : Dev nD) : sProp 𝕄 := iprop((∃ r, prngReg c r) ∗ ∃ W, owes (c : Thread nD τ) (0 : CellTallies nD τ sig Unit) W)
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noPairs noLvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The first region: its arrays taken out of the buffers held at entry and put back at the exit contents; the
    generator register lent to the region's invariant and returned; nothing owed; no semaphore of the kernel's own. -/
def reg0 : Pipeline.RegionSeg (pcfgs (F := F)) adm (pdats m) () defs₀ noVar noPairs noLvl 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ noPairs noLvl 0 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region, the same way; its invariant is the class invariant before the first point and after the
    last (the accumulator it carries between points is its own and is forgotten at the exit). -/
def reg1 : Pipeline.RegionSeg (pcfgs (F := F)) adm (pdats m) () defs₀ noVar noPairs noLvl 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ noPairs noLvl 1 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E5 m) c).Φ 0 from rfl]
    have h := hin1 (E5 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (E5 m) c).Φ (Fin.last cfg1.N) from rfl]
    have h := hout1 (E5 m) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev allSegs : List (Pipeline.Seg (pcfgs (F := F)) adm (pdats m) () defs₀ noVar noPairs noLvl) :=
  [ .host (hostSeg hostOps0 hostOps0_sub hostOps0_fresh (V0 m)),
    .host (hostSeg hostOps0_1 hostOps0_1_sub hostOps0_1_fresh (V1 m)),
    .host (hostSeg hostOps0_2 hostOps0_2_sub hostOps0_2_fresh (V2 m)),
    .region (reg0 m),
    .host (hostSeg hostOps1 hostOps1_sub hostOps1_fresh (W4 m)),
    .region (reg1 m),
    .host (hostSeg hostOps2 hostOps2_sub hostOps2_fresh (W6 m)) ]

theorem main_run (c : Dev nD) : main (F := F) c = Pipeline.Seg.run (allSegs m) := (main_chain c).trans (by chain_rfl)

variable (ρ : Dev nD → PrngReg)

set_option backward.isDefEq.respectTransparency.types false in
/-- From any memory with zero counters every weakly fair execution of @main terminates, nothing faulting, and every
    unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ noVar noPairs noLvl m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (W7 m c))
    (hch := ⟨fun _ => .rfl, fun _ => .rfl, fun _ => .rfl, fun _ => .rfl, fun _ => .rfl, fun _ => .rfl, fun _ => .rfl,
      fun c => sep_mono .rfl (by iintro ⟨-, H⟩; iexact H)⟩)
    (hinit := by
      refine Pipeline.initEach noPairs noLvl fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨Hh, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-! ## The arguments end as launched

No host stretch writes an argument; the first region reads x and W through input windows, whose arrays the
pipeline leaves as entered; neither region has the edge list or the bias vector among its arrays. -/

theorem W7_main_arg0 (c : Dev nD) : W7 m c (Proc.devRef .tc main_arg0) = m ((c : Thread nD τ).loc main_arg0) :=
  (StableHlo.after_of_writes_sub hostOps2 (W6 m c) hostOps2_writes (by decide)).trans <|
  (W6_of_ne m c main_arg0 (by decide)).trans <|
  (StableHlo.after_of_writes_sub hostOps1 (W4 m c) hostOps1_writes (by decide)).trans <|
  ((W4_arr m c 0).trans (((dat0 (E3 m) c).arrAt_in 0 rfl _).trans (A_eq0 (E3 m) c 0))).trans <|
  (V3_of m c main_arg0 (by decide)).trans <| (V2_of m c main_arg0 (by decide)).trans <| (V1_of m c main_arg0 (by decide)).trans rfl
theorem W7_main_arg1 (c : Dev nD) : W7 m c (Proc.devRef .tc main_arg1) = m ((c : Thread nD τ).loc main_arg1) :=
  (StableHlo.after_of_writes_sub hostOps2 (W6 m c) hostOps2_writes (by decide)).trans <|
  (W6_of_ne m c main_arg1 (by decide)).trans <|
  (StableHlo.after_of_writes_sub hostOps1 (W4 m c) hostOps1_writes (by decide)).trans <|
  (W4_of_ne m c main_arg1 (by decide)).trans <|
  (V3_of m c main_arg1 (by decide)).trans <| (V2_of m c main_arg1 (by decide)).trans <| (V1_of m c main_arg1 (by decide)).trans rfl
theorem W7_main_arg2 (c : Dev nD) : W7 m c (Proc.devRef .tc main_arg2) = m ((c : Thread nD τ).loc main_arg2) :=
  (StableHlo.after_of_writes_sub hostOps2 (W6 m c) hostOps2_writes (by decide)).trans <|
  (W6_of_ne m c main_arg2 (by decide)).trans <|
  (StableHlo.after_of_writes_sub hostOps1 (W4 m c) hostOps1_writes (by decide)).trans <|
  ((W4_arr m c 1).trans (((dat0 (E3 m) c).arrAt_in 1 rfl _).trans (A_eq0 (E3 m) c 1))).trans <|
  (V3_of m c main_arg2 (by decide)).trans <| (V2_of m c main_arg2 (by decide)).trans <| (V1_of m c main_arg2 (by decide)).trans rfl
theorem W7_main_arg3 (c : Dev nD) : W7 m c (Proc.devRef .tc main_arg3) = m ((c : Thread nD τ).loc main_arg3) :=
  (StableHlo.after_of_writes_sub hostOps2 (W6 m c) hostOps2_writes (by decide)).trans <|
  (W6_of_ne m c main_arg3 (by decide)).trans <|
  (StableHlo.after_of_writes_sub hostOps1 (W4 m c) hostOps1_writes (by decide)).trans <|
  (W4_of_ne m c main_arg3 (by decide)).trans <|
  (V3_of m c main_arg3 (by decide)).trans <| (V2_of m c main_arg3 (by decide)).trans <| (V1_of m c main_arg3 (by decide)).trans rfl

/-- Every weakly fair execution terminates, nothing faulting, with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

end Cert.Kernel.Frame

end
-- ==== Proof.FrameKernelIdeal.Region0.lean ====
/- The matrix-product region of the layer (the first of its two accelerator regions), stated at a
   parameter V: the contents of the core's buffers when the region is entered.
   Its grid has 20 points. At point t the body is handed a 2000 x 256 block of rows of the feature matrix
   (window 0), the whole 256 x 128 weight matrix (window 1, brought in once, at the first point) and a
   2000 x 128 output block (window 2). It reads both inputs, reads the output block once without using what it
   read, and overwrites the whole output block with the product of the two inputs rounded to sixteen bits,
   accumulated from zero. So what the body leaves in the output block is one function of the two input blocks,
   and the inputs are left as found. This file names that function, proves the body's triple against it, packs
   the region's proof data and discharges the body obligation at every point. -/
import proofs.«110874_j70987219469122_1_alg».proof.Proof.Gen.KernelIdeal.Launch
import proofs.«110874_j70987219469122_1_alg».proof.Proof.Gen.KernelIdeal.Skeleton
import proofs.«110874_j70987219469122_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- The block of window w at point t, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current buffer holds its block at every point, for any proof data over V's array
    whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the weight matrix at every point, though it is brought in at the first
    point only: where it is not brought in, its block index has not moved and the body left it as found. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev rX : Rect S2000x256 := Rect.unit (s := S2000x256) ![0, 0] S2000x256.size inb_S2000x256_S2000x256_0_0
abbrev rW : Rect S256x128 := Rect.unit (s := S256x128) ![0, 0] S256x128.size inb_S256x128_S256x128_0_0
abbrev rO : Rect S2000x128 := Rect.unit (s := S2000x128) ![0, 0] S2000x128.size inb_S2000x128_S2000x128_0_0

/-! ## What the body leaves in the output block -/

/-- The output block after the body, from the two input blocks: its single store, whose payload is the rounded
    product of what the two loads read. -/
def out0_2 (x0 : Vec F S2000x256 .f32) (x1 : Vec F S256x128 .f32) : Vec F S2000x128 .f32 :=
  View.canon [⟨rO, k0_pay1 (View.ld x0 rX) (View.ld x1 rW)⟩]

/-- That one store is the whole block, so it covers it. -/
theorem cover0_2 (p0 : Vec F S2000x128 .f32) (y : S2000x128.Idx) :
    ∃ pc ∈ ([⟨rO, p0⟩] : List (View.Piece (Elt F) S2000x128 .f32)), y ∈ pc.1.set :=
  View.cover_of_tiled [⟨rO, p0⟩] S2000x128.size (by rfl) y

/-! ## The body's triple -/

set_option maxHeartbeats 1000000 in
/-- The body on whole buffers, the inputs at read contents x0 and x1 and the output at anything, runs to a state
    holding the inputs as they were and the output at out0_2 of them. -/
theorem sound_kernel0 (c : Dev nD) (E : Set ℕ) (i : grid0.Coords)
    (arg1 : Memref sig .tc .vmem S2000x256 .f32) (harg1 : arg1.IsWhole)
    (arg2 : Memref sig .tc .vmem S256x128 .f32) (harg2 : arg2.IsWhole)
    (arg3 : Memref sig .tc .vmem S2000x128 .f32) (harg3 : arg3.IsWhole)
    (x0 : Vec F S2000x256 .f32) (x1 : Vec F S256x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core c: the arrays as the region finds them; after the body at point t each
    input's buffer at its block and the output's at out0_2 of the two input blocks; the invariant that of a body
    which keeps nothing between points; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the contents at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block at every point, brought in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant
    and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Frame

end
-- ==== Proof.FrameKernelIdeal.Chain.lean ====
import proofs.«110874_j70987219469122_1_alg».proof.Proof.Gen.KernelIdeal.Regions
import proofs.«110874_j70987219469122_1_alg».proof.Proof.FrameKernelIdeal.Region0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary of @main

Three host stretches (the degrees, their inverse square roots, the edge norms) lead to the first region; it
changes only the array of the products x·W; one host stretch (the gathered, scaled messages, the destination
column, the bias row) leads to the second region, which changes only the padded aggregate; the last stretch
slices the padding off. -/

/-- The contents the first region is entered with. -/
abbrev W3 : Dev nD → Valuation τ sig (Elt F) := fun c => V3 m c
abbrev E3 : (c : Dev nD) → (b : Ref sig .tc) → Buf (Elt F) ((c : Thread nD τ).loc b) := fun c b => W3 m c b
/-- At its exit: its arrays at what the write-backs leave, everything else as entered. -/
def W4 (c : Dev nD) : Valuation τ sig (Elt F) :=
  Pipeline.withArrays spec0 c (W3 m c) fun w => (dat0 (E3 m) c).arrAt w cfg0.N
theorem W4_arr (c : Dev nD) (w : Fin cfg0.W) :
    W4 m c (Proc.devRef .tc (Pipeline.arrRef spec0 w)) = (dat0 (E3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev E4 : (c : Dev nD) → (b : Ref sig .tc) → Buf (Elt F) ((c : Thread nD τ).loc b) := fun c b => W4 m c b
theorem hF0 (c : Dev nD) (w : Fin cfg0.W) : (dat0 (E3 m) c).arrAt w cfg0.N = E4 m c (Pipeline.arrRef spec0 w) :=
  (W4_arr m c w).symm
theorem hrest0 (c : Dev nD) : ∀ b, b ∉ Finset.univ.image (Pipeline.arrRef spec0) → E4 m c b = E3 m c b :=
  fun b hb => W4_of_ne m c b fun w e => hb (Finset.mem_image.mpr ⟨w, Finset.mem_univ _, e⟩)

/-- The contents the second region is entered with. -/
abbrev W5 : Dev nD → Valuation τ sig (Elt F) := fun c => StableHlo.after hostOps1 (W4 m c)
abbrev E5 : (c : Dev nD) → (b : Ref sig .tc) → Buf (Elt F) ((c : Thread nD τ).loc b) := fun c b => W5 m c b

end Cert.KernelIdeal.Frame

end
-- ==== Proof.FrameKernelIdeal.Region1Runs.lean ====
/- Second pallas region (the scatter kernel): what its three case runs share. The blocks of the four
   windows read off the buffer contents found when the region is entered; the two branch conditions of the body
   in closed form over the 32 x 170 grid; where the output window is idle; the staging and scratch memrefs; and the
   region invariant with the scratch accumulator as an owned memref. -/
import proofs.«110874_j70987219469122_1_alg».proof.Proof.Gen.KernelIdeal.Launch
import proofs.«110874_j70987219469122_1_alg».proof.Proof.Gen.KernelIdeal.Skeleton
import proofs.«110874_j70987219469122_1_alg».proof.Proof.Gen.KernelIdeal.Points
import Idealize.ShloMosaic.Lib.Pipeline.FrameBody
import Idealize.ShloMosaic.Lib.Ring
import Idealize.ShloMosaic.Lib.Tactic

-- deciding membership in rectangles of these extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional of the body: the second grid coordinate is 0. -/
abbrev cond1_0 (i : grid1.Coords) : Prop := (Scalar.cmpi .ne (Scalar.extui (Scalar.cmpi .eq (BitVec.ofNat 32 (i 1).val) 0#32)) 0#32) = 1#1
/-- It holds exactly at the points whose position is a multiple of 170. -/
theorem hcond1_0 : ∀ t : Fin cfg1.N, cond1_0 (grid1.coords t) ↔ t.val % 170 = 0 :=
  (by decide +kernel : ∀ t : Fin grid1.N, cond1_0 (grid1.coords t) ↔ t.val % 170 = 0)

/-- The second conditional of the body: the second grid coordinate is 169. -/
abbrev cond1_1 (i : grid1.Coords) : Prop := k1_cond2 i = 1#1
/-- It holds exactly at the points whose position is 169 modulo 170. -/
theorem hcond1_1 : ∀ t : Fin cfg1.N, cond1_1 (grid1.coords t) ↔ t.val % 170 = 169 :=
  (by decide +kernel : ∀ t : Fin grid1.N, cond1_1 (grid1.coords t) ↔ t.val % 170 = 169)

/-! ## Where the windows are idle -/

/-- The three inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the second conditional fails the output window is idle: nothing is stored into it. -/
theorem idleAt1_3 (i : grid1.Coords) (h : ¬cond1_1 i) : cfg1.idle 3 i = true := by
  show (!(k1_cond2 i == 1#1)) = true
  rw [Bool.not_eq_true', beq_eq_false_iff_ne]; exact h
/-- Where it holds the output window is live. -/
theorem liveAt1_3 (i : grid1.Coords) (h : cond1_1 i) : cfg1.idle 3 i = false := by
  show (!(k1_cond2 i == 1#1)) = false
  rw [Bool.not_eq_false', beq_iff_eq]; exact h
/-- Where the second conditional fails the output block is not written back. -/
theorem noFlush1_3 (t : Fin cfg1.N) (h : ¬cond1_1 (grid1.coords t)) : (cfg1.win 3).flush t = false := by
  cases hf : (cfg1.win 3).flush t with
  | false => rfl
  | true => exact absurd ((hcond1_1 t).mpr ((flush1_3 t).mp hf)) h

/-! ## The memrefs the body is called with -/

/-- One staging buffer of the output window, through which its contents are stated (the choice does not matter). -/
abbrev VO1_3 : View sig .tc .vmem S1280x128 .f32 := (Memref.whole cc1_stg3_0 : Memref sig .tc .vmem S1280x128 .f32).view
/-- Each window's current staging memref at point `t`, and its wholeness. -/
abbrev ms1_0 (t : Fin cfg1.N) : Memref sig .tc .vmem S4000x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4000x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1280x128 .f32 := win1_3.stage (cfg1.slots t 3)
abbrev hs1_3 (t : Fin cfg1.N) : (ms1_3 t).IsWhole := hstage1_3 ((cfg1.slots t 3).cast nbuf1_3)
/-- The scratch accumulator: a whole scoped buffer of the kernel's own, passed beside the windows. -/
abbrev scM1_0 : Memref sig .tc .vmem S1280x128 .f32 := Memref.whole cc1_scratch0
/-- The same as a view: what it holds is stated through it. -/
abbrev VS1_0 : View sig .tc .vmem S1280x128 .f32 := scM1_0.view

/-- The scoped buffers of the core that this region neither stages through nor uses as scratch (the first
    region's staging buffers), each at some contents. They ride along unchanged. -/
def restScoped1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- Regrouping a chain of six separated conjuncts (and one more beside it) so that the last of the six stands alone. -/
theorem sep_regroup6 (A B C D E S G : sProp 𝕄) :
    iprop((A ∗ B ∗ C ∗ D ∗ E ∗ S) ∗ G) = iprop(((A ∗ B ∗ C ∗ D ∗ E) ∗ S) ∗ G) := by
  have h₁ : iprop((A ∗ B ∗ C ∗ D ∗ E ∗ S) ∗ G) ⊢ iprop(((A ∗ B ∗ C ∗ D ∗ E) ∗ S) ∗ G) := by
    iintro ⟨⟨Ha, Hb, Hc, Hd, He, HS⟩, Hg⟩
    isplitr [Hg]; swap; · iexact Hg
    isplitr [HS]; swap; · iexact HS
    isplitl [Ha]; · iexact Ha
    isplitl [Hb]; · iexact Hb
    isplitl [Hc]; · iexact Hc
    isplitl [Hd]; · iexact Hd
    iexact He
  have h₂ : iprop(((A ∗ B ∗ C ∗ D ∗ E) ∗ S) ∗ G) ⊢ iprop((A ∗ B ∗ C ∗ D ∗ E ∗ S) ∗ G) := by
    iintro ⟨⟨⟨Ha, Hb, Hc, Hd, He⟩, HS⟩, Hg⟩
    isplitr [Hg]; swap; · iexact Hg
    isplitl [Ha]; · iexact Ha
    isplitl [Hb]; · iexact Hb
    isplitl [Hc]; · iexact Hc
    isplitl [Hd]; · iexact Hd
    isplitl [He]; · iexact He
    iexact HS
  exact BI.equiv_iff.mp ⟨h₁, h₂⟩

/-- The region invariant of the class with the scratch accumulator as a memref owned at some contents. -/
theorem PhiA1_eq (c : Dev nD) :
    (Pipeline.ΦA spec1 c : sProp 𝕄)
      = iprop(iprop(restScoped1 (F := F) c ∗ (∃ d, owns (c : Thread nD τ) scM1_0 fullShare d)) ∗ (∃ r, prngReg c r)) := by
  unfold Pipeline.ΦA; rw [scopedRest1_eq]; simp only [scM1_0, owns_whole]; unfold restScoped1
  exact sep_regroup6 _ _ _ _ _ _ _

end Cert.KernelIdeal.Frame

end
-- ==== Proof.FrameKernelIdeal.Region1RunA.lean ====
/- Second pallas region, first case: the second grid coordinate is 0. The scratch accumulator is found at any
   contents, overwritten with zeros and then with zeros plus this point's contribution; the output block is left
   as found. The body's triple, with the pieces the scratch ends with as the witness. -/
import proofs.«110874_j70987219469122_1_alg».proof.Proof.FrameKernelIdeal.Region1Runs

-- deciding membership in rectangles of these extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point whose second coordinate is 0: from the three inputs at their blocks, the output buffer at
    contents it hands back untouched and the scratch at anything, it runs to the inputs and output as they were and
    the scratch with the found pieces written. -/
noncomputable def kernelRun1_A (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : cond1_0 i) (hc1 : ¬cond1_1 i)
    (x0 : Vec F S4000x128 .bf16) (x1 : Vec F S4000x1 .i32) (x2 : Vec F S1x128 .f32) :
    Σ' (L3 : List (View.Piece (Elt F) S1280x128 .f32)), { LS0 : List (View.Piece (Elt F) S1280x128 .f32) //
      ∀ (xi3 : Vec F S1280x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨[], ?_, fun xi3 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frame

end
-- ==== Proof.FrameKernelIdeal.Region1RunB.lean ====
/- Second pallas region, second case: the second grid coordinate is neither 0 nor 169. The scratch accumulator
   is found at what the point before left and this point's contribution is added; the output block is left as
   found. -/
import proofs.«110874_j70987219469122_1_alg».proof.Proof.FrameKernelIdeal.Region1RunA

-- deciding membership in rectangles of these extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point whose second coordinate is neither 0 nor 169: from the three inputs at their blocks, the
    output buffer at contents it hands back untouched and the scratch at `xs0`, it runs to the inputs and output as
    they were and the scratch with the found pieces written. -/
noncomputable def kernelRun1_B (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : ¬cond1_1 i)
    (x0 : Vec F S4000x128 .bf16) (x1 : Vec F S4000x1 .i32) (x2 : Vec F S1x128 .f32) (xs0 : Vec F S1280x128 .f32) :
    Σ' (L3 : List (View.Piece (Elt F) S1280x128 .f32)), { LS0 : List (View.Piece (Elt F) S1280x128 .f32) //
      ∀ (xi3 : Vec F S1280x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨[], ?_, fun xi3 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frame

end
-- ==== Proof.FrameKernelIdeal.Region1RunC.lean ====
/- Second pallas region, third case: the second grid coordinate is 169. The scratch accumulator is found at what
   the point before left, this point's contribution is added, and the output block is stored whole with the
   rectified sum of the accumulator and the bias row. -/
import proofs.«110874_j70987219469122_1_alg».proof.Proof.FrameKernelIdeal.Region1RunB

-- deciding membership in rectangles of these extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point whose second coordinate is 169: from the three inputs at their blocks, the output buffer
    at anything and the scratch at `xs0`, it runs to the inputs as they were and the output and the scratch with the
    found pieces written. -/
noncomputable def kernelRun1_C (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : cond1_1 i)
    (x0 : Vec F S4000x128 .bf16) (x1 : Vec F S4000x1 .i32) (x2 : Vec F S1x128 .f32) (xs0 : Vec F S1280x128 .f32) :
    Σ' (L3 : List (View.Piece (Elt F) S1280x128 .f32)), { LS0 : List (View.Piece (Elt F) S1280x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Frame

end
-- ==== Proof.FrameKernelIdeal.Region1.lean ====
/- Second pallas region (the scatter kernel): the rest of its frame data. What each case leaves in the output
   buffer and in the scratch accumulator; the accumulation point by point; the region invariant carrying the
   scratch; the pipeline's proof data; and the body obligation at every point of the 32 x 170 grid. -/
import proofs.«110874_j70987219469122_1_alg».proof.Proof.FrameKernelIdeal.Region1RunC

-- deciding membership in rectangles of these extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Where the second coordinate is 0 nothing is stored into the output block: no pieces. A placeholder that nothing consults,
    since at these points the block is neither written back nor read at the next point. -/
def out1_A_3 (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : cond1_0 i) (hc1 : ¬cond1_1 i)
    (x0 : Vec F S4000x128 .bf16) (x1 : Vec F S4000x1 .i32) (x2 : Vec F S1x128 .f32) : Vec F S1280x128 .f32 :=
  VO1_3.read (Elt F) (VO1_3.writes (Elt F) VO1_3.junk (kernelRun1_A c i arg2 harg2 arg3 harg3 arg4 harg4 arg5 harg5 arg6 harg6 hc0 hc1 x0 x1 x2).1)

/-- Where the second coordinate is 0 the pieces stored into the scratch accumulator cover it (whole stores). -/
theorem scover1_A_0 (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : cond1_0 i) (hc1 : ¬cond1_1 i)
    (x0 : Vec F S4000x128 .bf16) (x1 : Vec F S4000x1 .i32) (x2 : Vec F S1x128 .f32) (y : S1280x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1280x128.size (by sl_kernel_rfl) y

/-- What that case leaves in the scratch accumulator: its pieces read back. -/
def sout1_A_0 (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : cond1_0 i) (hc1 : ¬cond1_1 i)
    (x0 : Vec F S4000x128 .bf16) (x1 : Vec F S4000x1 .i32) (x2 : Vec F S1x128 .f32) : Vec F S1280x128 .f32 :=
  VS1_0.read (Elt F) (VS1_0.writes (Elt F) VS1_0.junk (kernelRun1_A c i arg2 harg2 arg3 harg3 arg4 harg4 arg5 harg5 arg6 harg6 hc0 hc1 x0 x1 x2).2.1)

/-- Where the second coordinate is neither 0 nor 169 nothing is stored into the output block: no pieces. A placeholder that nothing consults,
    since at these points the block is neither written back nor read at the next point. -/
def out1_B_3 (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : ¬cond1_1 i)
    (x0 : Vec F S4000x128 .bf16) (x1 : Vec F S4000x1 .i32) (x2 : Vec F S1x128 .f32) (xs0 : Vec F S1280x128 .f32) : Vec F S1280x128 .f32 :=
  VO1_3.read (Elt F) (VO1_3.writes (Elt F) VO1_3.junk (kernelRun1_B c i arg2 harg2 arg3 harg3 arg4 harg4 arg5 harg5 arg6 harg6 hc0 hc1 x0 x1 x2 xs0).1)

/-- Where the second coordinate is neither 0 nor 169 the pieces stored into the scratch accumulator cover it (whole stores). -/
theorem scover1_B_0 (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : ¬cond1_1 i)
    (x0 : Vec F S4000x128 .bf16) (x1 : Vec F S4000x1 .i32) (x2 : Vec F S1x128 .f32) (xs0 : Vec F S1280x128 .f32) (y : S1280x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1280x128.size (by sl_kernel_rfl) y

/-- What that case leaves in the scratch accumulator: its pieces read back. -/
def sout1_B_0 (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : ¬cond1_1 i)
    (x0 : Vec F S4000x128 .bf16) (x1 : Vec F S4000x1 .i32) (x2 : Vec F S1x128 .f32) (xs0 : Vec F S1280x128 .f32) : Vec F S1280x128 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Where the second coordinate is 169 the pieces stored into the output block tile it (one whole store), so they cover it. -/
theorem cover1_C_3 (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : cond1_1 i)
    (x0 : Vec F S4000x128 .bf16) (x1 : Vec F S4000x1 .i32) (x2 : Vec F S1x128 .f32) (xs0 : Vec F S1280x128 .f32) (y : S1280x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1280x128.size (by sl_kernel_rfl) y

/-- What that case leaves in the output's staging buffer: its pieces read back. -/
def out1_C_3 (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : cond1_1 i)
    (x0 : Vec F S4000x128 .bf16) (x1 : Vec F S4000x1 .i32) (x2 : Vec F S1x128 .f32) (xs0 : Vec F S1280x128 .f32) : Vec F S1280x128 .f32 :=
  VO1_3.read (Elt F) (VO1_3.writes (Elt F) VO1_3.junk (kernelRun1_C c i arg2 harg2 arg3 harg3 arg4 harg4 arg5 harg5 arg6 harg6 hc0 hc1 x0 x1 x2 xs0).1)

/-- Where the second coordinate is 169 the pieces stored into the scratch accumulator cover it (whole stores). -/
theorem scover1_C_0 (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : cond1_1 i)
    (x0 : Vec F S4000x128 .bf16) (x1 : Vec F S4000x1 .i32) (x2 : Vec F S1x128 .f32) (xs0 : Vec F S1280x128 .f32) (y : S1280x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1280x128.size (by sl_kernel_rfl) y

/-- What that case leaves in the scratch accumulator: its pieces read back. -/
def sout1_C_0 (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : cond1_1 i)
    (x0 : Vec F S4000x128 .bf16) (x1 : Vec F S4000x1 .i32) (x2 : Vec F S1x128 .f32) (xs0 : Vec F S1280x128 .f32) : Vec F S1280x128 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output buffer and the scratch hold after each point -/

/-- THE ACCUMULATION. What the output's staging buffer and the scratch accumulator hold after the body at position
    `n` (a pair: output, scratch): the case the closed forms select at `n`, run at the point's memrefs and input
    blocks, the scratch found at what this leaves at `n - 1`. Both conditions at once is met by no point. -/
def outsAt1 (c : Dev nD) : (n : ℕ) → n < cfg1.N → Vec F S1280x128 .f32 × Vec F S1280x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 170 = 0 then
      if h1 : (n + 1) % 170 = 169 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 170 = 169 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point whose second coordinate is 0. -/
theorem outsAt1_A (c : Dev nD) (t : Fin cfg1.N) (h0 : t.val % 170 = 0) (h1 : ¬t.val % 170 = 169) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point whose second coordinate is neither 0 nor 169: over what the point before left. -/
theorem outsAt1_B (c : Dev nD) (t : Fin cfg1.N) (h0 : ¬t.val % 170 = 0) (h1 : ¬t.val % 170 = 169) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point whose second coordinate is 169: over what the point before left. -/
theorem outsAt1_C (c : Dev nD) (t : Fin cfg1.N) (h0 : ¬t.val % 170 = 0) (h1 : t.val % 170 = 169) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer of this region at anything); afterwards the same with the scratch accumulator at what the point
    before left in it, and the generator register at some state. -/
def PhiS1 (c : Dev nD) : (n : ℕ) → n ≤ cfg1.N → sProp 𝕄
  | 0, _ => Pipeline.ΦA spec1 c
  | n + 1, hn => iprop(iprop(restScoped1 (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(restScoped1 (F := F) c ∗ owns (c : Thread nD τ) scM1_0 fullShare ((outsAt1 V c n hn).2)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(restScoped1 (F := F) c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of this region on core `c`: the arrays as the region finds them; after the body at point `t`
    each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in;
    the invariant hands the body the scratch at what the point before left (at anything at the first point) and
    takes it back at this point's contents; the output buffer is handed back untouched where idle and at the stored
    block where live; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 5440 := lt_of_lt_of_eq t.isLt (show cfg1.N = 5440 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 170 = 0
  · by_cases h1 : t.val % 170 = 169
    · exfalso; omega
    · rw [Dat.leavesExact_idle (dat1 V c) 3 t (idleAt1_3 _ (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HR, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HR, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 170 = 169
    · rw [show (dat1 V c).leavesExact 3 t = owns (c : Thread nD τ) (ms1_3 t) fullShare ((dat1 V c).after 3 t) from by
        unfold Dat.leavesExact; rw [liveAt1_3 _ ((hcond1_1 t).mpr h1)], after1_3]
      rw [outsAt1_C V c t h0 h1]
      unfold out1_C_3 sout1_C_0; (try dsimp only)
      · rw [PhiS1_castSucc V c t, PhiS1_pos V c _ _ hz]
        iintro ⟨⟨⟨HR, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3 _ (fun h => h1 ((hcond1_1 t).mp h))) (noFlush1_3 t (fun h => h1 ((hcond1_1 t).mp h)))]
      rw [outsAt1_B V c t h0 h1]
      unfold sout1_B_0; (try dsimp only)
      · rw [PhiS1_castSucc V c t, PhiS1_pos V c _ _ hz]
        iintro ⟨⟨⟨HR, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 5440 := N_1; omega)

end Cert.KernelIdeal.Frame

end
-- ==== Proof.FrameKernelIdeal.Run.lean ====
import proofs.«110874_j70987219469122_1_alg».proof.Proof.Gen.KernelIdeal.Regions
import proofs.«110874_j70987219469122_1_alg».proof.Proof.FrameKernelIdeal.Chain
import proofs.«110874_j70987219469122_1_alg».proof.Proof.FrameKernelIdeal.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At its exit. -/
def W6 (c : Dev nD) : Valuation τ sig (Elt F) :=
  Pipeline.withArrays spec1 c (W5 m c) fun w => (dat1 (E5 m) c).arrAt w cfg1.N
theorem W6_arr (c : Dev nD) (w : Fin cfg1.W) :
    W6 m c (Proc.devRef .tc (Pipeline.arrRef spec1 w)) = (dat1 (E5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev E6 : (c : Dev nD) → (b : Ref sig .tc) → Buf (Elt F) ((c : Thread nD τ).loc b) := fun c b => W6 m c b
theorem hF1 (c : Dev nD) (w : Fin cfg1.W) : (dat1 (E5 m) c).arrAt w cfg1.N = E6 m c (Pipeline.arrRef spec1 w) :=
  (W6_arr m c w).symm
theorem hrest1 (c : Dev nD) : ∀ b, b ∉ Finset.univ.image (Pipeline.arrRef spec1) → E6 m c b = E5 m c b :=
  fun b hb => W6_of_ne m c b fun w e => hb (Finset.mem_image.mpr ⟨w, Finset.mem_univ _, e⟩)

/-- After the closing slice: what @main returns with. -/
abbrev W7 : Dev nD → Valuation τ sig (Elt F) := fun c => StableHlo.after hostOps2 (W6 m c)

/-! ## Every pipeline's proof data, and what rides beside the buffers -/

def pdats : (p : Fin 2) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E5 m) c
abbrev noVar : Variants := Variants.none
abbrev noPairs : GSem nD τ sig → Finset Unit := fun _ => ∅
abbrev noLvl : GSem nD τ sig → Unit → ℕ := fun _ _ => 0
/-- Beside the buffers: the generator register at some state, and nothing owed. -/
abbrev Rst (c : Dev nD) : sProp 𝕄 := iprop((∃ r, prngReg c r) ∗ ∃ W, owes (c : Thread nD τ) (0 : CellTallies nD τ sig Unit) W)
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noPairs noLvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The first region: its arrays taken out of the buffers held at entry and put back at the exit contents; the
    generator register lent to the region's invariant and returned; nothing owed; no semaphore of the kernel's own. -/
def reg0 : Pipeline.RegionSeg (pcfgs (F := F)) adm (pdats m) () defs₀ noVar noPairs noLvl 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ noPairs noLvl 0 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region, the same way; its invariant is the class invariant before the first point and after the
    last (the accumulator it carries between points is its own and is forgotten at the exit). -/
def reg1 : Pipeline.RegionSeg (pcfgs (F := F)) adm (pdats m) () defs₀ noVar noPairs noLvl 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ noPairs noLvl 1 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E5 m) c).Φ 0 from rfl]
    have h := hin1 (E5 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (E5 m) c).Φ (Fin.last cfg1.N) from rfl]
    have h := hout1 (E5 m) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev allSegs : List (Pipeline.Seg (pcfgs (F := F)) adm (pdats m) () defs₀ noVar noPairs noLvl) :=
  [ .host (hostSeg hostOps0 hostOps0_sub hostOps0_fresh (V0 m)),
    .host (hostSeg hostOps0_1 hostOps0_1_sub hostOps0_1_fresh (V1 m)),
    .host (hostSeg hostOps0_2 hostOps0_2_sub hostOps0_2_fresh (V2 m)),
    .region (reg0 m),
    .host (hostSeg hostOps1 hostOps1_sub hostOps1_fresh (W4 m)),
    .region (reg1 m),
    .host (hostSeg hostOps2 hostOps2_sub hostOps2_fresh (W6 m)) ]

theorem main_run (c : Dev nD) : main (F := F) c = Pipeline.Seg.run (allSegs m) := (main_chain c).trans (by chain_rfl)

variable (ρ : Dev nD → PrngReg)

set_option backward.isDefEq.respectTransparency.types false in
/-- From any memory with zero counters every weakly fair execution of @main terminates, nothing faulting, and every
    unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ noVar noPairs noLvl m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (W7 m c))
    (hch := ⟨fun _ => .rfl, fun _ => .rfl, fun _ => .rfl, fun _ => .rfl, fun _ => .rfl, fun _ => .rfl, fun _ => .rfl,
      fun c => sep_mono .rfl (by iintro ⟨-, H⟩; iexact H)⟩)
    (hinit := by
      refine Pipeline.initEach noPairs noLvl fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨Hh, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-! ## The arguments end as launched

No host stretch writes an argument; the first region reads x and W through input windows, whose arrays the
pipeline leaves as entered; neither region has the edge list or the bias vector among its arrays. -/

theorem W7_main_arg0 (c : Dev nD) : W7 m c (Proc.devRef .tc main_arg0) = m ((c : Thread nD τ).loc main_arg0) :=
  (StableHlo.after_of_writes_sub hostOps2 (W6 m c) hostOps2_writes (by decide)).trans <|
  (W6_of_ne m c main_arg0 (by decide)).trans <|
  (StableHlo.after_of_writes_sub hostOps1 (W4 m c) hostOps1_writes (by decide)).trans <|
  ((W4_arr m c 0).trans (((dat0 (E3 m) c).arrAt_in 0 rfl _).trans (A_eq0 (E3 m) c 0))).trans <|
  (V3_of m c main_arg0 (by decide)).trans <| (V2_of m c main_arg0 (by decide)).trans <| (V1_of m c main_arg0 (by decide)).trans rfl
theorem W7_main_arg1 (c : Dev nD) : W7 m c (Proc.devRef .tc main_arg1) = m ((c : Thread nD τ).loc main_arg1) :=
  (StableHlo.after_of_writes_sub hostOps2 (W6 m c) hostOps2_writes (by decide)).trans <|
  (W6_of_ne m c main_arg1 (by decide)).trans <|
  (StableHlo.after_of_writes_sub hostOps1 (W4 m c) hostOps1_writes (by decide)).trans <|
  (W4_of_ne m c main_arg1 (by decide)).trans <|
  (V3_of m c main_arg1 (by decide)).trans <| (V2_of m c main_arg1 (by decide)).trans <| (V1_of m c main_arg1 (by decide)).trans rfl
theorem W7_main_arg2 (c : Dev nD) : W7 m c (Proc.devRef .tc main_arg2) = m ((c : Thread nD τ).loc main_arg2) :=
  (StableHlo.after_of_writes_sub hostOps2 (W6 m c) hostOps2_writes (by decide)).trans <|
  (W6_of_ne m c main_arg2 (by decide)).trans <|
  (StableHlo.after_of_writes_sub hostOps1 (W4 m c) hostOps1_writes (by decide)).trans <|
  ((W4_arr m c 1).trans (((dat0 (E3 m) c).arrAt_in 1 rfl _).trans (A_eq0 (E3 m) c 1))).trans <|
  (V3_of m c main_arg2 (by decide)).trans <| (V2_of m c main_arg2 (by decide)).trans <| (V1_of m c main_arg2 (by decide)).trans rfl
theorem W7_main_arg3 (c : Dev nD) : W7 m c (Proc.devRef .tc main_arg3) = m ((c : Thread nD τ).loc main_arg3) :=
  (StableHlo.after_of_writes_sub hostOps2 (W6 m c) hostOps2_writes (by decide)).trans <|
  (W6_of_ne m c main_arg3 (by decide)).trans <|
  (StableHlo.after_of_writes_sub hostOps1 (W4 m c) hostOps1_writes (by decide)).trans <|
  (W4_of_ne m c main_arg3 (by decide)).trans <|
  (V3_of m c main_arg3 (by decide)).trans <| (V2_of m c main_arg3 (by decide)).trans <| (V1_of m c main_arg3 (by decide)).trans rfl

/-- Every weakly fair execution terminates, nothing faulting, with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

end Cert.KernelIdeal.Frame

end
-- ==== Proof.LibHostFold.lean ====
/-
  Folding a straight line of host operations in two parts, and the transports its inlined calls carry.

  The buffers' contents after a list of host operations is a left fold of the operations' results over the contents at
  the start; so the fold of a concatenation is the fold of its second part over the fold of its first (after_append), and
  a long program can be read in stretches with the contents in between kept as one term.

  The operations of a function inlined at its call site carry each operand through a transport along the equation
  between its buffer's declared type and the value's type: to the buffer's type when written, back when read. A value
  carried there and back is the value (ofBuf_toBuf); and, the two types being one, a single transport of a value is that
  value, stated through heterogeneous equality so that the equation is found by the types' computation at the use site
  (ofBuf_eq, toBuf_eq: give `HEq.rfl`, or `heq_of_eq` of an equation between the two sides read at one type). Removing
  the transports by these lemmas, syntactically, before two composed terms are compared keeps the comparison from
  computing through the transports.
-/
import Idealize.ShloMosaic.Lib.StableHlo.Run

namespace Cert.HostFold

open Idealize.ShloMosaic Idealize.ShloMosaic.StableHlo

variable {τ : Topo} {sig : RefSig} {Val : EltTy → Type}

/-- Folding a concatenation is folding its second part over the fold of its first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A value carried to its buffer's type and back is the value. -/
theorem ofBuf_toBuf {T : BufTy} (x : TRef sig T) (v : T.Contents Val) : x.ofBuf (x.toBuf v) = v := by
  obtain ⟨r, hty, h2, h3⟩ := x
  subst hty
  rfl

/-- Contents read at the value's type are the contents, when the two are one term up to the types' equation. -/
theorem ofBuf_eq {T : BufTy} (x : TRef sig T) (v : x.ref.ty.Contents Val) (w : T.Contents Val) (h : HEq v w) :
    x.ofBuf v = w := by
  obtain ⟨r, hty, h2, h3⟩ := x
  subst hty
  exact eq_of_heq h

/-- A value carried to its buffer's type is the value, likewise. -/
theorem toBuf_eq {T : BufTy} (x : TRef sig T) (v : T.Contents Val) (w : x.ref.ty.Contents Val) (h : HEq v w) :
    x.toBuf v = w := by
  obtain ⟨r, hty, h2, h3⟩ := x
  subst hty
  exact eq_of_heq h

end Cert.HostFold
-- ==== Proof.LibScatterRows.lean ====
/-
  An accumulating scatter whose scatter indices are one column of row numbers, read at an index over the extended reals.

  The scatter indices have shape [E, 1]: update row e goes to operand row idx[e, 0], read as a SIGNED integer and
  not clamped; a row number outside [0, N) drops the whole update row. With the exact sum as the combiner, the
  result at (v, k) is the operand's entry plus the sum of upd[e, k] over the update rows e with idx[e, 0] = v
  (rowDims, scatterAdd_rows_apply). The rank-1 form — operand [N], updates [E] — is the same sum without the
  column (vecDims, scatterAdd_vec_apply). Both follow from reading the scatter's result index one axis at a time:
  on the row axis it is the start index, on the column axis the update's own column.
-/
import Idealize.ShloMosaic.PureOps.Ideal
import Idealize.ShloMosaic.Lib.ValueIdx

noncomputable section

open scoped BigOperators

namespace Cert.ScatterRows

open Idealize.ShloMosaic Idealize.ShloMosaic.ValueIdx

/-! ## Rows of width C scattered by one index column -/

/-- The dimension numbers of a row scatter: operand [N, C], scatter indices [E, 1], updates [E, C]; the updates'
    axis 1 is the window axis, the operand's axis 0 is inserted and is the one the index names. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)

/-- On the row axis the window starts at the row number the index column holds for the update's row. -/
theorem row_start0 (j : (⟨2, ![E, C]⟩ : Shape).Idx) (idx : IVec ⟨2, ![E, 1]⟩ w) :
    (rowDims N E C wf).start j idx 0 = (idx (ix2 (j 0) 0)).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis the index names nothing: the window starts at column 0. -/
theorem row_start1 (j : (⟨2, ![E, C]⟩ : Shape).Idx) (idx : IVec ⟨2, ![E, 1]⟩ w) :
    (rowDims N E C wf).start j idx 1 = 0 := by
  unfold ScatterDims.start
  rw [dif_neg (show ¬ (1 : Fin 2) ∈ (rowDims N E C wf).scatterDimsToOperandDims from
    (show ¬ (1 : Fin 2) ∈ ([0] : List (Fin 2)) by decide))]

/-- The row axis is inserted: no window coordinate on it. -/
theorem row_window0 (j : (⟨2, ![E, C]⟩ : Shape).Idx) : (rowDims N E C wf).window j 0 = 0 := by
  unfold ScatterDims.window
  rw [dif_neg (show ¬ (0 : Fin 2) ∈ (rowDims N E C wf).sKept from
    (show ¬ (0 : Fin 2) ∈ ([1] : List (Fin 2)) by decide))]

/-- On the column axis the window coordinate is the update's own column. -/
theorem row_window1 (j : (⟨2, ![E, C]⟩ : Shape).Idx) : (rowDims N E C wf).window j 1 = (j 1).val := by
  unfold ScatterDims.window
  rw [dif_pos (show (1 : Fin 2) ∈ (rowDims N E C wf).sKept from
    (show (1 : Fin 2) ∈ ([1] : List (Fin 2)) by decide))]
  rfl

/-- WHERE AN UPDATE LANDS: update (e, c) lands on operand (v, k) exactly when the index column holds v at e and c = k. -/
theorem row_lands_iff (j : (⟨2, ![E, C]⟩ : Shape).Idx) (idx : IVec ⟨2, ![E, 1]⟩ w) (i : (⟨2, ![N, C]⟩ : Shape).Idx) :
    (rowDims N E C wf).resultIdx? j idx = some i ↔
      (idx (ix2 (j 0) 0)).toInt = ((i 0).val : Int) ∧ (j 1).val = (i 1).val := by
  have hi0 : (i 0).val < N := idx2_lt0 i
  have hi1 : (i 1).val < C := idx2_lt1 i
  have hj1 : (j 1).val < C := idx2_lt1 j
  have hs0 : (⟨2, ![N, C]⟩ : Shape).size 0 = N := rfl
  have hs1 : (⟨2, ![N, C]⟩ : Shape).size 1 = C := rfl
  unfold ScatterDims.resultIdx?
  split
  · rename_i h
    have h0 := h 0
    have h1 := h 1
    rw [row_start0, row_window0] at h0
    rw [row_start1, row_window1] at h1
    rw [Option.some.injEq]
    constructor
    · intro he
      have e0 := congrArg (fun f => (f 0).val) he
      have e1 := congrArg (fun f => (f 1).val) he
      simp only [row_start0, row_window0, row_start1, row_window1] at e0 e1
      constructor <;> omega
    · rintro ⟨e0, e1⟩
      funext a
      refine Fin.ext ?_
      match a with
      | ⟨0, _⟩ =>
        show ((rowDims N E C wf).start j idx 0 + ((rowDims N E C wf).window j 0 : Int)).toNat = (i 0).val
        rw [row_start0, row_window0]; omega
      | ⟨1, _⟩ =>
        show ((rowDims N E C wf).start j idx 1 + ((rowDims N E C wf).window j 1 : Int)).toNat = (i 1).val
        rw [row_start1, row_window1]; omega
  · rename_i h
    constructor
    · intro he; exact absurd he (by simp)
    · rintro ⟨e0, e1⟩
      refine absurd (fun a => ?_) h
      match a with
      | ⟨0, _⟩ =>
        show 0 ≤ (rowDims N E C wf).start j idx 0 + ((rowDims N E C wf).window j 0 : Int) ∧
          (rowDims N E C wf).start j idx 0 + ((rowDims N E C wf).window j 0 : Int) < ((⟨2, ![N, C]⟩ : Shape).size 0 : Int)
        rw [row_start0, row_window0, hs0]; omega
      | ⟨1, _⟩ =>
        show 0 ≤ (rowDims N E C wf).start j idx 1 + ((rowDims N E C wf).window j 1 : Int) ∧
          (rowDims N E C wf).start j idx 1 + ((rowDims N E C wf).window j 1 : Int) < ((⟨2, ![N, C]⟩ : Shape).size 1 : Int)
        rw [row_start1, row_window1, hs1]; omega

/-- THE ROW SCATTER READ AT (v, k): the operand's entry plus the sum of column k of the update rows whose row number is v. -/
theorem scatterAdd_rows_apply (x : (⟨2, ![N, C]⟩ : Shape).Idx → EReal) (idx : IVec ⟨2, ![E, 1]⟩ w)
    (upd : (⟨2, ![E, C]⟩ : Shape).Idx → EReal) (v : Fin N) (k : Fin C) :
    Ideal.hostScatterAdd (rowDims N E C wf) x idx upd (ix2 v k) =
      x (ix2 v k) + ∑ e ∈ Finset.univ.filter (fun e : Fin E => (idx (ix2 e 0)).toInt = (v.val : Int)), upd (ix2 e k) := by
  unfold Ideal.hostScatterAdd
  congr 1
  rw [Finset.sum_filter, sum_idx2, Finset.sum_filter]
  refine Finset.sum_congr rfl fun e _ => ?_
  simp only [row_lands_iff]
  by_cases he : (idx (ix2 e 0)).toInt = (v.val : Int)
  · rw [if_pos he]
    rw [Finset.sum_eq_single k]
    · rw [if_pos ⟨he, rfl⟩]
    · intro b _ hb
      rw [if_neg]
      rintro ⟨_, h1⟩
      exact hb (Fin.ext h1)
    · intro h; exact absurd (Finset.mem_univ k) h
  · rw [if_neg he]
    refine Finset.sum_eq_zero fun b _ => ?_
    rw [if_neg]
    rintro ⟨h0, _⟩
    exact he h0

/-- The same for ANY dimension numbers of a row scatter (a program's own record: its four fields are these by
    unfolding), stated for the host operation at the extended reals. -/
theorem host_scatterAdd_rows_apply {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![E, 1]⟩ w)
    (upd : FVec Ideal ⟨2, ![E, C]⟩ φ) (v : Fin N) (k : Fin C) :
    Host.scatterAdd d x idx upd (ix2 v k) =
      x (ix2 v k) + ∑ e ∈ Finset.univ.filter (fun e : Fin E => (idx (ix2 e 0)).toInt = (v.val : Int)), upd (ix2 e k) := by
  obtain ⟨uw, iw, sd, iv, wf⟩ := d
  dsimp only at h1 h2 h3 h4
  subst h1 h2 h3 h4
  unfold Host.scatterAdd
  rw [Ideal.hostScatterAdd_def]
  exact scatterAdd_rows_apply wf x idx upd v k

end Rows

/-! ## Scalars scattered by one index column -/

/-- The dimension numbers of the rank-1 form: operand [N], scatter indices [E, 1], updates [E]; no window axis. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

theorem vec_start0 (j : (⟨1, ![E]⟩ : Shape).Idx) (idx : IVec ⟨2, ![E, 1]⟩ w) :
    (vecDims N E wf).start j idx 0 = (idx (ix2 (j 0) 0)).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem vec_window0 (j : (⟨1, ![E]⟩ : Shape).Idx) : (vecDims N E wf).window j 0 = 0 := by
  unfold ScatterDims.window
  rw [dif_neg (show ¬ (0 : Fin 1) ∈ (vecDims N E wf).sKept from
    (show ¬ (0 : Fin 1) ∈ ([] : List (Fin 1)) by decide))]

/-- WHERE AN UPDATE LANDS: update e lands on operand v exactly when the index column holds v at e. -/
theorem vec_lands_iff (j : (⟨1, ![E]⟩ : Shape).Idx) (idx : IVec ⟨2, ![E, 1]⟩ w) (i : (⟨1, ![N]⟩ : Shape).Idx) :
    (vecDims N E wf).resultIdx? j idx = some i ↔ (idx (ix2 (j 0) 0)).toInt = ((i 0).val : Int) := by
  have hi0 : (i 0).val < N := (i 0).isLt
  have hs0 : (⟨1, ![N]⟩ : Shape).size 0 = N := rfl
  unfold ScatterDims.resultIdx?
  split
  · rename_i h
    have h0 := h 0
    rw [vec_start0, vec_window0] at h0
    rw [Option.some.injEq]
    constructor
    · intro he
      have e0 := congrArg (fun f => (f 0).val) he
      simp only [vec_start0, vec_window0] at e0
      omega
    · intro e0
      funext a
      refine Fin.ext ?_
      match a with
      | ⟨0, _⟩ =>
        show ((vecDims N E wf).start j idx 0 + ((vecDims N E wf).window j 0 : Int)).toNat = (i 0).val
        rw [vec_start0, vec_window0]; omega
  · rename_i h
    constructor
    · intro he; exact absurd he (by simp)
    · intro e0
      refine absurd (fun a => ?_) h
      match a with
      | ⟨0, _⟩ =>
        show 0 ≤ (vecDims N E wf).start j idx 0 + ((vecDims N E wf).window j 0 : Int) ∧
          (vecDims N E wf).start j idx 0 + ((vecDims N E wf).window j 0 : Int) < ((⟨1, ![N]⟩ : Shape).size 0 : Int)
        rw [vec_start0, vec_window0, hs0]; omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- THE RANK-1 SCATTER READ AT v: the operand's entry plus the sum of the updates whose row number is v. -/
theorem scatterAdd_vec_apply (x : (⟨1, ![N]⟩ : Shape).Idx → EReal) (idx : IVec ⟨2, ![E, 1]⟩ w)
    (upd : (⟨1, ![E]⟩ : Shape).Idx → EReal) (v : Fin N) :
    Ideal.hostScatterAdd (vecDims N E wf) x idx upd (ix1 v) =
      x (ix1 v) + ∑ e ∈ Finset.univ.filter (fun e : Fin E => (idx (ix2 e 0)).toInt = (v.val : Int)), upd (ix1 e) := by
  unfold Ideal.hostScatterAdd
  congr 1
  rw [Finset.sum_filter, Finset.sum_filter, ← Equiv.sum_comp (idxEquiv1 (n := E)).symm]
  refine Finset.sum_congr rfl fun e _ => ?_
  simp only [vec_lands_iff]
  rfl

/-- The same for ANY dimension numbers of the rank-1 form, stated for the host operation at the extended reals. -/
theorem host_scatterAdd_vec_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![E, 1]⟩ w)
    (upd : FVec Ideal ⟨1, ![E]⟩ φ) (v : Fin N) :
    Host.scatterAdd d x idx upd (ix1 v) =
      x (ix1 v) + ∑ e ∈ Finset.univ.filter (fun e : Fin E => (idx (ix2 e 0)).toInt = (v.val : Int)), upd (ix1 e) := by
  obtain ⟨uw, iw, sd, iv, wf⟩ := d
  dsimp only at h1 h2 h3 h4
  subst h1 h2 h3 h4
  unfold Host.scatterAdd
  rw [Ideal.hostScatterAdd_def]
  exact scatterAdd_vec_apply wf x idx upd v

end Vec

end Cert.ScatterRows

end
-- ==== Proof.RefValue.lean ====
/-
  The reference's result, read at an index over the extended reals.

  The reference is a straight line of host operations. Its last four are an accumulating scatter of 680000 message
  rows of width 128 into a zero array of 40000 rows, by one column of destination row numbers; the addition of a bias
  row; and the maximum with zero. Everything before them only prepares the two operands of the scatter. Those two
  operands are named here as functions of plain arrays, so that another program computing the same arrays can be
  stated against the same names:
    refDstVec ei     the destination words: row 1 of the edge list ei followed by the self loops 0 … 39999;
    refDstCol ei     the same as one column, the scatter's index operand;
    refMsgsOf ei xw  the message rows: row e is the row of the dense array xw that e's source names, times e's weight
                     (the product of the inverse square roots of the two end points' degrees, the degrees being
                     themselves a scatter of ones by refDstCol).
  The result is then the maximum with zero of the scatter of refMsgsOf ei xw by refDstCol ei into zeros, plus the bias,
  with ei the edge list, xw the dense product of the features and the weights, and the bias the fourth argument
  (res_eq: by unfolding, for any float values).

  A scatter of rows read at (v, k) is the operand's entry plus the sum of column k of the update rows whose index
  word, read as a signed integer and not clamped, is v. So, over the extended reals, the result at (v, k) is
      max ((0 + ∑ over the messages e with destination v of (refMsgsOf ei xw) e k) + bias k) 0
  (out_apply_ix and out_apply for any index column, messages and bias; res_apply for the reference's own).

  The reference has no kernel, so its frame — it runs and leaves its arguments unchanged — is its run with the
  conjunct for the result dropped (frame_ri).
-/
import proofs.«110874_j70987219469122_1_alg».proof.Defs
import proofs.«110874_j70987219469122_1_alg».proof.Proof.Gen.Pre_finite_inputs
import proofs.«110874_j70987219469122_1_alg».proof.Proof.RefRunP
import proofs.«110874_j70987219469122_1_alg».proof.Proof.LibScatterRows
import Idealize.ShloMosaic.Lib.IdealHost

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-- The reference runs, and its four arguments end as they began. -/
theorem frame_ri : Cert.frame_ReferenceIdeal :=
  fun m ρ _ => (θ_run Cert.ReferenceIdeal.defs _ _).mono (fun _ h c => (h c).2)
    (Cert.ReferenceIdeal.ValueP.run (F := Ideal) m ρ)

/-! ## The scatter's two operands as functions of plain arrays -/

/-- The destination words: row 1 of the edge list followed by the self loops 0 … 39999. -/
def refDstVec (ei : IVec S2x640000 32) : IVec S680000 32 :=
  concatenate S680000 0 [⟨S640000, (shapeCast _ (extractStridedSlice S1x640000 ![1, 0] ei slices_S2x640000_S1x640000_1_0) shapeCasts_S1x640000_S640000)⟩, ⟨S40000, (iotaInDim S40000 32 0)⟩] concatenates_S640000_S40000_S680000_d0

/-- The destination words as one column: the index operand of both scatters. -/
def refDstCol (ei : IVec S2x640000 32) : IVec S680000x1 32 :=
  broadcastInDim S680000x1 ![0] bcast_S680000_S680000x1_0 (refDstVec ei)

section AnyFloats

variable {F : FTy → Type} [FloatOps F]

set_option maxRecDepth 8192 in
/-- The message rows: row e is the row of xw that e's source names, times e's weight. -/
def refMsgsOf (ei : IVec S2x640000 32) (xw : FVec F S40000x128 .f32) : FVec F S680000x128 .f32 :=
  mulf (broadcastInDim S680000x128 ![0, 1] bcast_S680000x1_S680000x128_0_1 (broadcastInDim S680000x1 ![0] bcast_S680000_S680000x1_0 (mulf (Host.gather gather_S40000_S680000x1_S680000_n_0_n_n_0_1_1 (select (cmpf (F := F) .ogt (Host.scatterAdd scatter_S40000_S680000x1_S680000_n_0_0_1 (broadcastInDim S40000 ![] bcast_S_S40000 (constant S_ .f32 0x00000000#32)) (broadcastInDim S680000x1 ![0] bcast_S680000_S680000x1_0 (concatenate S680000 0 [⟨S640000, (shapeCast _ (extractStridedSlice S1x640000 ![1, 0] ei slices_S2x640000_S1x640000_1_0) shapeCasts_S1x640000_S640000)⟩, ⟨S40000, (iotaInDim S40000 32 0)⟩] concatenates_S640000_S40000_S680000_d0)) (broadcastInDim S680000 ![] bcast_S_S680000 (constant S_ .f32 0x3F800000#32))) (broadcastInDim S40000 ![] bcast_S_S40000 (constant S_ .f32 0x00000000#32))) (Host.rsqrt (Host.scatterAdd scatter_S40000_S680000x1_S680000_n_0_0_1 (broadcastInDim S40000 ![] bcast_S_S40000 (constant S_ .f32 0x00000000#32)) (broadcastInDim S680000x1 ![0] bcast_S680000_S680000x1_0 (concatenate S680000 0 [⟨S640000, (shapeCast _ (extractStridedSlice S1x640000 ![1, 0] ei slices_S2x640000_S1x640000_1_0) shapeCasts_S1x640000_S640000)⟩, ⟨S40000, (iotaInDim S40000 32 0)⟩] concatenates_S640000_S40000_S680000_d0)) (broadcastInDim S680000 ![] bcast_S_S680000 (constant S_ .f32 0x3F800000#32)))) (broadcastInDim S40000 ![] bcast_S_S40000 (id (constant S_ .f32 0x00000000#32)))) (broadcastInDim S680000x1 ![0] bcast_S680000_S680000x1_0 (select (cmpi .slt (concatenate S680000 0 [⟨S640000, (shapeCast _ (extractStridedSlice S1x640000 ![0, 0] ei slices_S2x640000_S1x640000_0_0) shapeCasts_S1x640000_S640000)⟩, ⟨S40000, (iotaInDim S40000 32 0)⟩] concatenates_S640000_S40000_S680000_d0) (broadcastInDim S680000 ![] bcast_S_S680000 (constantI S_ 32 0#32))) (addi (concatenate S680000 0 [⟨S640000, (shapeCast _ (extractStridedSlice S1x640000 ![0, 0] ei slices_S2x640000_S1x640000_0_0) shapeCasts_S1x640000_S640000)⟩, ⟨S40000, (iotaInDim S40000 32 0)⟩] concatenates_S640000_S40000_S680000_d0) (broadcastInDim S680000 ![] bcast_S_S680000 (constantI S_ 32 40000#32))) (concatenate S680000 0 [⟨S640000, (shapeCast _ (extractStridedSlice S1x640000 ![0, 0] ei slices_S2x640000_S1x640000_0_0) shapeCasts_S1x640000_S640000)⟩, ⟨S40000, (iotaInDim S40000 32 0)⟩] concatenates_S640000_S40000_S680000_d0)))) (Host.gather gather_S40000_S680000x1_S680000_n_0_n_n_0_1_1 (select (cmpf (F := F) .ogt (Host.scatterAdd scatter_S40000_S680000x1_S680000_n_0_0_1 (broadcastInDim S40000 ![] bcast_S_S40000 (constant S_ .f32 0x00000000#32)) (broadcastInDim S680000x1 ![0] bcast_S680000_S680000x1_0 (concatenate S680000 0 [⟨S640000, (shapeCast _ (extractStridedSlice S1x640000 ![1, 0] ei slices_S2x640000_S1x640000_1_0) shapeCasts_S1x640000_S640000)⟩, ⟨S40000, (iotaInDim S40000 32 0)⟩] concatenates_S640000_S40000_S680000_d0)) (broadcastInDim S680000 ![] bcast_S_S680000 (constant S_ .f32 0x3F800000#32))) (broadcastInDim S40000 ![] bcast_S_S40000 (constant S_ .f32 0x00000000#32))) (Host.rsqrt (Host.scatterAdd scatter_S40000_S680000x1_S680000_n_0_0_1 (broadcastInDim S40000 ![] bcast_S_S40000 (constant S_ .f32 0x00000000#32)) (broadcastInDim S680000x1 ![0] bcast_S680000_S680000x1_0 (concatenate S680000 0 [⟨S640000, (shapeCast _ (extractStridedSlice S1x640000 ![1, 0] ei slices_S2x640000_S1x640000_1_0) shapeCasts_S1x640000_S640000)⟩, ⟨S40000, (iotaInDim S40000 32 0)⟩] concatenates_S640000_S40000_S680000_d0)) (broadcastInDim S680000 ![] bcast_S_S680000 (constant S_ .f32 0x3F800000#32)))) (broadcastInDim S40000 ![] bcast_S_S40000 (id (constant S_ .f32 0x00000000#32)))) (broadcastInDim S680000x1 ![0] bcast_S680000_S680000x1_0 (select (cmpi .slt (concatenate S680000 0 [⟨S640000, (shapeCast _ (extractStridedSlice S1x640000 ![1, 0] ei slices_S2x640000_S1x640000_1_0) shapeCasts_S1x640000_S640000)⟩, ⟨S40000, (iotaInDim S40000 32 0)⟩] concatenates_S640000_S40000_S680000_d0) (broadcastInDim S680000 ![] bcast_S_S680000 (constantI S_ 32 0#32))) (addi (concatenate S680000 0 [⟨S640000, (shapeCast _ (extractStridedSlice S1x640000 ![1, 0] ei slices_S2x640000_S1x640000_1_0) shapeCasts_S1x640000_S640000)⟩, ⟨S40000, (iotaInDim S40000 32 0)⟩] concatenates_S640000_S40000_S680000_d0) (broadcastInDim S680000 ![] bcast_S_S680000 (constantI S_ 32 40000#32))) (concatenate S680000 0 [⟨S640000, (shapeCast _ (extractStridedSlice S1x640000 ![1, 0] ei slices_S2x640000_S1x640000_1_0) shapeCasts_S1x640000_S640000)⟩, ⟨S40000, (iotaInDim S40000 32 0)⟩] concatenates_S640000_S40000_S680000_d0))))))) (Host.gather gather_S40000x128_S680000x1_S680000x128_1_0_n_n_0_1_1128 xw (broadcastInDim S680000x1 ![0] bcast_S680000_S680000x1_0 (select (cmpi .slt (concatenate S680000 0 [⟨S640000, (shapeCast _ (extractStridedSlice S1x640000 ![0, 0] ei slices_S2x640000_S1x640000_0_0) shapeCasts_S1x640000_S640000)⟩, ⟨S40000, (iotaInDim S40000 32 0)⟩] concatenates_S640000_S40000_S680000_d0) (broadcastInDim S680000 ![] bcast_S_S680000 (constantI S_ 32 0#32))) (addi (concatenate S680000 0 [⟨S640000, (shapeCast _ (extractStridedSlice S1x640000 ![0, 0] ei slices_S2x640000_S1x640000_0_0) shapeCasts_S1x640000_S640000)⟩, ⟨S40000, (iotaInDim S40000 32 0)⟩] concatenates_S640000_S40000_S680000_d0) (broadcastInDim S680000 ![] bcast_S_S680000 (constantI S_ 32 40000#32))) (concatenate S680000 0 [⟨S640000, (shapeCast _ (extractStridedSlice S1x640000 ![0, 0] ei slices_S2x640000_S1x640000_0_0) shapeCasts_S1x640000_S640000)⟩, ⟨S40000, (iotaInDim S40000 32 0)⟩] concatenates_S640000_S40000_S680000_d0))))

set_option maxRecDepth 8192 in
/-- The result is the maximum with zero of the scatter of the messages by the destination column into zeros, plus the
    bias. -/
theorem res_eq (m : (ℓ : Loc nD τ sig) → Buf (Elt F) ℓ) (c : Dev nD) :
    Cert.ReferenceIdeal.ValueP.res_main_v47 (F := F) m c =
      maximumf (addf (Host.scatterAdd scatter_S40000x128_S680000x1_S680000x128_1_0_0_1 (broadcastInDim S40000x128 ![] bcast_S_S40000x128 (constant (F := F) S_ .f32 0x00000000#32))
          (refDstCol (m ((c.tc : Thread nD τ).loc main_arg1)))
          (refMsgsOf (m ((c.tc : Thread nD τ).loc main_arg1)) (Host.dotGeneral dot_S40000x256_S256x128_S40000x128_1_0_0_1_n_n none (m ((c.tc : Thread nD τ).loc main_arg0)) (m ((c.tc : Thread nD τ).loc main_arg2)))))
        (broadcastInDim S40000x128 ![0, 1] bcast_S1x128_S40000x128_0_1 (broadcastInDim S1x128 ![1] bcast_S128_S1x128_1 (m ((c.tc : Thread nD τ).loc main_arg3)))))
        (broadcastInDim S40000x128 ![] bcast_S_S40000x128 (constant (F := F) S_ .f32 0x00000000#32)) := by
  unfold Cert.ReferenceIdeal.ValueP.res_main_v47 refMsgsOf refDstCol refDstVec
  rfl

end AnyFloats

/-! ## Reading at an index over the extended reals -/

/-- A zero constant broadcast to any shape reads 0. -/
theorem zeros_apply {T : Shape} (h : (⟨0, ![]⟩ : Shape).BroadcastsInDim T ![]) (j : T.Idx) :
    broadcastInDim T ![] h (constant (F := Ideal) S_ .f32 0x00000000#32) j = 0 := by
  rw [broadcastInDim_scalar_apply, constant_apply, Ideal.ofBits_zero_f32]

/-- The bias row broadcast over the rows reads the bias at the column. -/
theorem bias_apply (b : FVec Ideal S128 .f32) (v : Fin 40000) (k : Fin 128) :
    broadcastInDim S40000x128 ![0, 1] bcast_S1x128_S40000x128_0_1 (broadcastInDim S1x128 ![1] bcast_S128_S1x128_1 b) (ix2 v k)
      = b (ix1 k) := by
  unfold broadcastInDim
  refine congrArg b (funext fun a => Fin.ext ?_)
  match a with
  | ⟨0, _⟩ => rfl

/-- SCATTER, BIAS, MAXIMUM WITH ZERO AT (v, k), for any index column, messages and bias. -/
theorem out_apply_ix (dstc : IVec S680000x1 32) (msgs : FVec Ideal S680000x128 .f32) (b : FVec Ideal S128 .f32)
    (v : Fin 40000) (k : Fin 128) :
    maximumf (F := Ideal) (addf (F := Ideal) (Host.scatterAdd (F := Ideal) scatter_S40000x128_S680000x1_S680000x128_1_0_0_1 (broadcastInDim S40000x128 ![] bcast_S_S40000x128 (constant (F := Ideal) S_ .f32 0x00000000#32)) dstc msgs)
        (broadcastInDim S40000x128 ![0, 1] bcast_S1x128_S40000x128_0_1 (broadcastInDim S1x128 ![1] bcast_S128_S1x128_1 b)))
        (broadcastInDim S40000x128 ![] bcast_S_S40000x128 (constant (F := Ideal) S_ .f32 0x00000000#32)) (ix2 v k) =
      max ((0 + ∑ e ∈ Finset.univ.filter (fun e : Fin 680000 => (dstc (ix2 e 0)).toInt = (v.val : ℤ)), msgs (ix2 e k))
        + b (ix1 k)) 0 := by
  rw [maximumf_apply, addf_apply,
    Cert.ScatterRows.host_scatterAdd_rows_apply (N := 40000) (E := 680000) (C := 128) _ rfl rfl rfl rfl,
    zeros_apply, bias_apply]

/-- The same at any index j: row j 0, column j 1. -/
theorem out_apply (dstc : IVec S680000x1 32) (msgs : FVec Ideal S680000x128 .f32) (b : FVec Ideal S128 .f32)
    (j : S40000x128.Idx) :
    maximumf (F := Ideal) (addf (F := Ideal) (Host.scatterAdd (F := Ideal) scatter_S40000x128_S680000x1_S680000x128_1_0_0_1 (broadcastInDim S40000x128 ![] bcast_S_S40000x128 (constant (F := Ideal) S_ .f32 0x00000000#32)) dstc msgs)
        (broadcastInDim S40000x128 ![0, 1] bcast_S1x128_S40000x128_0_1 (broadcastInDim S1x128 ![1] bcast_S128_S1x128_1 b)))
        (broadcastInDim S40000x128 ![] bcast_S_S40000x128 (constant (F := Ideal) S_ .f32 0x00000000#32)) j =
      max ((0 + ∑ e ∈ Finset.univ.filter (fun e : Fin 680000 => (dstc (ix2 e 0)).toInt = ((j 0).val : ℤ)), msgs (ix2 e (j 1)))
        + b (ix1 (j 1))) 0 :=
  (congrArg _ (eq_ix2 j)).trans (out_apply_ix dstc msgs b (j 0) (j 1))

/-- THE REFERENCE'S RESULT AT ANY INDEX j. -/
theorem res_apply (m : (ℓ : Loc nD τ sig) → Buf (Elt Ideal) ℓ) (c : Dev nD) (j : S40000x128.Idx) :
    (Cert.ReferenceIdeal.ValueP.res_main_v47 (F := Ideal) m c : FVec Ideal S40000x128 .f32) j =
      max ((0 + ∑ e ∈ Finset.univ.filter (fun e : Fin 680000 =>
                (refDstCol (m ((c.tc : Thread nD τ).loc main_arg1)) (ix2 e 0)).toInt = ((j 0).val : ℤ)),
              refMsgsOf (F := Ideal) (m ((c.tc : Thread nD τ).loc main_arg1)) (Host.dotGeneral (F := Ideal) (φ₁ := .f32) (φ₂ := .f32) dot_S40000x256_S256x128_S40000x128_1_0_0_1_n_n none (m ((c.tc : Thread nD τ).loc main_arg0)) (m ((c.tc : Thread nD τ).loc main_arg2))) (ix2 e (j 1)))
        + (m ((c.tc : Thread nD τ).loc main_arg3) : FVec Ideal S128 .f32) (ix1 (j 1))) 0 :=
  (congrFun (res_eq (F := Ideal) m c) j).trans (out_apply _ _ _ j)

end Cert.ReferenceIdeal.RefValue

end
-- ==== Proof.KernelOut.lean ====
/-
  What the program returns, read at an index.

  After the second region only one host operation remains: the returned [40000, 128] array is the padded [40960, 128]
  aggregate cut to its first 40000 rows. A cut at offsets (0, 0) keeps the coordinates, so the returned array at
  (v, q) is the padded aggregate at (v, q), and the padded aggregate is the array the second region's output window
  leaves after its last write-back.
-/
import proofs.«110874_j70987219469122_1_alg».proof.Proof.FrameKernelIdeal.Run
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.KOut

open Cert.KernelIdeal Cert.KernelIdeal.Gen Cert.KernelIdeal.Frame
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The returned array is the first 40000 rows of the padded aggregate. -/
theorem out_slice (c : Dev nD) : W7 m c (Proc.devRef .tc main_v45)
    = extractStridedSlice S40000x128 ![0, 0] (W6 m c (Proc.devRef .tc main_v44)) slices_S40960x128_S40000x128_0_0 := by
  show StableHlo.after hostOps2 (W6 m c) (Proc.devRef .tc main_v45) = _
  after_results

/-- The returned array at (j 0, j 1) is the array the second region's output window leaves, at the same coordinates. -/
theorem out_apply (c : Dev nD) (j : S40000x128.Idx) :
    W7 m c (Proc.devRef .tc main_v45) j
      = (dat1 (E5 m) c).arrAt 3 cfg1.N (ix2 (⟨(j 0).val, by have := idx2_lt0 j; omega⟩ : Fin 40960) (j 1 : Fin 128)) := by
  have h6 : W6 m c (Proc.devRef .tc main_v44) = (dat1 (E5 m) c).arrAt 3 cfg1.N := W6_arr m c 3
  rw [out_slice, h6]
  obtain ⟨p, q, rfl⟩ : ∃ (p : Fin 40000) (q : Fin 128), j = ix2 p q := ⟨j 0, j 1, eq_ix2 j⟩
  exact slice2_axis0_apply 0 _ _ p q ⟨p.val, by have := p.isLt; omega⟩ (Nat.zero_add _).symm

end Cert.KernelIdeal.KOut

end
-- ==== Proof.ValueAggPrep.lean ====
/- Where the windows of the aggregation region (the second accelerator region of the layer) sit, point by
   point, and which points write the result.
   The region's grid is 32 x 170: point t has coordinates (t / 170, t % 170). At point t the message window and
   the destination window are the (t % 170)-th blocks of 4000 rows of their arrays, the bias window is the whole
   1 x 128 row, and the result window is the (t / 170)-th block of 1280 rows of the 40960 x 128 result, written
   back only at the last point of each row of the grid (t % 170 = 169). So each block read is the array read at
   shifted rows, and the 32 written blocks tile the result: row r is written by point 170 (r / 1280) + 169. -/
import proofs.«110874_j70987219469122_1_alg».proof.Proof.Gen.KernelIdeal.Launch
import proofs.«110874_j70987219469122_1_alg».proof.Proof.Gen.KernelIdeal.Points
import Idealize.ShloMosaic.Lib.Pipeline.Value
import Idealize.ShloMosaic.Lib.ValueIdx
import Idealize.ShloMosaic.Lib.Tactic

set_option maxRecDepth 16384

noncomputable section

namespace Cert.KernelIdeal.ValueAgg

open Cert.KernelIdeal Cert.KernelIdeal.Gen
open Idealize.ShloMosaic Idealize.ShloMosaic.TcCoe Idealize.SL.Sem Idealize.ShloMosaic.ValueIdx
open Idealize.ShloMosaic.Pipeline (Dat)

/-! ## The windows' block indices at a point -/

/-- The message and destination windows move with the second grid coordinate, the bias window does not move,
    the result window moves with the first grid coordinate. -/
theorem idx_facts1 : ∀ t : Fin cfg1.N,
    win1_0.index t (0 : Fin 2) = t.val % 170 ∧ win1_0.index t (1 : Fin 2) = 0
    ∧ win1_1.index t (0 : Fin 2) = t.val % 170 ∧ win1_1.index t (1 : Fin 2) = 0
    ∧ win1_2.index t (0 : Fin 2) = 0 ∧ win1_2.index t (1 : Fin 2) = 0
    ∧ win1_3.index t (0 : Fin 2) = t.val / 170 ∧ win1_3.index t (1 : Fin 2) = 0 :=
  (by decide +kernel : ∀ t : Fin grid1.N, _)

/-! ## The input windows' blocks, read off any array -/

/-- Row k of the message block at point t is row 4000 (t % 170) + k of the array. -/
theorem read_blk1_0 (t : Fin cfg1.N) (X : (⟨S680000x128, .bf16⟩ : BufTy).Contents (Elt Ideal)) (k : Fin 4000) (q : Fin 128) :
    ((cfg1.win 0).blk t).view.read (Elt Ideal) X (ix2 k q)
      = X (ix2 (⟨4000 * (t.val % 170) + k.val, by have := k.isLt; omega⟩ : Fin 680000) q) := by
  obtain ⟨e00, e01, -⟩ := idx_facts1 t
  show X (((cfg1.win 0).blk t).view.emb (ix2 k q)) = _
  congr 1; funext a; apply Fin.ext
  match a with
  | ⟨0, _⟩ => show win1_0.index t (0 : Fin 2) * 4000 + 1 * k.val = 4000 * (t.val % 170) + k.val; omega
  | ⟨1, _⟩ => show win1_0.index t (1 : Fin 2) * 128 + 1 * q.val = q.val; omega

/-- Row k of the destination block at point t is row 4000 (t % 170) + k of the one-column array. -/
theorem read_blk1_1 (t : Fin cfg1.N) (X : (⟨S680000x1, .i32⟩ : BufTy).Contents (Elt Ideal)) (k : Fin 4000) (z : Fin 1) :
    ((cfg1.win 1).blk t).view.read (Elt Ideal) X (ix2 k z)
      = X (ix2 (⟨4000 * (t.val % 170) + k.val, by have := k.isLt; omega⟩ : Fin 680000) z) := by
  obtain ⟨-, -, e10, e11, -⟩ := idx_facts1 t
  show X (((cfg1.win 1).blk t).view.emb (ix2 k z)) = _
  congr 1; funext a; apply Fin.ext
  match a with
  | ⟨0, _⟩ => show win1_1.index t (0 : Fin 2) * 4000 + 1 * k.val = 4000 * (t.val % 170) + k.val; omega
  | ⟨1, _⟩ => show win1_1.index t (1 : Fin 2) * 1 + 1 * z.val = z.val; omega

/-- The bias block at any point is the whole row. -/
theorem read_blk1_2 (t : Fin cfg1.N) (X : (⟨S1x128, .f32⟩ : BufTy).Contents (Elt Ideal)) (z : Fin 1) (q : Fin 128) :
    ((cfg1.win 2).blk t).view.read (Elt Ideal) X (ix2 z q) = X (ix2 z q) := by
  obtain ⟨-, -, -, -, e20, e21, -⟩ := idx_facts1 t
  show X (((cfg1.win 2).blk t).view.emb (ix2 z q)) = _
  congr 1; funext a; apply Fin.ext
  match a with
  | ⟨0, _⟩ => show win1_2.index t (0 : Fin 2) * 1 + 1 * z.val = z.val; omega
  | ⟨1, _⟩ => show win1_2.index t (1 : Fin 2) * 128 + 1 * q.val = q.val; omega

/-! ## The result's blocks -/

/-- An index of the result lies in point t's block exactly when each coordinate lies in the block's range. -/
theorem mem_blk1 (t : Fin cfg1.N) (i : S40960x128.Idx) :
    i ∈ ((cfg1.win 3).blk t).view.set ↔ ∀ a : Fin 2, win1_3.index t a * S1280x128.size a ≤ (i a).val ∧ (i a).val < win1_3.index t a * S1280x128.size a + S1280x128.size a := by
  show i ∈ ((View.whole main_v44).slice (win1_3.rect t)).set ↔ _
  rw [View.set_slice_whole, Rect.mem_set_unit]
  exact Iff.rfl

/-- Every index of the result is in the block of a point that writes back: row r is in the block of the last
    point of grid row r / 1280. -/
theorem covered1 (i : S40960x128.Idx) : ∃ t : Fin cfg1.N, (cfg1.win 3).flush t = true ∧ i ∈ ((cfg1.win 3).blk t).view.set := by
  have hi0 : (i 0).val < 40960 := (i 0).isLt
  have hi1 : (i 1).val < 128 := (i 1).isLt
  have hN : cfg1.N = 5440 := N_1
  have ht : 170 * ((i 0).val / 1280) + 169 < cfg1.N := by rw [hN]; omega
  obtain ⟨-, -, -, -, -, -, e30, e31⟩ := idx_facts1 ⟨170 * ((i 0).val / 1280) + 169, ht⟩
  refine ⟨⟨170 * ((i 0).val / 1280) + 169, ht⟩, (flush1_3 _).mpr (by show (170 * ((i 0).val / 1280) + 169) % 170 = 169; omega), ?_⟩
  rw [mem_blk1]
  intro a
  match a with
  | ⟨0, _⟩ =>
    show win1_3.index ⟨170 * ((i 0).val / 1280) + 169, ht⟩ (0 : Fin 2) * 1280 ≤ (i 0).val ∧ (i 0).val < win1_3.index ⟨170 * ((i 0).val / 1280) + 169, ht⟩ (0 : Fin 2) * 1280 + 1280
    rw [e30]; show (170 * ((i 0).val / 1280) + 169) / 170 * 1280 ≤ (i 0).val ∧ (i 0).val < (170 * ((i 0).val / 1280) + 169) / 170 * 1280 + 1280; omega
  | ⟨1, _⟩ =>
    show win1_3.index ⟨170 * ((i 0).val / 1280) + 169, ht⟩ (1 : Fin 2) * 128 ≤ (i 1).val ∧ (i 1).val < win1_3.index ⟨170 * ((i 0).val / 1280) + 169, ht⟩ (1 : Fin 2) * 128 + 128
    omega

end Cert.KernelIdeal.ValueAgg

end
-- ==== Proof.FrameKernelIdeal.Region1Pieces.lean ====
/- Second pallas region (the scatter kernel): each piece a case's run found IS the body's arithmetic on the point's
   blocks. Where the second coordinate is 0 the scratch ends at the zero block plus this point's contribution;
   elsewhere at the previous contents plus the contribution; where the coordinate is 169 the output block is the
   rectified sum of that accumulator and the bias row. -/
import proofs.«110874_j70987219469122_1_alg».proof.Proof.FrameKernelIdeal.Region1
import Idealize.ShloMosaic.Lib.Pipeline.Value

-- deciding membership in rectangles of these extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a two-axis rectangle, however spelt. -/
theorem hz1 : (![0, 0] : Fin 2 → Nat) = fun _ => 0 := funext fun a => by fin_cases a <;> rfl

/-- Second coordinate 0: the scratch ends at the contribution of this point added onto the zero block. -/
theorem sout1_A_0_eq (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : cond1_0 i) (hc1 : ¬cond1_1 i)
    (x0 : Vec F S4000x128 .bf16) (x1 : Vec F S4000x1 .i32) (x2 : Vec F S1x128 .f32) :
    sout1_A_0 c i arg2 harg2 arg3 harg3 arg4 harg4 arg5 harg5 arg6 harg6 hc0 hc1 x0 x1 x2 = k1_pay2 i x1 x0 (k1_pay1 (F := F)) := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  try sl_unfold_words
  rw [View.canon_cons_unit_zero hz1, View.readCov_unit_zero (S := S1280x128) _ hz1]
  simp only [View.readAt_eq_ld, harg2.read_unread, harg3.read_unread, View.ld_unit_zero (S := S4000x128) hz1, View.ld_unit_zero (S := S4000x1) hz1]

/-- Second coordinate neither 0 nor 169: the scratch ends at this point's contribution added onto what it held. -/
theorem sout1_B_0_eq (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : ¬cond1_1 i)
    (x0 : Vec F S4000x128 .bf16) (x1 : Vec F S4000x1 .i32) (x2 : Vec F S1x128 .f32) (xs0 : Vec F S1280x128 .f32) :
    sout1_B_0 c i arg2 harg2 arg3 harg3 arg4 harg4 arg5 harg5 arg6 harg6 hc0 hc1 x0 x1 x2 xs0 = k1_pay2 i x1 x0 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  try sl_unfold_words
  rw [View.canon_unit_zero hz1]
  simp only [View.readAt_eq_ld, harg2.read_unread, harg3.read_unread, harg6.read_unread, View.ld_unit_zero (S := S4000x128) hz1, View.ld_unit_zero (S := S4000x1) hz1, View.ld_unit_zero (S := S1280x128) hz1]

/-- Second coordinate 169: the scratch ends likewise, -/
theorem sout1_C_0_eq (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : cond1_1 i)
    (x0 : Vec F S4000x128 .bf16) (x1 : Vec F S4000x1 .i32) (x2 : Vec F S1x128 .f32) (xs0 : Vec F S1280x128 .f32) :
    sout1_C_0 c i arg2 harg2 arg3 harg3 arg4 harg4 arg5 harg5 arg6 harg6 hc0 hc1 x0 x1 x2 xs0 = k1_pay2 i x1 x0 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  try sl_unfold_words
  rw [View.canon_unit_zero hz1]
  simp only [View.readAt_eq_ld, harg2.read_unread, harg3.read_unread, harg6.read_unread, View.ld_unit_zero (S := S4000x128) hz1, View.ld_unit_zero (S := S4000x1) hz1, View.ld_unit_zero (S := S1280x128) hz1]

/-- and the output block is the rectified sum of that accumulator and the bias row. -/
theorem out1_C_3_eq (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : cond1_1 i)
    (x0 : Vec F S4000x128 .bf16) (x1 : Vec F S4000x1 .i32) (x2 : Vec F S1x128 .f32) (xs0 : Vec F S1280x128 .f32) :
    out1_C_3 c i arg2 harg2 arg3 harg3 arg4 harg4 arg5 harg5 arg6 harg6 hc0 hc1 x0 x1 x2 xs0 = k1_pay3 (k1_pay2 i x1 x0 xs0) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  try sl_unfold_words
  rw [View.canon_unit_zero hz1, View.readCov_unit_zero (S := S1280x128) _ hz1]
  simp only [View.readAt_eq_ld, harg2.read_unread, harg3.read_unread, harg4.read_unread, harg6.read_unread, View.ld_unit_zero (S := S4000x128) hz1, View.ld_unit_zero (S := S4000x1) hz1, View.ld_unit_zero (S := S1280x128) hz1, View.ld_unit_zero (S := S1x128) hz1]

end Cert.KernelIdeal.Frame

end
-- ==== Proof.LibTileSum.lean ====
/-
  A sum over a contraction axis of extent K·T taken tile by tile: the sum over the K tiles of the sums over the T
  positions inside a tile is the sum over the whole axis, position T·s + j of the axis being position j of tile s.
  Only commutativity and associativity of the addition are used, so this holds in any commutative additive monoid —
  the extended reals with their infinities included. It is the law between a product accumulated over K contraction
  tiles of width T and the one product over the whole contraction axis.
-/
import Idealize.ShloMosaic.Lib.ValueIdx

open scoped BigOperators

namespace Cert.TileSum

/-- The axis `Fin (K * T)` is K tiles of T positions each: for any `f` on the axis' positions (given on the
    naturals), summing `f (T * s + j)` over the tiles `s < K` and the positions `j < T` inside a tile is summing
    `f` over the axis. -/
theorem sum_tiles {β : Type*} [AddCommMonoid β] (K T : ℕ) (f : ℕ → β) :
    ∑ s ∈ Finset.range K, ∑ j : Fin T, f (T * s + j.val) = ∑ r : Fin (K * T), f r.val := by
  rw [Finset.sum_range, ← Equiv.sum_comp (finProdFinEquiv (m := K) (n := T)), Fintype.sum_prod_type]
  refine Finset.sum_congr rfl fun s _ => Finset.sum_congr rfl fun j _ => ?_
  exact congrArg f (by rw [finProdFinEquiv_apply_val]; exact Nat.add_comm _ _)

end Cert.TileSum
-- ==== Proof.LibRealSums.lean ====
/-
  Finite sums of real numbers inside the extended reals.

  Multiplication does not distribute over addition on the extended reals (⊤ + ⊥ is ⊥, so (⊤ + ⊥) · (−1) is ⊤ while
  ⊤ · (−1) + ⊥ · (−1) is ⊥), but it does on the reals embedded in them. An extended real is called real here when it
  is the image of a real number. Reals are closed under finite sums and under products, a finite sum of reals is
  the image of the real sum, and a real factor distributes over a finite sum of reals (sum_mul_of_isReal).

  The last lemma is the law a message-passing aggregation needs: scaling every message by the receiving node's own
  factor before summing, or scaling the sum afterwards, gives the same number, provided the messages and the
  factor are real (scaled_sum_eq).
-/
import Mathlib.Data.EReal.Basic
import Mathlib.Data.EReal.Operations
import Mathlib.Algebra.BigOperators.Ring.Finset

open scoped BigOperators

namespace Cert.RealSums

/-- An extended real that is the image of a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A real extended real is the image of its own real part. -/
theorem IsReal.eq_coe_toReal {x : EReal} (hx : IsReal x) : x = ((x.toReal : ℝ) : EReal) := by
  obtain ⟨a, rfl⟩ := hx
  rw [EReal.toReal_coe]

/-- The image of a finite real sum is the sum of the images. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isReal_sum {ι : Type*} (s : Finset ι) (a : ι → EReal) (ha : ∀ i ∈ s, IsReal (a i)) : IsReal (∑ i ∈ s, a i) := by
  refine ⟨∑ i ∈ s, (a i).toReal, ?_⟩
  rw [← coe_sum]
  exact Finset.sum_congr rfl fun i hi => (ha i hi).eq_coe_toReal

/-- A real factor distributes over a finite sum of reals. -/
theorem sum_mul_of_isReal {ι : Type*} (s : Finset ι) (a : ι → EReal) (k : EReal)
    (ha : ∀ i ∈ s, IsReal (a i)) (hk : IsReal k) : (∑ i ∈ s, a i) * k = ∑ i ∈ s, a i * k := by
  obtain ⟨r, rfl⟩ := hk
  have h1 : ∑ i ∈ s, a i = ((∑ i ∈ s, (a i).toReal : ℝ) : EReal) := by
    rw [← coe_sum]
    exact Finset.sum_congr rfl fun i hi => (ha i hi).eq_coe_toReal
  have h2 : ∑ i ∈ s, a i * (r : EReal) = ((∑ i ∈ s, (a i).toReal * r : ℝ) : EReal) := by
    rw [← coe_sum]
    refine Finset.sum_congr rfl fun i hi => ?_
    rw [EReal.coe_mul, ← (ha i hi).eq_coe_toReal]
  rw [h1, h2, ← EReal.coe_mul, Finset.sum_mul]

/-- SCALING AFTER OR BEFORE THE SUM. Over a finite set of messages e, each a real value h e times a real sender factor
    s e: the sum scaled by the receiver's real factor k is the sum of the messages each scaled by s e · t e, whenever t e
    is k on the set. (Both sums start from zero, as an accumulating scatter into a zero array does.) -/
theorem scaled_sum_eq {ι : Type*} (S : Finset ι) (h s t : ι → EReal) (k : EReal)
    (hh : ∀ e ∈ S, IsReal (h e)) (hs : ∀ e ∈ S, IsReal (s e)) (ht : ∀ e ∈ S, t e = k) (hk : IsReal k) :
    (0 + ∑ e ∈ S, h e * s e) * k = 0 + ∑ e ∈ S, h e * (s e * t e) := by
  rw [zero_add, zero_add, sum_mul_of_isReal S (fun e => h e * s e) k (fun e he => (hh e he).mul (hs e he)) hk]
  refine Finset.sum_congr rfl fun e he => ?_
  obtain ⟨a, ha⟩ := hh e he
  obtain ⟨b, hb⟩ := hs e he
  obtain ⟨r, hr⟩ := hk
  show h e * s e * k = h e * (s e * t e)
  rw [ht e he, ha, hb, hr, ← EReal.coe_mul, ← EReal.coe_mul, ← EReal.coe_mul, ← EReal.coe_mul, mul_assoc]

end Cert.RealSums
-- ==== Proof.ScatterLaw.lean ====
/-
  The law of finite sums between a scatter accumulated tile by tile and the one sum over all messages.

  680000 messages are taken in 170 tiles of 4000; message 4000·s + k is position k of tile s. Inside a tile the
  messages are added into row r through an indicator: the message's value times 1 when its destination word names r,
  times 0 when not. In the extended reals 1 · x = x and 0 · x = 0 hold for every x, the infinities included, and a
  finite sum may be regrouped freely, so:
    (a) the tile-by-tile indicator sum is the sum over all messages of the value where the destination names r and
        of 0 elsewhere (tiles_sum for the bare regrouping, tiles_indicator_sum with the indicator);
    (b) that is the sum of the values over the messages whose destination, read as a signed integer, is r — a 32-bit
        word is the word of r exactly when its signed value is r, as long as r is below 2^31 (word_eq_iff_toInt,
        indicator_sum_eq_filter);
    (c) an accumulator that starts at 0 + C 0 and adds C (s+1) at step s+1 ends, after the last tile, at the sum of
        all the C s (runAcc, runAcc_last).
  scatter_tiles_eq_filter chains (a) and (b).
-/
import Mathlib
import Idealize.ShloMosaic.PureOps.Ideal
import Idealize.ShloMosaic.Lib.ValueIdx
import proofs.«110874_j70987219469122_1_alg».proof.Proof.LibTileSum
import proofs.«110874_j70987219469122_1_alg».proof.Proof.LibRealSums

open scoped BigOperators

namespace Cert.ScatterLaw

/-! ## (a) tile by tile -/

/-- Regrouping: an axis of N = K·T positions summed as K tiles of T is the axis summed once. The position of k in
    tile s is written with whatever proof of its bound the user has. -/
theorem tiles_sum {β : Type*} [AddCommMonoid β] (K T N : ℕ) (hN : K * T = N) (g : Fin N → β)
    (hlt : ∀ (s : Fin K) (k : Fin T), T * s.val + k.val < N) :
    ∑ s : Fin K, ∑ k : Fin T, g ⟨T * s.val + k.val, hlt s k⟩ = ∑ e : Fin N, g e := by
  subst hN
  have h := Cert.TileSum.sum_tiles K T (fun n => if h : n < K * T then g ⟨n, h⟩ else 0)
  rw [Finset.sum_range] at h
  calc ∑ s : Fin K, ∑ k : Fin T, g ⟨T * s.val + k.val, hlt s k⟩
      = ∑ s : Fin K, ∑ k : Fin T, (if h : T * s.val + k.val < K * T then g ⟨T * s.val + k.val, h⟩ else 0) := by
        refine Finset.sum_congr rfl fun s _ => Finset.sum_congr rfl fun k _ => ?_
        rw [dif_pos (hlt s k)]
    _ = ∑ r : Fin (K * T), (if h : r.val < K * T then g ⟨r.val, h⟩ else 0) := h
    _ = ∑ e : Fin (K * T), g e := Finset.sum_congr rfl fun r _ => by rw [dif_pos r.isLt]

/-- The bound of position k of tile s among the 680000 messages. -/
theorem tile_lt (s : Fin 170) (k : Fin 4000) : 4000 * s.val + k.val < 680000 := by
  have := s.isLt; have := k.isLt; omega

/-- (a) The indicator sum taken tile by tile is the sum over all messages of the value where the destination is the
    word w and of 0 elsewhere. -/
theorem tiles_indicator_sum (dst : Fin 680000 → BitVec 32) (M : Fin 680000 → EReal) (w : BitVec 32)
    (hlt : ∀ (s : Fin 170) (k : Fin 4000), 4000 * s.val + k.val < 680000) :
    ∑ s : Fin 170, ∑ k : Fin 4000,
        (if dst ⟨4000 * s.val + k.val, hlt s k⟩ = w then (1 : EReal) else 0) * M ⟨4000 * s.val + k.val, hlt s k⟩
      = ∑ e : Fin 680000, (if dst e = w then M e else 0) := by
  rw [← tiles_sum 170 4000 680000 (by norm_num) (fun e => if dst e = w then M e else 0) hlt]
  refine Finset.sum_congr rfl fun s _ => Finset.sum_congr rfl fun k _ => ?_
  by_cases h : dst ⟨4000 * s.val + k.val, hlt s k⟩ = w
  · rw [if_pos h, if_pos h, one_mul]
  · rw [if_neg h, if_neg h, zero_mul]

/-! ## (b) the messages whose signed destination is r -/

/-- A 32-bit word is the word of r exactly when its signed value is r, for r below 2^31. -/
theorem word_eq_iff_toInt (x : BitVec 32) (r : ℕ) (hr : r < 2 ^ 31) :
    x = BitVec.ofNat 32 r ↔ x.toInt = (r : ℤ) := by
  have h : (BitVec.ofNat 32 r).toInt = (r : ℤ) := by
    rw [BitVec.toInt_eq_toNat_cond, BitVec.toNat_ofNat]
    have : r % 2 ^ 32 = r := Nat.mod_eq_of_lt (by omega)
    rw [this]
    split_ifs with h2
    · rfl
    · exfalso; omega
  rw [← BitVec.toInt_inj, h]

/-- (b) The sum of the value where the destination is the word of r and of 0 elsewhere is the sum of the values over
    the messages whose signed destination is r. -/
theorem indicator_sum_eq_filter {ι : Type*} [Fintype ι] (dst : ι → BitVec 32) (M : ι → EReal) (r : ℕ)
    (hr : r < 2 ^ 31) :
    ∑ e : ι, (if dst e = BitVec.ofNat 32 r then M e else 0)
      = ∑ e ∈ Finset.univ.filter (fun e => (dst e).toInt = (r : ℤ)), M e := by
  rw [Finset.sum_filter]
  refine Finset.sum_congr rfl fun e _ => ?_
  by_cases h : dst e = BitVec.ofNat 32 r
  · rw [if_pos h, if_pos ((word_eq_iff_toInt _ r hr).1 h)]
  · rw [if_neg h, if_neg (fun h' => h ((word_eq_iff_toInt _ r hr).2 h'))]

/-- (a) then (b): the tile-by-tile indicator sum for row r is the sum of the values over the messages whose signed
    destination is r. -/
theorem scatter_tiles_eq_filter (dst : Fin 680000 → BitVec 32) (M : Fin 680000 → EReal) (r : ℕ) (hr : r < 40960)
    (hlt : ∀ (s : Fin 170) (k : Fin 4000), 4000 * s.val + k.val < 680000) :
    ∑ s : Fin 170, ∑ k : Fin 4000,
        (if dst ⟨4000 * s.val + k.val, hlt s k⟩ = BitVec.ofNat 32 r then (1 : EReal) else 0)
          * M ⟨4000 * s.val + k.val, hlt s k⟩
      = ∑ e ∈ Finset.univ.filter (fun e => (dst e).toInt = (r : ℤ)), M e := by
  rw [tiles_indicator_sum dst M (BitVec.ofNat 32 r) hlt, indicator_sum_eq_filter dst M r (by omega)]

/-! ## (c) the running form -/

/-- The accumulator after tile s: it starts at 0 + C 0 and adds one tile's contribution per step. -/
def runAcc {β : Type*} [AddCommMonoid β] (C : ℕ → β) : ℕ → β
  | 0 => 0 + C 0
  | s + 1 => runAcc C s + C (s + 1)

theorem runAcc_zero {β : Type*} [AddCommMonoid β] (C : ℕ → β) : runAcc C 0 = 0 + C 0 := rfl

theorem runAcc_succ {β : Type*} [AddCommMonoid β] (C : ℕ → β) (s : ℕ) :
    runAcc C (s + 1) = runAcc C s + C (s + 1) := rfl

/-- After tile s the accumulator holds the sum of the contributions of tiles 0 … s. -/
theorem runAcc_eq_sum {β : Type*} [AddCommMonoid β] (C : ℕ → β) (s : ℕ) :
    runAcc C s = ∑ i ∈ Finset.range (s + 1), C i := by
  induction s with
  | zero => rw [runAcc_zero, zero_add, Finset.sum_range_one]
  | succ s ih => rw [runAcc_succ, ih, Finset.sum_range_succ _ (s + 1)]

/-- (c) Any sequence that obeys the accumulator's two equations over the 170 tiles ends at the sum of all the
    contributions. -/
theorem fold_last (C : Fin 170 → EReal) (acc : ℕ → EReal)
    (h0 : acc 0 = 0 + C 0)
    (hs : ∀ s (h : s + 1 < 170), acc (s + 1) = acc s + C ⟨s + 1, h⟩) :
    acc 169 = ∑ s : Fin 170, C s := by
  have key : ∀ s (h : s < 170), acc s = ∑ i ∈ Finset.range (s + 1), (if h' : i < 170 then C ⟨i, h'⟩ else 0) := by
    intro s
    induction s with
    | zero =>
      intro _
      rw [h0, zero_add, Finset.sum_range_one, dif_pos (by norm_num)]
      rfl
    | succ s ih =>
      intro h
      rw [hs s h, ih (by omega), Finset.sum_range_succ _ (s + 1), dif_pos h]
  rw [key 169 (by norm_num), Finset.sum_range]
  refine Finset.sum_congr rfl fun i _ => ?_
  rw [dif_pos i.isLt]

end Cert.ScatterLaw
-- ==== Proof.AggDef.lean ====
import proofs.«110874_j70987219469122_1_alg».proof.KernelIdeal
import proofs.«110874_j70987219469122_1_alg».proof.Proof.ScatterLaw
import Idealize.ShloMosaic.PureOps.Ideal
import Idealize.ShloMosaic.Lib.ValueIdx

noncomputable section

namespace Cert.KernelIdeal.ValueAgg

open Cert.KernelIdeal Idealize.ShloMosaic Idealize.ShloMosaic.ValueIdx

/-- The padded aggregate as one function of the three arrays the second kernel reads: entry (r, d) is
    max (∑ over the 170 message tiles s and the 4000 messages k of a tile of [destination of message 4000 s + k is r] ·
    message (4000 s + k, d) + bias d, 0) on the extended reals — each node row gathers the messages sent to it, tile
    by tile, then the bias is added and the negative part cut off. -/
def Agg (msgs : (⟨S680000x128, .bf16⟩ : BufTy).Contents (Elt Ideal)) (dst : (⟨S680000x1, .i32⟩ : BufTy).Contents (Elt Ideal))
    (bias : (⟨S1x128, .f32⟩ : BufTy).Contents (Elt Ideal)) : S40960x128.Idx → EReal := fun j =>
  max ((∑ s : Fin 170, ∑ k : Fin 4000,
      (if dst (ix2 (⟨4000 * s.val + k.val, Cert.ScatterLaw.tile_lt s k⟩ : Fin 680000) (0 : Fin 1)) = BitVec.ofNat 32 (j 0).val then (1 : EReal) else 0)
        * msgs (ix2 (⟨4000 * s.val + k.val, Cert.ScatterLaw.tile_lt s k⟩ : Fin 680000) (j 1 : Fin 128)))
    + bias (ix2 (0 : Fin 1) (j 1 : Fin 128))) 0

end Cert.KernelIdeal.ValueAgg

end
-- ==== Proof.LibDotCols.lean ====
/-
  A product of two matrices contracted along their ROWS, [K, M] × [K, N] → [M, N], read at an index over the extended reals.

  With the contraction on axis 0 of BOTH operands (the left operand enters transposed) and no batch axis, the
  product's entry (p, q) is the sum over k of lhs (k, p) · rhs (k, q). This holds for a matrix unit's product into a zero
  accumulator (matmul_zero_apply), whatever precision it carries and whatever record of dimension numbers of that form it
  is given. It follows from re-indexing the sum over the one-axis contraction shape by its coordinate (contr_sum).
-/
import Idealize.ShloMosaic.PureOps.Ideal.Laws
import Idealize.ShloMosaic.Lib.ValueIdx

noncomputable section

open scoped BigOperators

namespace Cert.DotCols

open Idealize.ShloMosaic Idealize.ShloMosaic.ValueIdx

variable {M K N : Nat}

/-- The dimension numbers of the product contracted along both operands' rows. -/
abbrev colsDims (M K N : Nat) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable (wf : DotDims.WF ⟨2, ![K, M]⟩ ⟨2, ![K, N]⟩ ⟨2, ![M, N]⟩ [0] [0] [1] [1] [] [])

/-- The left operand's column coordinate is the result's row, whatever the contraction index. -/
theorem lhs_col (j : (⟨2, ![M, N]⟩ : Shape).Idx) (r : (colsDims M K N wf).contr.Idx) :
    ((colsDims M K N wf).lhsIdx j r 1).val = (j 0).val := by
  unfold DotDims.lhsIdx
  rw [dif_neg (show ¬ (1 : Fin 2) ∈ (colsDims M K N wf).lhsBatch from List.not_mem_nil),
    dif_pos (show (1 : Fin 2) ∈ (colsDims M K N wf).lhsNonContracting from List.mem_singleton.mpr rfl)]
  rfl

/-- The right operand's column coordinate is the result's column, whatever the contraction index. -/
theorem rhs_col (j : (⟨2, ![M, N]⟩ : Shape).Idx) (r : (colsDims M K N wf).contr.Idx) :
    ((colsDims M K N wf).rhsIdx j r 1).val = (j 1).val := by
  unfold DotDims.rhsIdx
  rw [dif_neg (show ¬ (1 : Fin 2) ∈ (colsDims M K N wf).rhsBatch from List.not_mem_nil),
    dif_pos (show (1 : Fin 2) ∈ (colsDims M K N wf).rhsNonContracting from List.mem_singleton.mpr rfl)]
  rfl

/-- The sum over the contraction shape is the sum over k of lhs (k, p) · rhs (k, q). -/
theorem contr_sum (lhs : (⟨2, ![K, M]⟩ : Shape).Idx → EReal) (rhs : (⟨2, ![K, N]⟩ : Shape).Idx → EReal) (p : Fin M) (q : Fin N) :
    ∑ k : (colsDims M K N wf).contr.Idx, lhs ((colsDims M K N wf).lhsIdx (ix2 p q) k) * rhs ((colsDims M K N wf).rhsIdx (ix2 p q) k)
      = ∑ k : Fin K, lhs (ix2 k p) * rhs (ix2 k q) := by
  rw [← Equiv.sum_comp (contrEquiv1 (colsDims M K N wf) K rfl rfl).symm]
  refine Finset.sum_congr rfl fun k _ => ?_
  have hk := contrEquiv1_symm_val (colsDims M K N wf) K rfl rfl k
  have el : (colsDims M K N wf).lhsIdx (ix2 p q) ((contrEquiv1 (colsDims M K N wf) K rfl rfl).symm k) = ix2 k p :=
    funext fun a => Fin.ext (by
      match a with
      | ⟨0, _⟩ => exact ((colsDims M K N wf).lhsIdx_val_of_single rfl _ _).trans hk
      | ⟨1, _⟩ => exact lhs_col wf _ _)
  have er : (colsDims M K N wf).rhsIdx (ix2 p q) ((contrEquiv1 (colsDims M K N wf) K rfl rfl).symm k) = ix2 k q :=
    funext fun a => Fin.ext (by
      match a with
      | ⟨0, _⟩ => exact ((colsDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers contracting both rows. -/
theorem matmul_zero_apply {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision) (lhs : FVec Ideal ⟨2, ![K, M]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 k p) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

end Cert.DotCols

end
-- ==== Proof.Payload1.lean ====
/-
  The three values the scatter region's body stores, each read at one index (p, q) over the extended reals.

  The first is the zero block. The second adds to the accumulator, at row p, every message row k whose destination word
  is the number of node p of this block, 1280 · (block number) + p: the product of the transposed indicator matrix with the
  message block, as a sum over k. The third is max(acc + bias, 0) with the bias row repeated down the rows.
-/
import proofs.«110874_j70987219469122_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«110874_j70987219469122_1_alg».proof.Proof.LibDotCols

noncomputable section

open scoped BigOperators

namespace Cert.KernelIdeal.Payload1

open Idealize.ShloMosaic Idealize.ShloMosaic.ValueIdx Idealize.ShloMosaic.Pipeline

/-- The block stored at the first step of a sweep is zero everywhere. -/
theorem k1_pay1_apply (p : Fin 1280) (q : Fin 128) : Gen.k1_pay1 (F := Ideal) (ix2 p q) = 0 := by
  unfold Gen.k1_pay1
  rw [shapeCast_self]
  show Ideal.ofBits .f32 0x00000000#32 = 0
  exact Ideal.ofBits_zero_f32

/-- A [a, 1] column broadcast to [a, b] reads, at (r, c), the column's entry at row r. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A truth value as a one-bit word, widened to 32 bits and read signed, is 1 or 0. -/
theorem bit_word : ∀ c : Bool, ((BitVec.ofBool c).setWidth 32).toInt = if c then 1 else 0 := by decide

/-- The indicator of equality of two words: the comparison's bit, widened and converted, is 1 where they are equal and 0 where not. -/
theorem indicator_word (a b : BitVec 32) :
    (FloatOps.sitofp (F := Ideal) .f32 ((IntOp.cmpi .eq a b).setWidth 32) : EReal) = if a = b then 1 else 0 := by
  show (((((BitVec.ofBool (a == b)).setWidth 32).toInt : ℤ) : ℝ) : EReal) = _
  rw [bit_word]
  by_cases h : a = b
  · simp [h]
  · simp [h]

/-- The number of node p of block g as a word: no product or sum wraps, and even if one did the words would agree. -/
theorem node_word (g p : Nat) : BitVec.ofNat 32 g * 1280#32 + BitVec.ofNat 32 p = BitVec.ofNat 32 (1280 * g + p) := by
  rw [BitVec.ofNat_add, Nat.mul_comm, BitVec.ofNat_mul]

/-- The block stored at every step is the accumulator plus, at (p, q), the messages whose destination is node p of this block. -/
theorem k1_pay2_apply (i : grid1.Coords) (v7 : IVec S4000x1 32) (v15 : FVec Ideal S4000x128 .bf16)
    (v18 : FVec Ideal S1280x128 .f32) (p : Fin 1280) (q : Fin 128) :
    Gen.k1_pay2 (F := Ideal) i v7 v15 v18 (ix2 p q)
      = v18 (ix2 p q) + ∑ k : Fin 4000, (if v7 (ix2 k (0 : Fin 1)) = BitVec.ofNat 32 (1280 * (i 0).val + p.val) then (1 : EReal) else 0) * v15 (ix2 k q) := by
  unfold Gen.k1_pay2
  rw [shapeCast_self, addf_apply]
  simp only [matmul]
  rw [Cert.DotCols.matmul_zero_apply (M := 1280) (K := 4000) (N := 128) dot_S4000x1280_S4000x128_S1280x128_0_0_1_1_n_n rfl rfl rfl rfl rfl rfl]
  congr 1
  refine Finset.sum_congr rfl fun k _ => ?_
  rw [shapeCast_self, truncf_apply, sitofp_apply, extui_apply]
  show (FloatOps.sitofp (F := Ideal) .f32 ((IntOp.cmpi .eq _ _).setWidth 32) : EReal) * _ = _
  rw [indicator_word, shapeCast_self, broadcastTo_a1_ab_apply, broadcastTo_1b_ab_apply]
  show (if v7 (ix2 k (0 : Fin 1)) = BitVec.ofNat 32 (i 0).val * 1280#32 + iota .tc S1x1280 32 [1] _ (ix2 (0 : Fin 1) p) then (1 : EReal) else 0) * _ = _
  rw [iota_single_apply]
  show (if v7 (ix2 k (0 : Fin 1)) = BitVec.ofNat 32 (i 0).val * 1280#32 + BitVec.ofNat 32 p.val then (1 : EReal) else 0) * _ = _
  rw [node_word]

/-- The block stored at the last step of a sweep is the accumulator plus the bias row, clipped below at zero. -/
theorem k1_pay3_apply (v26 : FVec Ideal S1280x128 .f32) (v27 : FVec Ideal S1x128 .f32) (p : Fin 1280) (q : Fin 128) :
    Gen.k1_pay3 (F := Ideal) v26 v27 (ix2 p q) = max (v26 (ix2 p q) + v27 (ix2 (0 : Fin 1) q)) 0 := by
  unfold Gen.k1_pay3
  rw [maximumf_apply, addf_apply, shapeCast_self, broadcastTo_1b_ab_apply, broadcast_apply]
  show max _ (Ideal.ofBits .f32 0x00000000#32) = _
  rw [Ideal.ofBits_zero_f32]

end Cert.KernelIdeal.Payload1

end
-- ==== Proof.ValueAgg.lean ====
/- The array the aggregation region leaves, as one function of the three arrays it reads, at the ideal values.
   Row r = 1280 n + p of the result is written by the last point of grid row n. Along that grid row the carried
   accumulator starts from zero and at step s gains, at (p, q), the sum over the 4000 messages k of tile s of
   [destination of message 4000 s + k is r] times that message's q-th entry; after the 170 steps it holds the sum
   over all tiles, and the last point stores max (accumulator + bias, 0). -/
import proofs.«110874_j70987219469122_1_alg».proof.Proof.ValueAggPrep
import proofs.«110874_j70987219469122_1_alg».proof.Proof.FrameKernelIdeal.Region1
import proofs.«110874_j70987219469122_1_alg».proof.Proof.FrameKernelIdeal.Region1Pieces
import proofs.«110874_j70987219469122_1_alg».proof.Proof.ScatterLaw
import proofs.«110874_j70987219469122_1_alg».proof.Proof.AggDef
import proofs.«110874_j70987219469122_1_alg».proof.Proof.Payload1
import Idealize.ShloMosaic.Lib.Pipeline.Value
import Idealize.ShloMosaic.Lib.ValueIdx
import Idealize.ShloMosaic.Lib.Tactic

set_option maxRecDepth 16384

noncomputable section

open scoped BigOperators

namespace Cert.KernelIdeal.ValueAgg

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## One tile's contribution -/

/-- What tile s contributes to entry (p, q) of the n-th block of 1280 rows. -/
def tileSum (c : Dev nD) (n : ℕ) (p : Fin 1280) (q : Fin 128) (s : Fin 170) : EReal :=
  ∑ k : Fin 4000,
    (if (V c main_v42 : (⟨S680000x1, .i32⟩ : BufTy).Contents (Elt Ideal)) (ix2 ⟨4000 * s.val + k.val, Cert.ScatterLaw.tile_lt s k⟩ 0) = BitVec.ofNat 32 (1280 * n + p.val) then (1 : EReal) else 0)
      * (V c main_v41 : (⟨S680000x128, .bf16⟩ : BufTy).Contents (Elt Ideal)) (ix2 ⟨4000 * s.val + k.val, Cert.ScatterLaw.tile_lt s k⟩ q)

/-! ## What is used of the body -/

/-- What the body stores, case by case, is what its payload terms say. -/
structure BodyFacts : Prop where
  pieceA : ∀ (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : cond1_0 i) (hc1 : ¬cond1_1 i) (x0 : Vec Ideal S4000x128 .bf16) (x1 : Vec Ideal S4000x1 .i32) (x2 : Vec Ideal S1x128 .f32),
    sout1_A_0 c i arg2 harg2 arg3 harg3 arg4 harg4 arg5 harg5 arg6 harg6 hc0 hc1 x0 x1 x2 = k1_pay2 i x1 x0 (k1_pay1 (F := Ideal))
  pieceB : ∀ (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : ¬cond1_1 i) (x0 : Vec Ideal S4000x128 .bf16) (x1 : Vec Ideal S4000x1 .i32) (x2 : Vec Ideal S1x128 .f32) (xs : Vec Ideal S1280x128 .f32),
    sout1_B_0 c i arg2 harg2 arg3 harg3 arg4 harg4 arg5 harg5 arg6 harg6 hc0 hc1 x0 x1 x2 xs = k1_pay2 i x1 x0 xs
  pieceCs : ∀ (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : cond1_1 i) (x0 : Vec Ideal S4000x128 .bf16) (x1 : Vec Ideal S4000x1 .i32) (x2 : Vec Ideal S1x128 .f32) (xs : Vec Ideal S1280x128 .f32),
    sout1_C_0 c i arg2 harg2 arg3 harg3 arg4 harg4 arg5 harg5 arg6 harg6 hc0 hc1 x0 x1 x2 xs = k1_pay2 i x1 x0 xs
  pieceCo : ∀ (c : Dev nD) (i : grid1.Coords) (arg2 : Memref sig .tc .vmem S4000x128 .bf16) (harg2 : arg2.IsWhole) (arg3 : Memref sig .tc .vmem S4000x1 .i32) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole) (hc0 : ¬cond1_0 i) (hc1 : cond1_1 i) (x0 : Vec Ideal S4000x128 .bf16) (x1 : Vec Ideal S4000x1 .i32) (x2 : Vec Ideal S1x128 .f32) (xs : Vec Ideal S1280x128 .f32),
    out1_C_3 c i arg2 harg2 arg3 harg3 arg4 harg4 arg5 harg5 arg6 harg6 hc0 hc1 x0 x1 x2 xs = k1_pay3 (k1_pay2 i x1 x0 xs) x2

/-! ## The grid's coordinates -/

/-- Point t of the 32 x 170 grid has coordinates (t / 170, t % 170). -/
theorem coords_facts1 : ∀ t : Fin cfg1.N, ((grid1.coords t) 0).val = t.val / 170 ∧ ((grid1.coords t) 1).val = t.val % 170 :=
  (by decide +kernel : ∀ t : Fin grid1.N, _)

/-! ## The input blocks at a point of tile s -/

theorem iblk1_0_apply (c : Dev nD) (t : Fin cfg1.N) (s : Fin 170) (hts : t.val % 170 = s.val) (k : Fin 4000) (q : Fin 128) :
    (iblk1 V c 0 t : Vec Ideal S4000x128 .bf16) (ix2 k q)
      = (V c main_v41 : (⟨S680000x128, .bf16⟩ : BufTy).Contents (Elt Ideal)) (ix2 ⟨4000 * s.val + k.val, Cert.ScatterLaw.tile_lt s k⟩ q) := by
  have hr : (⟨4000 * (t.val % 170) + k.val, by have := k.isLt; omega⟩ : Fin 680000) = ⟨4000 * s.val + k.val, Cert.ScatterLaw.tile_lt s k⟩ :=
    Fin.ext (by show 4000 * (t.val % 170) + k.val = 4000 * s.val + k.val; rw [hts])
  show ((cfg1.win 0).blk t).view.read (Elt Ideal) (V c main_v41) (ix2 k q) = _
  rw [read_blk1_0, hr]

theorem iblk1_1_apply (c : Dev nD) (t : Fin cfg1.N) (s : Fin 170) (hts : t.val % 170 = s.val) (k : Fin 4000) :
    (iblk1 V c 1 t : Vec Ideal S4000x1 .i32) (ix2 k (0 : Fin 1))
      = (V c main_v42 : (⟨S680000x1, .i32⟩ : BufTy).Contents (Elt Ideal)) (ix2 ⟨4000 * s.val + k.val, Cert.ScatterLaw.tile_lt s k⟩ 0) := by
  have hr : (⟨4000 * (t.val % 170) + k.val, by have := k.isLt; omega⟩ : Fin 680000) = ⟨4000 * s.val + k.val, Cert.ScatterLaw.tile_lt s k⟩ :=
    Fin.ext (by show 4000 * (t.val % 170) + k.val = 4000 * s.val + k.val; rw [hts])
  show ((cfg1.win 1).blk t).view.read (Elt Ideal) (V c main_v42) (ix2 k (0 : Fin 1)) = _
  rw [read_blk1_1, hr]

theorem iblk1_2_apply (c : Dev nD) (t : Fin cfg1.N) (q : Fin 128) :
    (iblk1 V c 2 t : Vec Ideal S1x128 .f32) (ix2 (0 : Fin 1) q)
      = (V c main_v43 : (⟨S1x128, .f32⟩ : BufTy).Contents (Elt Ideal)) (ix2 0 q) := by
  show ((cfg1.win 2).blk t).view.read (Elt Ideal) (V c main_v43) (ix2 (0 : Fin 1) q) = _
  rw [read_blk1_2]

/-- The sum the body's step adds at a point of grid row n and tile s is that tile's contribution. -/
theorem tile_term (c : Dev nD) (t : Fin cfg1.N) (n : ℕ) (s : Fin 170) (htn : t.val / 170 = n) (hts : t.val % 170 = s.val)
    (p : Fin 1280) (q : Fin 128) :
    (∑ k : Fin 4000, (if (iblk1 V c 1 t : IVec S4000x1 32) (ix2 k (0 : Fin 1)) = BitVec.ofNat 32 (1280 * ((grid1.coords t) 0).val + p.val) then (1 : EReal) else 0)
        * (iblk1 V c 0 t : FVec Ideal S4000x128 .bf16) (ix2 k q))
      = tileSum V c n p q s := by
  unfold tileSum
  refine Finset.sum_congr rfl fun k _ => ?_
  rw [iblk1_1_apply V c t s hts k, iblk1_0_apply V c t s hts k q, (coords_facts1 t).1, htn]

/-! ## The accumulator along a grid row -/

theorem outsAt1_congr (c : Dev nD) {a b : ℕ} (h : a = b) (ha : a < cfg1.N) (hb : b < cfg1.N) :
    outsAt1 V c a ha = outsAt1 V c b hb := by subst h; rfl

/-- At the first point of a grid row the accumulator is zero plus the first tile's contribution. -/
theorem scratch_first (G : BodyFacts) (c : Dev nD) (t : Fin cfg1.N) (n : ℕ) (htn : t.val / 170 = n) (hts : t.val % 170 = 0)
    (p : Fin 1280) (q : Fin 128) :
    (outsAt1 V c t.val t.isLt).2 (ix2 p q) = 0 + tileSum V c n p q ⟨0, by omega⟩ := by
  rw [outsAt1_A V c t hts (by omega)]
  dsimp only
  rw [G.pieceA, Payload1.k1_pay2_apply, Payload1.k1_pay1_apply]
  rw [tile_term V c t n ⟨0, by omega⟩ htn hts p q]

/-- At any later point of the row it is what the point before left plus this tile's contribution. -/
theorem scratch_next (G : BodyFacts) (c : Dev nD) (t : Fin cfg1.N) (n : ℕ) (s : Fin 170) (htn : t.val / 170 = n)
    (hts : t.val % 170 = s.val) (hs : s.val ≠ 0) (p : Fin 1280) (q : Fin 128) :
    (outsAt1 V c t.val t.isLt).2 (ix2 p q)
      = (outsAt1 V c (t.val - 1) (Nat.lt_of_le_of_lt (Nat.sub_le _ _) t.isLt)).2 (ix2 p q) + tileSum V c n p q s := by
  have h0 : ¬ t.val % 170 = 0 := by omega
  by_cases h1 : t.val % 170 = 169
  · rw [outsAt1_C V c t h0 h1]
    dsimp only
    rw [G.pieceCs, Payload1.k1_pay2_apply]
    rw [tile_term V c t n s htn hts p q]
  · rw [outsAt1_B V c t h0 h1]
    dsimp only
    rw [G.pieceB, Payload1.k1_pay2_apply]
    rw [tile_term V c t n s htn hts p q]

/-- After the last point of a grid row the accumulator holds the sum of all 170 tiles' contributions. -/
theorem scratch_last (G : BodyFacts) (c : Dev nD) (t : Fin cfg1.N) (h169 : t.val % 170 = 169) (p : Fin 1280) (q : Fin 128) :
    (outsAt1 V c t.val t.isLt).2 (ix2 p q) = ∑ s : Fin 170, tileSum V c (t.val / 170) p q s := by
  have hN : cfg1.N = 5440 := N_1
  have htlt : t.val < 5440 := hN ▸ t.isLt
  have hb : ∀ e, e < 170 → 170 * (t.val / 170) + e < cfg1.N := fun e he => by omega
  have h0 : (if h : 0 < 170 then (outsAt1 V c (170 * (t.val / 170) + 0) (hb 0 h)).2 (ix2 p q) else 0)
      = 0 + tileSum V c (t.val / 170) p q ⟨0, by omega⟩ := by
    rw [dif_pos (by omega)]
    exact scratch_first V G c ⟨170 * (t.val / 170) + 0, hb 0 (by omega)⟩ (t.val / 170)
      (by show (170 * (t.val / 170) + 0) / 170 = _; omega) (by show (170 * (t.val / 170) + 0) % 170 = 0; omega) p q
  have hs : ∀ s (h : s + 1 < 170),
      (if h' : s + 1 < 170 then (outsAt1 V c (170 * (t.val / 170) + (s + 1)) (hb _ h')).2 (ix2 p q) else 0)
        = (if h' : s < 170 then (outsAt1 V c (170 * (t.val / 170) + s) (hb _ h')).2 (ix2 p q) else 0)
          + tileSum V c (t.val / 170) p q ⟨s + 1, h⟩ := by
    intro s h
    rw [dif_pos h, dif_pos (by omega)]
    have e : outsAt1 V c (170 * (t.val / 170) + (s + 1) - 1) (Nat.lt_of_le_of_lt (Nat.sub_le _ _) (hb _ h))
        = outsAt1 V c (170 * (t.val / 170) + s) (hb _ (by omega)) := outsAt1_congr V c (by omega) _ _
    rw [← e]
    exact scratch_next V G c ⟨170 * (t.val / 170) + (s + 1), hb _ h⟩ (t.val / 170) ⟨s + 1, h⟩
      (by show (170 * (t.val / 170) + (s + 1)) / 170 = _; omega) (by show (170 * (t.val / 170) + (s + 1)) % 170 = s + 1; omega)
      (by show s + 1 ≠ 0; omega) p q
  have key := Cert.ScatterLaw.fold_last (fun s => tileSum V c (t.val / 170) p q s)
    (fun e => if h : e < 170 then (outsAt1 V c (170 * (t.val / 170) + e) (hb e h)).2 (ix2 p q) else 0) h0 hs
  have e : outsAt1 V c (170 * (t.val / 170) + 169) (hb 169 (by omega)) = outsAt1 V c t.val t.isLt :=
    outsAt1_congr V c (by omega) _ _
  rw [← e]
  have k2 : (if h : 169 < 170 then (outsAt1 V c (170 * (t.val / 170) + 169) (hb 169 h)).2 (ix2 p q) else 0)
      = ∑ s : Fin 170, tileSum V c (t.val / 170) p q s := key
  rw [dif_pos (show 169 < 170 by omega)] at k2
  exact k2

/-! ## The blocks written back, and the whole array -/

/-- What a writing point writes back is its block of rows of the aggregated array. -/
theorem flushed_eq1 (G : BodyFacts) (c : Dev nD) (t : Fin cfg1.N) (hf : (cfg1.win 3).flush t = true) :
    (dat1 V c).flushed 3 t
      = ((cfg1.win 3).blk t).view.read (Elt Ideal) (Agg (V c main_v41) (V c main_v42) (V c main_v43)) := by
  have h169 : t.val % 170 = 169 := (flush1_3 t).mp hf
  have h0 : ¬ t.val % 170 = 0 := by omega
  have hN : cfg1.N = 5440 := N_1
  have htlt : t.val < 5440 := hN ▸ t.isLt
  obtain ⟨-, -, -, -, -, -, e30, e31⟩ := idx_facts1 t
  have hlast := scratch_last V G c t h169
  show (cfg1.win 3).cut (grid1.coords t) ((dat1 V c).after 3 t) = _
  rw [after1_3]
  rw [outsAt1_C V c t h0 h169] at hlast ⊢
  dsimp only at hlast ⊢
  rw [G.pieceCs] at hlast
  rw [G.pieceCo]
  refine funext fun (j : S1280x128.Idx) => ?_
  obtain ⟨p, q, rfl⟩ : ∃ (p : Fin 1280) (q : Fin 128), j = ix2 p q := ⟨j 0, j 1, eq_ix2 j⟩
  show k1_pay3 (k1_pay2 (grid1.coords t) (iblk1 V c 1 t) (iblk1 V c 0 t) _) (iblk1 V c 2 t) (ix2 p q)
    = Agg (V c main_v41) (V c main_v42) (V c main_v43) (((cfg1.win 3).blk t).view.emb (ix2 p q))
  rw [Payload1.k1_pay3_apply, hlast p q, iblk1_2_apply]
  have hemb : ((cfg1.win 3).blk t).view.emb (ix2 p q)
      = ix2 (⟨1280 * (t.val / 170) + p.val, by have := p.isLt; omega⟩ : Fin 40960) q := by
    funext a; apply Fin.ext
    match a with
    | ⟨0, _⟩ => show win1_3.index t (0 : Fin 2) * 1280 + 1 * p.val = 1280 * (t.val / 170) + p.val; omega
    | ⟨1, _⟩ => show win1_3.index t (1 : Fin 2) * 128 + 1 * q.val = q.val; omega
  rw [hemb]
  rfl

/-- The result array after the region, given what is used of the body. -/
theorem arr_agg_of (G : BodyFacts) (c : Dev nD) :
    (dat1 V c).arrAt 3 cfg1.N = Agg (V c main_v41) (V c main_v42) (V c main_v43) :=
  (dat1 V c).arrAt_eq_of_cover 3 (Agg (V c main_v41) (V c main_v42) (V c main_v43)) (fun t hf => flushed_eq1 V G c t hf) covered1

/-! ## The result -/

/-- The four case equations, from the body's runs. -/
theorem bodyFacts : BodyFacts :=
  ⟨fun c i arg2 harg2 arg3 harg3 arg4 harg4 arg5 harg5 arg6 harg6 hc0 hc1 x0 x1 x2 => sout1_A_0_eq (F := Ideal) c i arg2 harg2 arg3 harg3 arg4 harg4 arg5 harg5 arg6 harg6 hc0 hc1 x0 x1 x2,
   fun c i arg2 harg2 arg3 harg3 arg4 harg4 arg5 harg5 arg6 harg6 hc0 hc1 x0 x1 x2 xs => sout1_B_0_eq (F := Ideal) c i arg2 harg2 arg3 harg3 arg4 harg4 arg5 harg5 arg6 harg6 hc0 hc1 x0 x1 x2 xs,
   fun c i arg2 harg2 arg3 harg3 arg4 harg4 arg5 harg5 arg6 harg6 hc0 hc1 x0 x1 x2 xs => sout1_C_0_eq (F := Ideal) c i arg2 harg2 arg3 harg3 arg4 harg4 arg5 harg5 arg6 harg6 hc0 hc1 x0 x1 x2 xs,
   fun c i arg2 harg2 arg3 harg3 arg4 harg4 arg5 harg5 arg6 harg6 hc0 hc1 x0 x1 x2 xs => out1_C_3_eq (F := Ideal) c i arg2 harg2 arg3 harg3 arg4 harg4 arg5 harg5 arg6 harg6 hc0 hc1 x0 x1 x2 xs⟩

/-- The result array after the aggregation region: the aggregated, biased and clipped array of the three arrays
    the region reads, as it finds them. -/
theorem arr_agg (c : Dev nD) :
    (dat1 V c).arrAt 3 cfg1.N = Agg (V c main_v41) (V c main_v42) (V c main_v43) :=
  arr_agg_of V bodyFacts c

end Cert.KernelIdeal.ValueAgg

end
-- ==== Proof.BridgeLaw.lean ====
/-
  The padded aggregate read at a real node's row.

  The aggregate's entry (r, d) gathers the messages tile by tile through an indicator of "destination word = word of r".
  For a node number v below 40000 (so below 2^31) that tile-by-tile indicator sum is the sum of the message values over
  the messages whose destination, read as a signed integer, is v. Hence the entry at (v, q) is
  max ((0 + that sum) + bias q, 0), with the bias row given as a vector b of length 128.
-/
import proofs.«110874_j70987219469122_1_alg».proof.Proof.AggDef
import proofs.«110874_j70987219469122_1_alg».proof.Proof.ScatterLaw

noncomputable section

open scoped BigOperators

namespace Cert.KernelIdeal.BridgeLaw

open Cert.KernelIdeal Cert.KernelIdeal.ValueAgg Idealize.ShloMosaic Idealize.ShloMosaic.ValueIdx

/-- The aggregate at row v < 40000 and column q: the messages whose signed destination is v, summed from 0, plus the
    bias at q, clipped below at zero. -/
theorem agg_apply (msgs : (⟨S680000x128, .bf16⟩ : BufTy).Contents (Elt Ideal)) (dst : (⟨S680000x1, .i32⟩ : BufTy).Contents (Elt Ideal))
    (bias : (⟨S1x128, .f32⟩ : BufTy).Contents (Elt Ideal)) (b : S128.Idx → EReal)
    (hb : ∀ q : Fin 128, bias (ix2 (0 : Fin 1) q) = b (ix1 q)) (v : Fin 40000) (q : Fin 128) :
    Agg msgs dst bias (ix2 (⟨v.val, by omega⟩ : Fin 40960) q)
      = max ((0 + ∑ e ∈ Finset.univ.filter (fun e : Fin 680000 => (dst (ix2 e (0 : Fin 1))).toInt = (v.val : ℤ)), msgs (ix2 e q))
          + b (ix1 q)) 0 := by
  have key := Cert.ScatterLaw.scatter_tiles_eq_filter (fun e => dst (ix2 e (0 : Fin 1))) (fun e => msgs (ix2 e q)) v.val
    (by omega) Cert.ScatterLaw.tile_lt
  unfold Agg
  rw [zero_add, ← hb q]
  exact congrArg (fun x : EReal => max (x + bias (ix2 (0 : Fin 1) q)) 0) key

/-- The same at an index j of the unpadded [40000, 128] result: row j 0, column j 1. -/
theorem agg_apply_idx (msgs : (⟨S680000x128, .bf16⟩ : BufTy).Contents (Elt Ideal)) (dst : (⟨S680000x1, .i32⟩ : BufTy).Contents (Elt Ideal))
    (bias : (⟨S1x128, .f32⟩ : BufTy).Contents (Elt Ideal)) (b : S128.Idx → EReal)
    (hb : ∀ q : Fin 128, bias (ix2 (0 : Fin 1) q) = b (ix1 q)) (j : S40000x128.Idx) :
    Agg msgs dst bias (ix2 (⟨(j 0).val, by have := idx2_lt0 j; omega⟩ : Fin 40960) (j 1 : Fin 128))
      = max ((0 + ∑ e ∈ Finset.univ.filter (fun e : Fin 680000 => (dst (ix2 e (0 : Fin 1))).toInt = ((j 0).val : ℤ)), msgs (ix2 e (j 1 : Fin 128)))
          + b (ix1 (j 1 : Fin 128))) 0 :=
  agg_apply msgs dst bias b hb (j 0) (j 1)

end Cert.KernelIdeal.BridgeLaw

end
-- ==== Proof.RefParts.lean ====
/-
  The reference's message rows, taken apart.

  refMsgsOf ei xw is one long term. Its pieces, each a function of the edge list ei alone:
    refSrcVec ei     the source words: row 0 of the edge list followed by the self loops 0 … 39999;
    wrapIdx v        a negative row number counted from the end: v + 40000 where v < 0, v elsewhere;
    refDeg ei        the degrees: ones scattered by the destination column into zeros;
    refNorm ei       their inverse square roots, and 0 where the degree is not positive;
    refWeights ei    the edge weights: the norm at the source times the norm at the destination.
  Then refMsgsOf ei xw is, row by row, the weight times the row of xw the source names (refMsgsOf_eq: by unfolding).
-/
import proofs.«110874_j70987219469122_1_alg».proof.Proof.RefValue

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-- The source words: row 0 of the edge list followed by the self loops. -/
def refSrcVec (ei : IVec S2x640000 32) : IVec S680000 32 :=
  concatenate S680000 0 [⟨S640000, (shapeCast _ (extractStridedSlice S1x640000 ![0, 0] ei slices_S2x640000_S1x640000_0_0) shapeCasts_S1x640000_S640000)⟩, ⟨S40000, (iotaInDim S40000 32 0)⟩] concatenates_S640000_S40000_S680000_d0

/-- A negative row number counted from the end. -/
def wrapIdx (v : IVec S680000 32) : IVec S680000 32 :=
  select (cmpi .slt v (broadcastInDim S680000 ![] bcast_S_S680000 (constantI S_ 32 0#32))) (addi v (broadcastInDim S680000 ![] bcast_S_S680000 (constantI S_ 32 40000#32))) v

section AnyFloats

variable (F : FTy → Type) [FloatOps F]

/-- The degrees: ones scattered by the destination column into zeros. -/
def refDeg (ei : IVec S2x640000 32) : FVec F S40000 .f32 :=
  Host.scatterAdd scatter_S40000_S680000x1_S680000_n_0_0_1 (broadcastInDim S40000 ![] bcast_S_S40000 (constant (F := F) S_ .f32 0x00000000#32)) (refDstCol ei) (broadcastInDim S680000 ![] bcast_S_S680000 (constant (F := F) S_ .f32 0x3F800000#32))

/-- The inverse square roots of the degrees, 0 where the degree is not positive. -/
def refNorm (ei : IVec S2x640000 32) : FVec F S40000 .f32 :=
  select (cmpf (F := F) .ogt (refDeg F ei) (broadcastInDim S40000 ![] bcast_S_S40000 (constant (F := F) S_ .f32 0x00000000#32))) (Host.rsqrt (refDeg F ei)) (broadcastInDim S40000 ![] bcast_S_S40000 (id (constant (F := F) S_ .f32 0x00000000#32)))

/-- The edge weights: the norm at the source times the norm at the destination. -/
def refWeights (ei : IVec S2x640000 32) : FVec F S680000 .f32 :=
  mulf (Host.gather gather_S40000_S680000x1_S680000_n_0_n_n_0_1_1 (refNorm F ei) (broadcastInDim S680000x1 ![0] bcast_S680000_S680000x1_0 (wrapIdx (refSrcVec ei))))
    (Host.gather gather_S40000_S680000x1_S680000_n_0_n_n_0_1_1 (refNorm F ei) (broadcastInDim S680000x1 ![0] bcast_S680000_S680000x1_0 (wrapIdx (refDstVec ei))))

set_option maxRecDepth 8192 in
/-- The message rows are the weights times the rows of xw the sources name. -/
theorem refMsgsOf_eq (ei : IVec S2x640000 32) (xw : FVec F S40000x128 .f32) :
    refMsgsOf ei xw =
      mulf (broadcastInDim S680000x128 ![0, 1] bcast_S680000x1_S680000x128_0_1 (broadcastInDim S680000x1 ![0] bcast_S680000_S680000x1_0 (refWeights F ei)))
        (Host.gather gather_S40000x128_S680000x1_S680000x128_1_0_n_n_0_1_1128 xw (broadcastInDim S680000x1 ![0] bcast_S680000_S680000x1_0 (wrapIdx (refSrcVec ei)))) := by
  unfold refMsgsOf refWeights refNorm refDeg refDstCol refDstVec wrapIdx refSrcVec
  rfl

end AnyFloats

end Cert.ReferenceIdeal.RefValue

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.ValueXW.lean ====
/- The array the matrix-product region leaves, as one function of the two arrays it reads: at the ideal
   values, entry (i, j) of the 40000 x 128 result is the sum over k of feature (i, k) times weight (k, j).
   Point t of the region's 20 points writes rows 2000 t .. 2000 t + 1999 of the result; its body's product
   of the t-th block of 2000 feature rows with the whole weight matrix is those rows of that function,
   because rounding to sixteen bits is the identity at the ideal values and the accumulator starts at zero.
   The 20 blocks of rows tile the result, so the whole array ends holding the function. -/
import proofs.«110874_j70987219469122_1_alg».proof.Proof.FrameKernelIdeal.Region0
import proofs.«110874_j70987219469122_1_alg».proof.Proof.LibPlainDot
import Idealize.ShloMosaic.Lib.Pipeline.Value
import Idealize.ShloMosaic.Lib.ValueIdx
import Idealize.ShloMosaic.Lib.Tactic

set_option maxRecDepth 16384

noncomputable section

open scoped BigOperators

namespace Cert.KernelIdeal.ValueXW

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of a 40000 x 256 array with a 256 x 128 array, entry by entry. -/
abbrev XW (a0 : S40000x256.Idx → EReal) (a2 : S256x128.Idx → EReal) : S40000x128.Idx → EReal :=
  fun j => ∑ k : Fin 256, a0 (ix2 (j 0 : Fin 40000) k) * a2 (ix2 k (j 1 : Fin 128))

/-- Where the region's windows sit at point t: the feature block and the result block are the t-th blocks of
    rows, the weight window is the whole matrix. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is the t-th block of rows of the product of the two arrays as the region finds them. -/
theorem flushed_eq (c : Dev nD) (t : Fin cfg0.N) :
    (dat0 V c).flushed 2 t = ((cfg0.win 2).blk t).view.read (Elt Ideal) (XW (V c main_arg0) (V c main_arg2)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x128) hz]
  obtain ⟨e00, e01, e10, e11, e20, e21⟩ := idx_facts t
  refine funext fun (j : S2000x128.Idx) => ?_
  obtain ⟨p, q, rfl⟩ : ∃ (p : Fin 2000) (q : Fin 128), j = ix2 p q := ⟨j 0, j 1, eq_ix2 j⟩
  show k0_pay1 (iblk0 V c 0 t) (iblk0 V c 1 t) (ix2 p q) = XW (V c main_arg0) (V c main_arg2) (((cfg0.win 2).blk t).view.emb (ix2 p q))
  unfold k0_pay1
  simp only [matmul]
  rw [Cert.PlainDot.matmul_zero_apply dot_S2000x256_S256x128_S2000x128_1_0_0_1_n_n rfl rfl rfl rfl rfl rfl]
  refine Finset.sum_congr rfl fun k _ => ?_
  congr 1
  · show V c main_arg0 (((cfg0.win 0).blk t).view.emb (ix2 p k)) = V c main_arg0 (ix2 ((((cfg0.win 2).blk t).view.emb (ix2 p q)) 0) k)
    congr 1; funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 256 + 1 * k.val = k.val; omega
  · show V c main_arg2 (((cfg0.win 1).blk t).view.emb (ix2 k q)) = V c main_arg2 (ix2 k ((((cfg0.win 2).blk t).view.emb (ix2 p q)) 1))
    congr 1; funext a; apply Fin.ext
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega

/-- An index of the result lies in point t's block exactly when each coordinate lies in the block's range. -/
theorem mem_blk (t : Fin cfg0.N) (i : S40000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Every index of the result is in the block of some point: row r is in the block of point r / 2000. -/
theorem covered (i : S40000x128.Idx) : ∃ t : Fin cfg0.N, (cfg0.win 2).flush t = true ∧ i ∈ ((cfg0.win 2).blk t).view.set := by
  have hi0 : (i 0).val < 40000 := (i 0).isLt
  have hi1 : (i 1).val < 128 := (i 1).isLt
  have hN : cfg0.N = 20 := N_0
  have ht : (i 0).val / 2000 < cfg0.N := by rw [hN]; omega
  obtain ⟨-, -, -, -, e20, e21⟩ := idx_facts ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    omega

/-- The result array after the region: the product of the two arrays the region reads, as it finds them. -/
theorem arr_xw (c : Dev nD) : (dat0 V c).arrAt 2 cfg0.N = XW (V c main_arg0) (V c main_arg2) :=
  (dat0 V c).arrAt_eq_of_cover 2 (XW (V c main_arg0) (V c main_arg2)) (fun t _ => flushed_eq V c t) covered

end Cert.KernelIdeal.ValueXW

end
-- ==== Proof.KernelHost.lean ====
/-
  The host side of the kernel's program against the reference's named operands.

  Between its two kernels the program runs, on the host, the same operations as the reference: the destination words
  and their column, the edge weights, the gathered rows of the dense product scaled by them. Read from the buffers the
  second kernel is entered with:
    (KH2) its destination column is refDstCol of the edge list;
    (KH3) its bias row, the bias vector reshaped to one row, reads the bias at each column;
    (KH1) its messages are refMsgsOf of the edge list and of the array the first kernel left — narrowed to the
          shorter float format, which over the extended reals changes nothing — and that array is the product XW of
          the first two arguments;
    (KH0) XW is the host's dot_general of the two arguments, entry by entry the same sum over the 256 contraction
          positions.
  So the second kernel's messages are, index by index, the reference's messages.

  KH2 and KH1 compare two programs' terms operation by operation and hold for any float values; they are proved
  there, where a float operation is opaque and the comparison never opens a sum over the 680000 messages.
-/
import proofs.«110874_j70987219469122_1_alg».proof.Proof.FrameKernelIdeal.Run
import proofs.«110874_j70987219469122_1_alg».proof.Proof.RefValue
import proofs.«110874_j70987219469122_1_alg».proof.Proof.RefParts
import proofs.«110874_j70987219469122_1_alg».proof.Proof.ValueXW
import proofs.«110874_j70987219469122_1_alg».proof.Proof.LibPlainDot
import proofs.«110874_j70987219469122_1_alg».proof.Proof.LibHostFold
import Idealize.ShloMosaic.Lib.StableHlo.Run
import Idealize.ShloMosaic.Lib.Pipeline.Value

set_option maxRecDepth 16384

noncomputable section

open scoped BigOperators

namespace Cert.KernelIdeal.KHost

open Cert.KernelIdeal Cert.KernelIdeal.Gen Cert.KernelIdeal.Frame
open Idealize.ShloMosaic Idealize.ShloMosaic.TcCoe Idealize.SL.Sem Idealize.ShloMosaic.StableHlo Idealize.ShloMosaic.ValueIdx
open Cert.ReferenceIdeal.RefValue (refDstVec refDstCol refMsgsOf refSrcVec refNorm refWeights)

section AnyFloats

variable {F : FTy → Type} [FloatOps F] (m : (ℓ : Loc nD τ sig) → Buf (Elt F) ℓ)

/-! ## The arguments, as the host stretches and the first kernel leave them -/

theorem W4_arg1 (c : Dev nD) : W4 m c (Proc.devRef .tc main_arg1) = m ((c.tc : Thread nD τ).loc main_arg1) :=
  (W4_of_ne m c main_arg1 (by decide)).trans <|
  (V3_of m c main_arg1 (by decide)).trans <| (V2_of m c main_arg1 (by decide)).trans <| (V1_of m c main_arg1 (by decide)).trans rfl

theorem W4_arg3 (c : Dev nD) : W4 m c (Proc.devRef .tc main_arg3) = m ((c.tc : Thread nD τ).loc main_arg3) :=
  (W4_of_ne m c main_arg3 (by decide)).trans <|
  (V3_of m c main_arg3 (by decide)).trans <| (V2_of m c main_arg3 (by decide)).trans <| (V1_of m c main_arg3 (by decide)).trans rfl

theorem E3_arg0 (c : Dev nD) : E3 m c main_arg0 = m ((c.tc : Thread nD τ).loc main_arg0) :=
  (V3_of m c main_arg0 (by decide)).trans <| (V2_of m c main_arg0 (by decide)).trans <| (V1_of m c main_arg0 (by decide)).trans rfl

theorem E3_arg2 (c : Dev nD) : E3 m c main_arg2 = m ((c.tc : Thread nD τ).loc main_arg2) :=
  (V3_of m c main_arg2 (by decide)).trans <| (V2_of m c main_arg2 (by decide)).trans <| (V1_of m c main_arg2 (by decide)).trans rfl

/-! ## The first stretch: the source and destination words -/

theorem v3_V1 (c : Dev nD) : V1 m c (Proc.devRef .tc main_v3) = refSrcVec (m ((c.tc : Thread nD τ).loc main_arg1)) := by
  show StableHlo.after hostOps0 (fun b => m (c, b)) (Proc.devRef .tc main_v3) = _
  after_results
  unfold Cert.ReferenceIdeal.RefValue.refSrcVec
  rfl

theorem v6_V1 (c : Dev nD) : V1 m c (Proc.devRef .tc main_v6) = refDstVec (m ((c.tc : Thread nD τ).loc main_arg1)) := by
  show StableHlo.after hostOps0 (fun b => m (c, b)) (Proc.devRef .tc main_v6) = _
  after_results
  unfold Cert.ReferenceIdeal.RefValue.refDstVec
  rfl

theorem v3_W3 (c : Dev nD) : W3 m c (Proc.devRef .tc main_v3) = refSrcVec (m ((c.tc : Thread nD τ).loc main_arg1)) :=
  (V3_of m c main_v3 (by decide)).trans ((V2_of m c main_v3 (by decide)).trans (v3_V1 m c))

theorem v6_W3 (c : Dev nD) : W3 m c (Proc.devRef .tc main_v6) = refDstVec (m ((c.tc : Thread nD τ).loc main_arg1)) :=
  (V3_of m c main_v6 (by decide)).trans ((V2_of m c main_v6 (by decide)).trans (v6_V1 m c))

/-! ## (KH2) the destination column -/

theorem v42_step (c : Dev nD) : E5 m c main_v42
    = broadcastInDim S680000x1 ![0] bcast_S680000_S680000x1_0 (W4 m c (Proc.devRef .tc main_v6)) := by
  show StableHlo.after hostOps1 (W4 m c) (Proc.devRef .tc main_v42) = _
  after_results

theorem KH2 (c : Dev nD) : E5 m c main_v42 = refDstCol (m ((c.tc : Thread nD τ).loc main_arg1)) := by
  rw [v42_step, W4_of_ne m c main_v6 (by decide), v6_W3]
  rfl

/-! ## (KH1) the messages

Stretch by stretch: the norm (second stretch), the edge weights (third), the messages (fourth, after the first
kernel). -/

set_option maxHeartbeats 2000000 in
theorem v14_V2 (c : Dev nD) : V2 m c (Proc.devRef .tc main_v14) = refNorm F (m ((c.tc : Thread nD τ).loc main_arg1)) := by
  show StableHlo.after hostOps0_1 (StableHlo.after hostOps0 (fun b => m (c, b))) (Proc.devRef .tc main_v14) = _
  after_results
  simp only [Cert.HostFold.ofBuf_toBuf]
  unfold Cert.ReferenceIdeal.RefValue.refNorm Cert.ReferenceIdeal.RefValue.refDeg
    Cert.ReferenceIdeal.RefValue.refDstCol Cert.ReferenceIdeal.RefValue.refDstVec
  rfl

set_option maxHeartbeats 2000000 in
theorem v29_V3 (c : Dev nD) : V3 m c (Proc.devRef .tc main_v29) = refWeights F (m ((c.tc : Thread nD τ).loc main_arg1)) := by
  show StableHlo.after hostOps0_2 (V2 m c) (Proc.devRef .tc main_v29) = _
  generalize hV : V2 m c = VV
  after_results
  subst hV
  rw [v14_V2, V2_of m c main_v3 (by decide), V2_of m c main_v6 (by decide), v3_V1, v6_V1]
  unfold Cert.ReferenceIdeal.RefValue.refWeights Cert.ReferenceIdeal.RefValue.wrapIdx
  rfl

theorem v29_W3 (c : Dev nD) : W3 m c (Proc.devRef .tc main_v29) = refWeights F (m ((c.tc : Thread nD τ).loc main_arg1)) := v29_V3 m c

set_option maxHeartbeats 2000000 in
theorem KH1 (c : Dev nD) : E5 m c main_v41
    = truncf .bf16 (refMsgsOf (m ((c.tc : Thread nD τ).loc main_arg1)) (W4 m c (Proc.devRef .tc main_v30))) bitsLt_bf16_f32 := by
  show StableHlo.after hostOps1 (W4 m c) (Proc.devRef .tc main_v41) = _
  after_results
  rw [W4_of_ne m c main_v29 (by decide), W4_of_ne m c main_v3 (by decide), v29_W3, v3_W3,
    Cert.ReferenceIdeal.RefValue.refMsgsOf_eq F]
  unfold Cert.ReferenceIdeal.RefValue.wrapIdx
  rfl

end AnyFloats

/-! ## Over the extended reals -/

variable (m : (ℓ : Loc nD τ sig) → Buf (Elt Ideal) ℓ)

/-! ### (KH3) the bias row -/

theorem v43_step (c : Dev nD) : (E5 m c main_v43 : FVec Ideal S1x128 .f32)
    = shapeCast S1x128 (m ((c.tc : Thread nD τ).loc main_arg3) : FVec Ideal S128 .f32) shapeCasts_S128_S1x128 := by
  show StableHlo.after hostOps1 (W4 m c) (Proc.devRef .tc main_v43) = _
  after_results
  rw [W4_arg3]
  rfl

theorem KH3 (c : Dev nD) (q : Fin 128) :
    (E5 m c main_v43 : FVec Ideal S1x128 .f32) (ix2 (0 : Fin 1) q)
      = (m ((c.tc : Thread nD τ).loc main_arg3) : FVec Ideal S128 .f32) (ix1 q) := by
  rw [v43_step]
  exact shapeCast_apply _ _ (ix2 (0 : Fin 1) q) (ix1 q)
    (by rw [Shape.rowMajor_val_two, Shape.rowMajor_val_one]; show q.val = 0 * 128 + q.val; omega)

/-! ### (KH0) the product of the first two arguments is the host's dot_general -/

theorem KH0 (a0 : FVec Ideal S40000x256 .f32) (a2 : FVec Ideal S256x128 .f32) :
    Cert.KernelIdeal.ValueXW.XW a0 a2
      = Host.dotGeneral (F := Ideal) (φ₁ := .f32) (φ₂ := .f32) Cert.ReferenceIdeal.dot_S40000x256_S256x128_S40000x128_1_0_0_1_n_n none a0 a2 := by
  funext j
  have h := Cert.PlainDot.dotGeneral_apply (M := 40000) (K := 256) (N := 128) Cert.ReferenceIdeal.dot_S40000x256_S256x128_S40000x128_1_0_0_1_n_n
    rfl rfl rfl rfl rfl rfl none .single a0 a2 (j 0) (j 1)
  exact ((congrArg (FloatOps.dotGeneral Cert.ReferenceIdeal.dot_S40000x256_S256x128_S40000x128_1_0_0_1_n_n none .single a0 a2) (eq_ix2 j)).trans h).symm

/-- The array the first kernel leaves is the product of the first two arguments. -/
theorem v30_eq (c : Dev nD) : W4 m c (Proc.devRef .tc main_v30)
    = Cert.KernelIdeal.ValueXW.XW (m ((c.tc : Thread nD τ).loc main_arg0)) (m ((c.tc : Thread nD τ).loc main_arg2)) := by
  have h := (W4_arr m c 2).trans (Cert.KernelIdeal.ValueXW.arr_xw (E3 m) c)
  rw [E3_arg0, E3_arg2] at h
  exact h

/-! ### The messages at an index -/

/-- Narrowing is the identity over the extended reals, and the array the first kernel leaves is XW. -/
theorem KH1_apply (c : Dev nD) (e : Fin 680000) (q : Fin 128) :
    (E5 m c main_v41 : FVec Ideal S680000x128 .bf16) (ix2 e q)
      = refMsgsOf (F := Ideal) (m ((c.tc : Thread nD τ).loc main_arg1)) (Cert.KernelIdeal.ValueXW.XW (m ((c.tc : Thread nD τ).loc main_arg0)) (m ((c.tc : Thread nD τ).loc main_arg2))) (ix2 e q) := by
  rw [KH1, v30_eq]
  rfl

/-- The same with the product written as the host's dot_general of the first two arguments. -/
theorem KH1_dot (c : Dev nD) (e : Fin 680000) (q : Fin 128) :
    (E5 m c main_v41 : FVec Ideal S680000x128 .bf16) (ix2 e q)
      = refMsgsOf (F := Ideal) (m ((c.tc : Thread nD τ).loc main_arg1))
          (Host.dotGeneral (F := Ideal) (φ₁ := .f32) (φ₂ := .f32) Cert.ReferenceIdeal.dot_S40000x256_S256x128_S40000x128_1_0_0_1_n_n none (m ((c.tc : Thread nD τ).loc main_arg0)) (m ((c.tc : Thread nD τ).loc main_arg2))) (ix2 e q) := by
  rw [KH1_apply, KH0]

end Cert.KernelIdeal.KHost

end
-- ==== Proof.Algebraic.lean ====
/-
  The two programs' results are one array.

  The kernel's program returns the first 40000 rows of the padded aggregate its second kernel leaves; entry (v, d) of that
  aggregate is max (∑ over the 170 tiles and the 4000 messages of a tile of [destination word = word of v] · message + b d, 0),
  the messages, the destination column and the bias row being what the host operations before that kernel computed.
  Those host operations are the reference's own: the destination column is the reference's index column, a message is
  the reference's message (the edge weight times the gathered row of x · W, the first kernel's array being x · W), the
  bias row is the bias vector. The tiles' indicator sums are the sum over the messages whose signed destination is v,
  which is what the reference's scatter-add puts in row v of a zero array; then both add b d and take the maximum with 0.
-/
import proofs.«110874_j70987219469122_1_alg».proof.Defs
import proofs.«110874_j70987219469122_1_alg».proof.Proof.FrameKernelIdeal.Run
import proofs.«110874_j70987219469122_1_alg».proof.Proof.RefValue
import proofs.«110874_j70987219469122_1_alg».proof.Proof.KernelOut
import proofs.«110874_j70987219469122_1_alg».proof.Proof.ValueAgg
import proofs.«110874_j70987219469122_1_alg».proof.Proof.BridgeLaw
import proofs.«110874_j70987219469122_1_alg».proof.Proof.KernelHost

set_option maxRecDepth 16384

noncomputable section

namespace Cert.Proof.Alg

open Idealize.ShloMosaic Idealize.ShloMosaic.TcCoe Idealize.SL.Sem Idealize.ShloMosaic.ValueIdx
open Cert.KernelIdeal Cert.KernelIdeal.Frame

section
variable (m : (ℓ : Loc nD τ sig) → Buf (Elt Ideal) ℓ) (c : Dev nD)

/-- The kernel's returned array at an index, in the reference's terms: the messages whose signed destination is the
    row, summed from 0, plus the bias, cut at 0. -/
theorem kernel_apply (j : S40000x128.Idx) :
    W7 m c (Proc.devRef .tc main_v45) j
      = max ((0 + ∑ e ∈ Finset.univ.filter (fun e : Fin 680000 => (Cert.ReferenceIdeal.RefValue.refDstCol (m ((c.tc : Thread nD τ).loc main_arg1)) (ix2 e 0)).toInt = ((j 0).val : ℤ)),
          Cert.ReferenceIdeal.RefValue.refMsgsOf (F := Ideal) (m ((c.tc : Thread nD τ).loc main_arg1))
            (Host.dotGeneral (F := Ideal) (φ₁ := .f32) (φ₂ := .f32) Cert.ReferenceIdeal.dot_S40000x256_S256x128_S40000x128_1_0_0_1_n_n none (m ((c.tc : Thread nD τ).loc main_arg0)) (m ((c.tc : Thread nD τ).loc main_arg2))) (ix2 e (j 1)))
        + ((m ((c.tc : Thread nD τ).loc main_arg3)) : S128.Idx → EReal) (ix1 (j 1))) 0 := by
  rw [Cert.KernelIdeal.KOut.out_apply m c j, Cert.KernelIdeal.ValueAgg.arr_agg (E5 m) c,
    Cert.KernelIdeal.BridgeLaw.agg_apply_idx _ _ _ ((m ((c.tc : Thread nD τ).loc main_arg3)) : S128.Idx → EReal) (Cert.KernelIdeal.KHost.KH3 m c) j, Cert.KernelIdeal.KHost.KH2 m c]
  refine congrArg (fun s : EReal => max ((0 + s) + ((m ((c.tc : Thread nD τ).loc main_arg3)) : S128.Idx → EReal) (ix1 (j 1 : Fin 128))) 0) ?_
  exact Finset.sum_congr rfl fun e _ => Cert.KernelIdeal.KHost.KH1_dot m c e (j 1)

/-- From memories agreeing on the four arguments, the reference's result term is the array the kernel's program returns with. -/
theorem value_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = (m ((c.tc : Thread nD τ).loc main_arg0))) (h1 : m' ((c.tc : Thread Cert.ReferenceIdeal.nD Cert.ReferenceIdeal.τ).loc Cert.ReferenceIdeal.main_arg1) = (m ((c.tc : Thread nD τ).loc main_arg1))) (h2 : m' ((c.tc : Thread Cert.ReferenceIdeal.nD Cert.ReferenceIdeal.τ).loc Cert.ReferenceIdeal.main_arg2) = (m ((c.tc : Thread nD τ).loc main_arg2))) (h3 : m' ((c.tc : Thread Cert.ReferenceIdeal.nD Cert.ReferenceIdeal.τ).loc Cert.ReferenceIdeal.main_arg3) = (m ((c.tc : Thread nD τ).loc main_arg3))) :
    Cert.ReferenceIdeal.ValueP.res_main_v47 (F := Ideal) m' c = W7 m c (Proc.devRef .tc main_v45) := by
  funext j
  rw [kernel_apply m c j]
  rw [Cert.ReferenceIdeal.RefValue.res_apply m' c j, h0, h1, h2, h3]
end

/-- Both idealized programs run from memories agreeing on the arguments, end with the same result array, and leave
    their arguments as they found them. -/
theorem algebraic : Cert.algebraic_KernelIdeal_ReferenceIdeal := by
  intro m ρ m' ρ' _ hagree
  refine ⟨fun c => W7 m c (Proc.devRef .tc main_v45), ?_, ?_⟩
  · exact (θ_run Cert.KernelIdeal.defs _ _).mono (fun r h c =>
      ⟨h c _ (mem_uc main_v45 (by decide)),
       (h c _ (mem_uc main_arg0 (by decide))).trans (W7_main_arg0 m c),
       (h c _ (mem_uc main_arg1 (by decide))).trans (W7_main_arg1 m c),
       (h c _ (mem_uc main_arg2 (by decide))).trans (W7_main_arg2 m c),
       (h c _ (mem_uc main_arg3 (by decide))).trans (W7_main_arg3 m c)⟩)
      (run_all m ρ)
  · refine (θ_run Cert.ReferenceIdeal.defs _ _).mono (fun r h c => ⟨(h c).1.trans ?_, (h c).2⟩)
      (Cert.ReferenceIdeal.ValueP.run (F := Ideal) m' ρ')
    exact value_eq m c m' (hagree c).1 (hagree c).2.1 (hagree c).2.2.1 (hagree c).2.2.2

end Cert.Proof.Alg

end
-- ==== Proof.lean ====
/-
  A graph-convolution layer, out = relu (Â · (x · W) + b), where Â is the adjacency of the edge list with a loop added
  at every node, each edge (s → t) weighted by deg(s)^(-1/2) · deg(t)^(-1/2), deg the in-degree counted with the loop.

  The reference forms the messages norm(e) · (x W)[src e, ·] and adds each into the row of its destination with one
  scatter-add. The kernel's program computes the degrees, the norms and the messages by the same host operations, forms
  x · W in a first kernel (row blocks of 2000, each a product into a zero accumulator), and replaces the scatter-add by a
  second kernel: for each block of 1280 node rows it walks the 680000 messages in 170 tiles of 4000, multiplies the
  transposed 0/1 indicator [destination of message = node] of the tile into the tile's messages, adds the product into
  an accumulator it keeps between tiles, and after the last tile stores max (accumulator + b, 0); the rows beyond 40000
  are padding and are sliced off.

  On the extended reals the two are one function, entry by entry: a product into a zero accumulator is the plain sum
  over the contracted axis; 1 · x = x and 0 · x = 0, so a tile's indicator product is the sum of the tile's messages
  sent to that row; the tiles' sums, added in order from 0, are the sum over all messages sent to that row (sums of
  extended reals may be regrouped); a destination word equals a row number below 2^31 exactly when its signed value
  does, which is the scatter-add's own test, and a destination outside 0..39999 lands in no kept row on either side.
  No step needs an input to be finite.

  The frames: each program's run is followed through its host stretches and its two kernel launches, every unscoped
  buffer's contents named at each boundary; the arguments are written by no host operation and by no kernel.
-/
import proofs.«110874_j70987219469122_1_alg».proof.Defs
import proofs.«110874_j70987219469122_1_alg».proof.Proof.Gen.Kernel
import proofs.«110874_j70987219469122_1_alg».proof.Proof.Gen.KernelIdeal
import proofs.«110874_j70987219469122_1_alg».proof.Proof.Gen.ReferenceIdeal
import proofs.«110874_j70987219469122_1_alg».proof.Proof.Gen.Pre_finite_inputs
import proofs.«110874_j70987219469122_1_alg».proof.Proof.FrameKernel.Run
import proofs.«110874_j70987219469122_1_alg».proof.Proof.FrameKernelIdeal.Run
import proofs.«110874_j70987219469122_1_alg».proof.Proof.RefValue
import proofs.«110874_j70987219469122_1_alg».proof.Proof.Algebraic
import Idealize.ShloMosaic.Adequacy
import Idealize.ShloMosaic.Init

noncomputable section

namespace Cert.Proof

open Idealize.ShloMosaic Idealize.SL.Sem

/-- The kernel's program as printed, at the word level: it runs to the end and leaves its arguments as launched. -/
theorem frame_p : Cert.frame_Kernel := fun m ρ _ => Cert.Kernel.Frame.frame m ρ
/-- The same program read on the extended reals. -/
theorem frame_pi : Cert.frame_KernelIdeal := fun m ρ _ => Cert.KernelIdeal.Frame.frame m ρ
/-- The reference, a host program without a kernel: its run, the result dropped. -/
theorem frame_ri : Cert.frame_ReferenceIdeal := Cert.ReferenceIdeal.RefValue.frame_ri
/-- The idealization rewrote no operation: nothing to preserve. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_p, frame_pi, frame_ri, preserves, Cert.Proof.Alg.algebraic⟩

end Cert.Proof

end
